-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S768x768 : Shape := ⟨2, ![768, 768]⟩
abbrev S768 : Shape := ⟨1, ![768]⟩
abbrev S1x1x2048x2048 : Shape := ⟨4, ![1, 1, 2048, 2048]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part2 {F : FTy → Type} [FloatOps F] (main_arg7 : FVec F S1x1x2048x2048 .f32) (main_v33 : IVec S_ 1) : IVec S_ 1 :=
  let main_v34 : FVec F S1x1x2048x2048 .f32 := Host.absf main_arg7
  let main_cst_12 : FVec F S_ .f32 := constant S_ .f32 0x7F800000#32
  let main_v35 : FVec F S1x1x2048x2048 .f32 := broadcastInDim S1x1x2048x2048 ![] bcast_S_S1x1x2048x2048 main_cst_12
  let main_v36 : IVec S1x1x2048x2048 1 := cmpf .olt main_v34 main_v35
  let main_c_13 : IVec S_ 1 := constantI S_ 1 1#1
  let main_v37 : IVec S_ 1 := (fun x v => Host.reduce IntOp.andi x v reducesTo_S1x1x2048x2048_S_d0_1_2_3 h_S_) main_v36 main_c_13
  let main_v38 : IVec S_ 1 := andi main_v33 main_v37
  main_v38

def fn_part1 {F : FTy → Type} [FloatOps F] (main_arg4 : FVec F S768 .f32) (main_arg5 : FVec F S768x768 .f32) (main_arg6 : FVec F S768 .f32) (main_arg7 : FVec F S1x1x2048x2048 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_v33

def fn {F : FTy → Type} [FloatOps F] (main_arg0 : FVec F S2x2048x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S1x1x2048x2048 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_v13 main_v16
-- ==== Kernel.lean ====
abbrev S2x2048x768 : Shape := ⟨3, ![2, 2048, 768]⟩
abbrev S768x768 : Shape := ⟨2, ![768, 768]⟩
abbrev S768 : Shape := ⟨1, ![768]⟩
abbrev S1x1x2048x2048 : Shape := ⟨4, ![1, 1, 2048, 2048]⟩
abbrev S768x2304 : Shape := ⟨2, ![768, 2304]⟩
abbrev S2304 : Shape := ⟨1, ![2304]⟩
abbrev S4096x768 : Shape := ⟨2, ![4096, 768]⟩
abbrev S2x12x2048x64 : Shape := ⟨4, ![2, 12, 2048, 64]⟩
abbrev S512x768 : Shape := ⟨2, ![512, 768]⟩
abbrev S1x12x512x64 : Shape := ⟨4, ![1, 12, 512, 64]⟩
abbrev S512x2304 : Shape := ⟨2, ![512, 2304]⟩
abbrev S1x2304 : Shape := ⟨2, ![1, 2304]⟩
abbrev S512x12x64 : Shape := ⟨3, ![512, 12, 64]⟩
abbrev S12x512x64 : Shape := ⟨3, ![12, 512, 64]⟩
abbrev S2x12x2048x2048 : Shape := ⟨4, ![2, 12, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S2x2048x12x64 : Shape := ⟨4, ![2, 2048, 12, 64]⟩

abbrev nBuf : Space → Nat
  | .hbm => 21
  | .vmem => 22
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S1x1x2048x2048, .f32⟩
  | .hbm, ⟨8, _⟩ => ⟨S768x768, .f32⟩
  | .hbm, ⟨9, _⟩ => ⟨S768x768, .f32⟩
  | .hbm, ⟨10, _⟩ => ⟨S768x768, .f32⟩
  | .hbm, ⟨11, _⟩ => ⟨S768x2304, .f32⟩
  | .hbm, ⟨12, _⟩ => ⟨S768x2304, .bf16⟩
  | .hbm, ⟨13, _⟩ => ⟨S2304, .f32⟩
  | .hbm, ⟨14, _⟩ => ⟨S4096x768, .f32⟩
  | .hbm, ⟨15, _⟩ => ⟨S2x12x2048x64, .bf16⟩
  | .hbm, ⟨16, _⟩ => ⟨S2x12x2048x64, .bf16⟩
  | .hbm, ⟨17, _⟩ => ⟨S2x12x2048x64, .bf16⟩
  | .hbm, ⟨18, _⟩ => ⟨S2x12x2048x2048, .f32⟩
  | .hbm, ⟨19, _⟩ => ⟨S2x12x2048x64, .f32⟩
  | .hbm, ⟨20, _⟩ => ⟨S2x2048x12x64, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S2304, .f32⟩
  | .local _ .vmem, ⟨4, _⟩ => ⟨S1x12x512x64, .bf16⟩
  | .local _ .vmem, ⟨5, _⟩ => ⟨S1x12x512x64, .bf16⟩
  | .local _ .vmem, ⟨6, _⟩ => ⟨S1x12x512x64, .bf16⟩
  | .local _ .vmem, ⟨7, _⟩ => ⟨S1x12x512x64, .bf16⟩
  | .local _ .vmem, ⟨8, _⟩ => ⟨S1x12x512x64, .bf16⟩
  | .local _ .vmem, ⟨9, _⟩ => ⟨S1x12x512x64, .bf16⟩
  | .local _ .vmem, ⟨10, _⟩ => ⟨S1x1x512x64, .bf16⟩
  | .local _ .vmem, ⟨11, _⟩ => ⟨S1x1x512x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x2048x64, .bf16⟩
  | .local _ .vmem, ⟨15, _⟩ => ⟨S1x1x2048x64, .bf16⟩
  | .local _ .vmem, ⟨16, _⟩ => ⟨S1x1x512x2048, .f32⟩
  | .local _ .vmem, ⟨17, _⟩ => ⟨S1x1x512x2048, .f32⟩
  | .local _ .vmem, ⟨18, _⟩ => ⟨S1x1x512x2048, .f32⟩
  | .local _ .vmem, ⟨19, _⟩ => ⟨S1x1x512x2048, .f32⟩
  | .local _ .vmem, ⟨20, _⟩ => ⟨S1x1x512x64, .f32⟩
  | .local _ .vmem, ⟨21, _⟩ => ⟨S1x1x512x64, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x12x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x12x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x12x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 2, 12], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1x1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1x512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

class Facts₀ : Prop where
  transposes_S768x768_S768x768_1_0 : S768x768.Transposes [1, 0] S768x768
  concatenates_S768x768_S768x768_S768x768_S768x2304_d1 : Shape.Concatenates [S768x768, S768x768, S768x768] S768x2304 1
  bitsLt_bf16_f32 : FTy.bits .bf16 < FTy.bits .f32
  concatenates_S768_S768_S768_S2304_d0 : Shape.Concatenates [S768, S768, S768] S2304 0
  shapeCasts_S2x2048x768_S4096x768 : S2x2048x768.ShapeCasts S4096x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S2304_S2304_0 : ∀ a, (![0] : Fin 1 → Nat) a + S2304.size a ≤ S2304.size a
  h_S2304 : 0 < S2304.numel
  shapeCasts_S2304_S2304 : S2304.ShapeCasts S2304
  shapeCasts_S2304_S1x2304 : S2304.ShapeCasts S1x2304
  broadcasts_S1x2304_S512x2304 : S1x2304.Broadcasts S512x2304
  slices_S512x2304_o0_0_S512x768 : S512x2304.Slices ![0, 0] S512x768
  shapeCasts_S512x768_S512x12x64 : S512x768.ShapeCasts S512x12x64
  transposes_S512x12x64_p1_0_2_S12x512x64 : S512x12x64.Transposes [1, 0, 2] S12x512x64
  slices_S512x2304_o0_768_S512x768 : S512x2304.Slices ![0, 768] S512x768
  slices_S512x2304_o0_1536_S512x768 : S512x2304.Slices ![0, 1536] S512x768
  inb_S1x12x512x64_S1x12x512x64_0_0_0_0 : ∀ a, (![0, 0, 0, 0] : Fin 4 → Nat) a + S1x12x512x64.size a ≤ S1x12x512x64.size a
  h_S1x12x512x64 : 0 < S1x12x512x64.numel
  shapeCasts_S1x12x512x64_S12x512x64 : S1x12x512x64.ShapeCasts S12x512x64
  shapeCasts_S12x512x64_S1x12x512x64 : S12x512x64.ShapeCasts S1x12x512x64
  packedbf16_S1x12x512x64_S1x12x512x64_0_0_0_0 : (Rect.unit (s := S1x12x512x64) ![0, 0, 0, 0] S1x12x512x64.size inb_S1x12x512x64_S1x12x512x64_0_0_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  transposes_S2x12x2048x64_S2x2048x12x64_0_2_1_3 : S2x12x2048x64.Transposes [0, 2, 1, 3] S2x2048x12x64
  dot_S512x768_S768x2304_S512x2304_1_0_0_1_n_n_wf : DotDims.WF S512x768 S768x2304 S512x2304 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12x512x64.size a ≤ S2x12x2048x64.size a
  hwx0_3 : ∀ i : grid0.Coords, EltTy.bits .bf16 = 32 ∨ (Rect.block (s := S2x12x2048x64) S1x12x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x12x512x64.size a ≤ S2x12x2048x64.size a
  hwx0_4 : ∀ i : grid0.Coords, EltTy.bits .bf16 = 32 ∨ (Rect.block (s := S2x12x2048x64) S1x12x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x12x512x64.size a ≤ S2x12x2048x64.size a
  hwx0_5 : ∀ i : grid0.Coords, EltTy.bits .bf16 = 32 ∨ (Rect.block (s := S2x12x2048x64) S1x12x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x12x2048x64.size a
  hwx1_0 : ∀ i : grid1.Coords, EltTy.bits .bf16 = 32 ∨ (Rect.block (s := S2x12x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x12x2048x64.size a
  hwx1_1 : ∀ i : grid1.Coords, EltTy.bits .bf16 = 32 ∨ (Rect.block (s := S2x12x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x12x2048x64.size a
  hwx1_2 : ∀ i : grid1.Coords, EltTy.bits .bf16 = 32 ∨ (Rect.block (s := S2x12x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x2048.size a ≤ S1x1x2048x2048.size a
  hwx1_3 : ∀ i : grid1.Coords, EltTy.bits .f32 = 32 ∨ (Rect.block (s := S1x1x2048x2048) S1x1x512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512x2048.size a ≤ S2x12x2048x2048.size a
  hwx1_4 : ∀ i : grid1.Coords, EltTy.bits .f32 = 32 ∨ (Rect.block (s := S2x12x2048x2048) S1x1x512x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x512x64.size a ≤ S2x12x2048x64.size a
  hwx1_5 : ∀ i : grid1.Coords, EltTy.bits .f32 = 32 ∨ (Rect.block (s := S2x12x2048x64) S1x1x512x64.size (cc1_transform_5 i) (hinb1_5 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v6) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x12x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x12x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x12x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7_0) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_2) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1x1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_0) S1x1x512x2048.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8_1) S1x1x512x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x2048x768 : Shape := ⟨3, ![2, 2048, 768]⟩
abbrev S768x768 : Shape := ⟨2, ![768, 768]⟩
abbrev S768 : Shape := ⟨1, ![768]⟩
abbrev S1x1x2048x2048 : Shape := ⟨4, ![1, 1, 2048, 2048]⟩
abbrev S1x1x768 : Shape := ⟨3, ![1, 1, 768]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S1x1x2048x2048, .f32⟩
  | .hbm, ⟨8, _⟩ => ⟨S2x2048x768, .f32⟩
  | .hbm, ⟨9, _⟩ => ⟨S1x1x768, .f32⟩
  | .hbm, ⟨10, _⟩ => ⟨S2x2048x768, .f32⟩
  | .hbm, ⟨11, _⟩ => ⟨S2x2048x768, .f32⟩
  | .hbm, ⟨12, _⟩ => ⟨S2x2048x12x64, .f32⟩
  | .hbm, ⟨13, _⟩ => ⟨S2x12x2048x64, .f32⟩
  | .hbm, ⟨14, _⟩ => ⟨S2x2048x768, .f32⟩
  | .hbm, ⟨15, _⟩ => ⟨S1x1x768, .f32⟩
  | .hbm, ⟨16, _⟩ => ⟨S2x2048x768, .f32⟩
  | .hbm, ⟨17, _⟩ => ⟨S2x2048x768, .f32⟩
  | .hbm, ⟨18, _⟩ => ⟨S2x2048x12x64, .f32⟩
  | .hbm, ⟨19, _⟩ => ⟨S2x12x2048x64, .f32⟩
  | .hbm, ⟨20, _⟩ => ⟨S2x2048x768, .f32⟩
  | .hbm, ⟨21, _⟩ => ⟨S1x1x768, .f32⟩
  | .hbm, ⟨22, _⟩ => ⟨S2x2048x768, .f32⟩
  | .hbm, ⟨23, _⟩ => ⟨S2x2048x768, .f32⟩
  | .hbm, ⟨24, _⟩ => ⟨S2x2048x12x64, .f32⟩
  | .hbm, ⟨25, _⟩ => ⟨S2x12x2048x64, .f32⟩
  | .hbm, ⟨26, _⟩ => ⟨S2x12x2048x2048, .f32⟩
  | .hbm, ⟨27, _⟩ => ⟨S_, .f32⟩
  | .hbm, ⟨28, _⟩ => ⟨S2x12x2048x2048, .f32⟩
  | .hbm, ⟨29, _⟩ => ⟨S2x12x2048x2048, .f32⟩
  | .hbm, ⟨30, _⟩ => ⟨S2x12x2048x2048, .f32⟩
  | .hbm, ⟨31, _⟩ => ⟨S2x12x2048x2048, .f32⟩
  | .hbm, ⟨32, _⟩ => ⟨S_, .f32⟩
  | .hbm, ⟨33, _⟩ => ⟨S2x12x2048, .f32⟩
  | .hbm, ⟨34, _⟩ => ⟨S_, .f32⟩
  | .hbm, ⟨35, _⟩ => ⟨S2x12x2048, .f32⟩
  | .hbm, ⟨36, _⟩ => ⟨S2x12x2048, .f32⟩
  | .hbm, ⟨37, _⟩ => ⟨S2x12x2048x1, .f32⟩
  | .hbm, ⟨38, _⟩ => ⟨S2x12x2048x2048, .f32⟩
  | .hbm, ⟨39, _⟩ => ⟨S2x12x2048x2048, .f32⟩
  | .hbm, ⟨40, _⟩ => ⟨S2x12x2048x2048, .f32⟩
  | .hbm, ⟨41, _⟩ => ⟨S_, .f32⟩
  | .hbm, ⟨42, _⟩ => ⟨S2x12x2048, .f32⟩
  | .hbm, ⟨43, _⟩ => ⟨S2x12x2048x1, .f32⟩
  | .hbm, ⟨44, _⟩ => ⟨S2x12x2048x2048, .f32⟩
  | .hbm, ⟨45, _⟩ => ⟨S2x12x2048x2048, .f32⟩
  | .hbm, ⟨46, _⟩ => ⟨S2x12x2048x64, .f32⟩
  | .hbm, ⟨47, _⟩ => ⟨S2x2048x12x64, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S2x2048x768_0_1_2 : S1x1x768.BroadcastsInDim S2x2048x768 (![0, 1, 2] : Fin 3 → Fin S2x2048x768.rank)
  shapeCasts_S2x2048x768_S2x2048x12x64 : S2x2048x768.ShapeCasts S2x2048x12x64
  transposes_S2x2048x12x64_S2x12x2048x64_0_2_1_3 : S2x2048x12x64.Transposes [0, 2, 1, 3] S2x12x2048x64
  bcast_S_S2x12x2048x2048 : S_.BroadcastsInDim S2x12x2048x2048 (![] : Fin 0 → Fin S2x12x2048x2048.rank)
  bcast_S1x1x2048x2048_S2x12x2048x2048_0_1_2_3 : S1x1x2048x2048.BroadcastsInDim S2x12x2048x2048 (![0, 1, 2, 3] : Fin 4 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  dot_S2x2048x768_S768x768_S2x2048x768_2_1_01_0_n_n_wf : DotDims.WF S2x2048x768 S768x768 S2x2048x768 [2] [1] [0, 1] [0] [] []
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x2048x768_S768x768_S2x2048x768_2_1_01_0_n_n : DotDims S2x2048x768 S768x768 S2x2048x768 where
  lhsContracting := [2]
  rhsContracting := [1]
  lhsNonContracting := [0, 1]
  rhsNonContracting := [0]
  lhsBatch := []
  rhsBatch := []
  wf := dot_S2x2048x768_S768x768_S2x2048x768_2_1_01_0_n_n_wf
def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.KbBody0.lean ====
/-
  The projection kernel's body, run once on symbolic staging buffers.

  The body loads its three input blocks whole (a block of 512 rows of x, the whole weight array, the whole bias
  row), and stores one whole block into each of its three outputs; each stored block is a pure function of the three
  loaded ones.  So after the body an output's staging buffer holds exactly that function of the input blocks,
  whatever it held before, and the inputs' buffers are as they were.
-/
import proofs.«109455_j8770323219237_2_alg».proof.Proof.Gen.Kernel.Launch
import proofs.«109455_j8770323219237_2_alg».proof.Proof.Gen.Kernel.Skeleton
import proofs.«109455_j8770323219237_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles the body loads and stores through. -/
abbrev rx : Rect S512x768 := Rect.unit (s := S512x768) ![0, 0] S512x768.size inb_S512x768_S512x768_0_0
abbrev rw_ : Rect S768x2304 := Rect.unit (s := S768x2304) ![0, 0] S768x2304.size inb_S768x2304_S768x2304_0_0
abbrev rb : Rect S2304 := Rect.unit (s := S2304) ![0] S2304.size inb_S2304_S2304_0
abbrev ro : Rect S1x12x512x64 := Rect.unit (s := S1x12x512x64) ![0, 0, 0, 0] S1x12x512x64.size inb_S1x12x512x64_S1x12x512x64_0_0_0_0

/-- What the body leaves in the query output's buffer: its one store, over the loaded blocks. -/
def outQ (x : Vec F S512x768 .f32) (w : Vec F S768x2304 .bf16) (b : Vec F S2304 .f32) : Vec F S1x12x512x64 .bf16 :=
  View.canon [⟨ro, k0_pay2 (View.ld x rx) (View.ld w rw_) (View.ld b rb)⟩]
/-- … in the key output's buffer … -/
def outK (x : Vec F S512x768 .f32) (w : Vec F S768x2304 .bf16) (b : Vec F S2304 .f32) : Vec F S1x12x512x64 .bf16 :=
  View.canon [⟨ro, k0_pay3 (View.ld x rx) (View.ld w rw_) (View.ld b rb)⟩]
/-- … and in the value output's buffer. -/
def outV (x : Vec F S512x768 .f32) (w : Vec F S768x2304 .bf16) (b : Vec F S2304 .f32) : Vec F S1x12x512x64 .bf16 :=
  View.canon [⟨ro, k0_pay4 (View.ld x rx) (View.ld w rw_) (View.ld b rb)⟩]

/-- A single whole-block store covers the block. -/
theorem cover_o (p : Vec F S1x12x512x64 .bf16) (y : S1x12x512x64.Idx) :
    ∃ pc ∈ ([⟨ro, p⟩] : List (View.Piece (Elt F) S1x12x512x64 .bf16)), y ∈ pc.1.set :=
  View.cover_of_tiled [⟨ro, p⟩] S1x12x512x64.size (by rfl) y

set_option maxHeartbeats 1000000 in
/-- The body on whole staging memrefs: the inputs' at read contents `x`, `w`, `b`, the outputs' at anything; it runs to
    the continuation holding the inputs as they were and each output at its function of the inputs. -/
theorem sound_kernel0 (c : Dev nD) (E : Set ℕ) (i : grid0.Coords)
    (a1 : Memref sig .tc .vmem S512x768 .f32) (h1 : a1.IsWhole) (a2 : Memref sig .tc .vmem S768x2304 .bf16) (h2 : a2.IsWhole)
    (a3 : Memref sig .tc .vmem S2304 .f32) (h3 : a3.IsWhole) (a4 : Memref sig .tc .vmem S1x12x512x64 .bf16) (h4 : a4.IsWhole)
    (a5 : Memref sig .tc .vmem S1x12x512x64 .bf16) (h5 : a5.IsWhole) (a6 : Memref sig .tc .vmem S1x12x512x64 .bf16) (h6 : a6.IsWhole)
    (x : Vec F S512x768 .f32) (w : Vec F S768x2304 .bf16) (b : Vec F S2304 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x ∗ owns (c : Thread nD τ) a2 fullShare w ∗ owns (c : Thread nD τ) a3 fullShare b
            ∗ owns (c : Thread nD τ) a4 fullShare (outQ x w b) ∗ owns (c : Thread nD τ) a5 fullShare (outK x w b)
            ∗ owns (c : Thread nD τ) a6 fullShare (outV x w b)) -∗ K ⟨⟩))
      ⊢ wp frame (wpE (defs₀ (F := F)) Variants.none c none) E (cc0__qkv_proj_kernel i a1 h1 a2 h2 a3 h3 a4 h4 a5 h5 a6 h6) K := by
  simp only [cc0__qkv_proj_kernel_eq_skeleton]; unfold cc0__qkv_proj_kernel_skel
  unfold owns
  iintro ⟨⟨%f1, %e1, H1⟩, ⟨%f2, %e2, H2⟩, ⟨%f3, %e3, H3⟩, ⟨%d4, %f4, -, H4⟩, ⟨%d5, %f5, -, H5⟩, ⟨%d6, %f6, -, H6⟩, Hk⟩
  subst e1; subst e2; subst e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_o _)
  isplitl [H5]
  · iexists _; isplitr
    swap; · iexact H5
    ipureintro
    exact View.read_writes_eq_canon _ _ _ (cover_o _)
  iexists _; isplitr
  swap; · iexact H6
  ipureintro
  exact View.read_writes_eq_canon _ _ _ (cover_o _)

end Cert.Kernel.Fr

end
-- ==== Proof.KbRegion0.lean ====
/-
  The projection pipeline's proof data and body obligation.

  Window 0 is the block of 512 rows of x, windows 1 and 2 the whole weight array and bias row (fetched once), windows
  3 to 5 the query, key and value outputs' blocks.  At every grid point each input's staging buffer holds that
  window's block of its array, and the body leaves in each output's buffer its function of the three input blocks.
-/
import proofs.«109455_j8770323219237_2_alg».proof.Proof.KbBody0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter here, fixed by the run
variable (V : (c : Dev nD) → (b : Ref sig .tc) → Buf (Elt F) ((c : Thread nD τ).loc b))

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or the
    block index did not move, for any proof data over these arrays whose body leaves the block in place. -/
theorem in0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block at every point, whether the pipeline fetched it there or the
    block index did not move, for any proof data over these arrays whose body leaves the block in place. -/
theorem in0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block at every point, whether the pipeline fetched it there or the
    block index did not move, for any proof data over these arrays whose body leaves the block in place. -/
theorem in0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The proof data of this pipeline on core `c`: the arrays as the region finds them; after the body at point `t` each
    input's buffer at its block and each output's at the body's function of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => outQ (blk0 V c 0 t) (blk0 V c 1 t) (blk0 V c 2 t)
    | ⟨4, _⟩ => outK (blk0 V c 0 t) (blk0 V c 1 t) (blk0 V c 2 t)
    | ⟨5, _⟩ => outV (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = outQ (blk0 V c 0 t) (blk0 V c 1 t) (blk0 V c 2 t) := by dsimp only [dat0]
theorem after0_4 (c : Dev nD) (t : Fin cfg0.N) : (dat0 V c).after 4 t = outK (blk0 V c 0 t) (blk0 V c 1 t) (blk0 V c 2 t) := by dsimp only [dat0]
theorem after0_5 (c : Dev nD) (t : Fin cfg0.N) : (dat0 V c).after 5 t = outV (blk0 V c 0 t) (blk0 V c 1 t) (blk0 V c 2 t) := by dsimp only [dat0]
theorem before0_0 (c : Dev nD) (t : Fin cfg0.N) (d) : (dat0 V c).before 0 t d = blk0 V c 0 t :=
  in0_0_of V (dat0 V c) (A_eq0 V c 0) (after0_0 V c) t d
theorem before0_1 (c : Dev nD) (t : Fin cfg0.N) (d) : (dat0 V c).before 1 t d = blk0 V c 1 t :=
  in0_1_of V (dat0 V c) (A_eq0 V c 1) (after0_1 V c) t d
theorem before0_2 (c : Dev nD) (t : Fin cfg0.N) (d) : (dat0 V c).before 2 t d = blk0 V c 2 t :=
  in0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KbBody1.lean ====
/-
  The attention kernel's body, run once on symbolic staging buffers.

  The body loads its four input blocks whole (512 query rows, all 2048 key rows and value rows of one batch and head,
  a block of 512 mask rows), stores the block of attention weights whole and the block of output rows whole; both
  stored blocks are pure functions of the loaded ones.
-/
import proofs.«109455_j8770323219237_2_alg».proof.Proof.Gen.Kernel.Launch
import proofs.«109455_j8770323219237_2_alg».proof.Proof.Gen.Kernel.Skeleton
import proofs.«109455_j8770323219237_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles the body loads and stores through. -/
abbrev rq : Rect S1x1x512x64 := Rect.unit (s := S1x1x512x64) ![0, 0, 0, 0] S1x1x512x64.size inb_S1x1x512x64_S1x1x512x64_0_0_0_0
abbrev rk : Rect S1x1x2048x64 := Rect.unit (s := S1x1x2048x64) ![0, 0, 0, 0] S1x1x2048x64.size inb_S1x1x2048x64_S1x1x2048x64_0_0_0_0
abbrev rm : Rect S1x1x512x2048 := Rect.unit (s := S1x1x512x2048) ![0, 0, 0, 0] S1x1x512x2048.size inb_S1x1x512x2048_S1x1x512x2048_0_0_0_0

/-- What the body leaves in the weights' buffer: its one store, over the loaded blocks. -/
def outA (q : Vec F S1x1x512x64 .bf16) (k : Vec F S1x1x2048x64 .bf16) (mk : Vec F S1x1x512x2048 .f32) : Vec F S1x1x512x2048 .f32 :=
  View.canon [⟨rm, k1_pay3 (View.ld q rq) (View.ld k rk) (View.ld mk rm)⟩]
/-- … and in the output rows' buffer. -/
def outH (q : Vec F S1x1x512x64 .bf16) (k v : Vec F S1x1x2048x64 .bf16) (mk : Vec F S1x1x512x2048 .f32) : Vec F S1x1x512x64 .f32 :=
  View.canon [⟨rq, k1_pay1 (k1_pay4 (View.ld q rq) (View.ld k rk) (View.ld v rk) (View.ld mk rm))⟩]

/-- A single whole-block store covers the block. -/
theorem cover_a (p : Vec F S1x1x512x2048 .f32) (y : S1x1x512x2048.Idx) :
    ∃ pc ∈ ([⟨rm, p⟩] : List (View.Piece (Elt F) S1x1x512x2048 .f32)), y ∈ pc.1.set :=
  View.cover_of_tiled [⟨rm, p⟩] S1x1x512x2048.size (by rfl) y
theorem cover_h (p : Vec F S1x1x512x64 .f32) (y : S1x1x512x64.Idx) :
    ∃ pc ∈ ([⟨rq, p⟩] : List (View.Piece (Elt F) S1x1x512x64 .f32)), y ∈ pc.1.set :=
  View.cover_of_tiled [⟨rq, p⟩] S1x1x512x64.size (by rfl) y

set_option maxHeartbeats 1000000 in
/-- The body on whole staging memrefs: the inputs' at read contents `q`, `k`, `v`, `mk`, the outputs' at anything; it
    runs to the continuation holding the inputs as they were and each output at its function of the inputs. -/
theorem sound_kernel1 (c : Dev nD) (E : Set ℕ) (i : grid1.Coords)
    (a3 : Memref sig .tc .vmem S1x1x512x64 .bf16) (h3 : a3.IsWhole) (a4 : Memref sig .tc .vmem S1x1x2048x64 .bf16) (h4 : a4.IsWhole)
    (a5 : Memref sig .tc .vmem S1x1x2048x64 .bf16) (h5 : a5.IsWhole) (a6 : Memref sig .tc .vmem S1x1x512x2048 .f32) (h6 : a6.IsWhole)
    (a7 : Memref sig .tc .vmem S1x1x512x2048 .f32) (h7 : a7.IsWhole) (a8 : Memref sig .tc .vmem S1x1x512x64 .f32) (h8 : a8.IsWhole)
    (q : Vec F S1x1x512x64 .bf16) (k v : Vec F S1x1x2048x64 .bf16) (mk : Vec F S1x1x512x2048 .f32) (K : PUnit → sProp 𝕄) :
    iprop(owns (c : Thread nD τ) a3 fullShare q ∗ owns (c : Thread nD τ) a4 fullShare k ∗ owns (c : Thread nD τ) a5 fullShare v
        ∗ owns (c : Thread nD τ) a6 fullShare mk
        ∗ (∃ d, owns (c : Thread nD τ) a7 fullShare d) ∗ (∃ d, owns (c : Thread nD τ) a8 fullShare d)
        ∗ (iprop(owns (c : Thread nD τ) a3 fullShare q ∗ owns (c : Thread nD τ) a4 fullShare k ∗ owns (c : Thread nD τ) a5 fullShare v
            ∗ owns (c : Thread nD τ) a6 fullShare mk
            ∗ owns (c : Thread nD τ) a7 fullShare (outA q k mk) ∗ owns (c : Thread nD τ) a8 fullShare (outH q k v mk)) -∗ K ⟨⟩))
      ⊢ wp frame (wpE (defs₀ (F := F)) Variants.none c none) E (cc1__attn_kernel i a3 h3 a4 h4 a5 h5 a6 h6 a7 h7 a8 h8) K := by
  simp only [cc1__attn_kernel_eq_skeleton]; unfold cc1__attn_kernel_skel
  simp only [k1_part1_eq_skeleton]; unfold k1_part1_skel
  unfold owns
  iintro ⟨⟨%f3, %e3, H3⟩, ⟨%f4, %e4, H4⟩, ⟨%f5, %e5, H5⟩, ⟨%f6, %e6, H6⟩, ⟨%d7, %f7, -, H7⟩, ⟨%d8, %f8, -, H8⟩, Hk⟩
  subst e3; subst e4; subst e5; subst e6
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_a _)
  iexists _; isplitr
  swap; · iexact H8
  ipureintro
  exact View.read_writes_eq_canon _ _ _ (cover_h _)

end Cert.Kernel.Fr

end
-- ==== Proof.KbRegion1.lean ====
/-
  The attention pipeline's proof data and body obligation.

  Windows 0 to 2 are the query block (512 rows) and the whole key and value slabs of one batch and head, window 3 the
  block of 512 mask rows, windows 4 and 5 the blocks of attention weights and output rows.  At every grid point each
  input's staging buffer holds that window's block of its array, and the body leaves in each output's buffer its
  function of the input blocks.
-/
import proofs.«109455_j8770323219237_2_alg».proof.Proof.KbBody1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter here, fixed by the run
variable (V : (c : Dev nD) → (b : Ref sig .tc) → Buf (Elt F) ((c : Thread nD τ).loc b))

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or the
    block index did not move, for any proof data over these arrays whose body leaves the block in place. -/
theorem in1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, whether the pipeline fetched it there or the
    block index did not move, for any proof data over these arrays whose body leaves the block in place. -/
theorem in1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at every point, whether the pipeline fetched it there or the
    block index did not move, for any proof data over these arrays whose body leaves the block in place. -/
theorem in1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's staging buffer holds its block at every point, whether the pipeline fetched it there or the
    block index did not move, for any proof data over these arrays whose body leaves the block in place. -/
theorem in1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The proof data of this pipeline on core `c`: the arrays as the region finds them; after the body at point `t` each
    input's buffer at its block and each output's at the body's function of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outA (blk1 V c 0 t) (blk1 V c 1 t) (blk1 V c 3 t)
    | ⟨5, _⟩ => outH (blk1 V c 0 t) (blk1 V c 1 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = outA (blk1 V c 0 t) (blk1 V c 1 t) (blk1 V c 3 t) := by dsimp only [dat1]
theorem after1_5 (c : Dev nD) (t : Fin cfg1.N) : (dat1 V c).after 5 t = outH (blk1 V c 0 t) (blk1 V c 1 t) (blk1 V c 2 t) (blk1 V c 3 t) := by dsimp only [dat1]
theorem before1_0 (c : Dev nD) (t : Fin cfg1.N) (d) : (dat1 V c).before 0 t d = blk1 V c 0 t :=
  in1_0_of V (dat1 V c) (A_eq1 V c 0) (after1_0 V c) t d
theorem before1_1 (c : Dev nD) (t : Fin cfg1.N) (d) : (dat1 V c).before 1 t d = blk1 V c 1 t :=
  in1_1_of V (dat1 V c) (A_eq1 V c 1) (after1_1 V c) t d
theorem before1_2 (c : Dev nD) (t : Fin cfg1.N) (d) : (dat1 V c).before 2 t d = blk1 V c 2 t :=
  in1_2_of V (dat1 V c) (A_eq1 V c 2) (after1_2 V c) t d
theorem before1_3 (c : Dev nD) (t : Fin cfg1.N) (d) : (dat1 V c).before 3 t d = blk1 V c 3 t :=
  in1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KbRun.lean ====
/-
  The whole run of the program: host operations, the projection pipeline, the attention pipeline, one more host
  operation.

  The contents of the unscoped buffers are followed from the launch through the four stretches: a stretch of host
  operations applies them in order; a pipeline leaves in each of its arrays what its write-backs leave (the inputs as
  entered, each output the blocks the body stored, point after point) and every other buffer as entered.  Every
  weakly fair execution terminates, and the final memory holds every unscoped buffer at the last of these contents.
-/
import proofs.«109455_j8770323219237_2_alg».proof.Proof.KbRegion0
import proofs.«109455_j8770323219237_2_alg».proof.Proof.KbRegion1
import proofs.«109455_j8770323219237_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first stretch of host operations (the projection region's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the projection region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references: the attention region's entry (no host operation lies between). -/
abbrev E2 : (c : Dev nD) → (b : Ref sig .tc) → Buf (Elt F) ((c : Thread nD τ).loc b) := fun c b => B2 m ρ c b
theorem left0 (c : Dev nD) (w : Fin cfg0.W) : (dat0 (E1 m ρ) c).arrAt w cfg0.N = E2 m ρ c (Pipeline.arrRef spec0 w) :=
  (B2_arr m ρ c w).symm
theorem kept0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- At the attention region's exit. -/
def B4 (c : Dev nD) : Valuation τ sig (Elt F) :=
  Pipeline.withArrays spec1 c (B2 m ρ c) fun w => (dat1 (E2 m ρ) c).arrAt w cfg1.N
theorem B4_arr (c : Dev nD) (w : Fin cfg1.W) :
    B4 m ρ c (Proc.devRef .tc (Pipeline.arrRef spec1 w)) = (dat1 (E2 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B2 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem left1 (c : Dev nD) (w : Fin cfg1.W) : (dat1 (E2 m ρ) c).arrAt w cfg1.N = E4 m ρ c (Pipeline.arrRef spec1 w) :=
  (B4_arr m ρ c w).symm
theorem kept1 (c : Dev nD) : ∀ b, b ∉ Finset.univ.image (Pipeline.arrRef spec1) → E4 m ρ c b = E2 m ρ c b :=
  fun b hb => B4_of_ne m ρ c b fun w e => hb (Finset.mem_image.mpr ⟨w, Finset.mem_univ _, e⟩)
/-- After the last host operation: the contents the program ends with. -/
abbrev B5 : Dev nD → Valuation τ sig (Elt F) := fun c => StableHlo.after hostOps2 (B4 m ρ c)

/-! ## The proof data family and what rides beside the buffers -/

abbrev admK : (p : Fin 2) → (pcfgs (F := F) p).Adm := fun p => (cfgs p).toPCfg_adm
/-- Every pipeline's proof data, each at its region's entry contents. -/
def pdatsK : (p : Fin 2) → (c : Dev nD) → Dat τ (Elt F) Unit ℕ (UR sig nD τ) ℕ (Pipeline.pin (pcfgs (F := F)) admK p) c
  | ⟨0, _⟩ => fun c => dat0 (E1 m ρ) c
  | ⟨1, _⟩ => fun c => dat1 (E2 m ρ) c
abbrev Var0 : Variants := Variants.none
abbrev L0 : GSem nD τ sig → Finset Unit := fun _ => ∅
abbrev lv0 : GSem nD τ sig → Unit → ℕ := fun _ _ => 0
/-- Beside the buffers: the core's generator register at some state, and the core owing nothing. -/
abbrev Rest (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Var0 L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (B5 m ρ c) ∗ ∃ r, prngReg c r)

/-! ## The regions as segments -/

-- the pipeline library's entailments are stated over a pinned configuration; unifying with it unfolds definitions in
-- a metavariable's type
set_option backward.isDefEq.respectTransparency.types false in
/-- The projection region as a segment of the run: entered with every unscoped buffer at `B1`, left with them at
    `B2`.  Its arrays are split out of the unscoped buffers on entry and put back at what the pipeline leaves on exit;
    the generator register goes into the pipeline's invariant and comes back; nothing is owed and the kernel has no
    semaphore of its own. -/
def region0 : Pipeline.RegionSeg (pcfgs (F := F)) admK (pdatsK m ρ) () defs₀ Var0 L0 lv0 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L0 lv0 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (E1 m ρ c) (E2 m ρ c) ((pdatsK m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pipeline library's entailments are stated over a pinned configuration; unifying with it unfolds definitions in
-- a metavariable's type
set_option backward.isDefEq.respectTransparency.types false in
/-- The attention region as a segment of the run: entered with every unscoped buffer at `B2`, left with them at
    `B4`.  Its arrays are split out of the unscoped buffers on entry and put back at what the pipeline leaves on exit;
    the generator register goes into the pipeline's invariant and comes back; nothing is owed and the kernel has no
    semaphore of its own. -/
def region1 : Pipeline.RegionSeg (pcfgs (F := F)) admK (pdatsK m ρ) () defs₀ Var0 L0 lv0 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L0 lv0 1 fun _ _ => rfl
  pre c := iprop(StableHlo.held (c : Thread nD τ) (Pipeline.ucRefs τ sig) (B2 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (E2 m ρ c) (E4 m ρ c) ((pdatsK m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's four segments in order. -/
abbrev segsK : List (Pipeline.Seg (pcfgs (F := F)) admK (pdatsK m ρ) () defs₀ Var0 L0 lv0) :=
  [ .host (hseg hostOps0 hostOps0_sub hostOps0_fresh (B0 m ρ)),
    .region (region0 m ρ),
    .region (region1 m ρ),
    .host (hseg hostOps2 hostOps2_sub hostOps2_fresh (B4 m ρ)) ]
theorem main_run (c : Dev nD) : main (F := F) c = Pipeline.Seg.run (segsK m ρ) := (main_chain c).trans (by chain_rfl)

set_option backward.isDefEq.respectTransparency.types false in
/-- Every weakly fair execution of the program from memory `m` with zero counters terminates, nothing faulting, and
    the final memory holds every unscoped buffer at `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) admK (pdatsK m ρ) () cellOf_inj emb₁ defs₀ Var0 L0 lv0 m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tend m ρ)
    (hch := ⟨fun _ => .rfl, fun _ => .rfl, fun _ => .rfl, fun _ => .rfl, fun c => by
      show iprop(StableHlo.held (c : Thread nD τ) (Pipeline.ucRefs τ sig) (B5 m ρ c) ∗ Rest c) ⊢ _
      iintro ⟨Hh, Hp, HO⟩
      isplitl [Hh Hp]
      · isplitl [Hh]; · iexact Hh
        iexact Hp
      iexact HO⟩)
    (hinit := by
      refine Pipeline.initEach L0 lv0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

end Cert.Kernel.Fr

end
-- ==== Proof.KbFrame.lean ====
/-
  The frame of the program: it runs to the end, faults nowhere, and its eight argument arrays end as launched.

  No host operation writes an argument and no pipeline has one among its output arrays, so following an argument's
  buffer back through the four stretches of the run reaches the launch memory.
-/
import proofs.«109455_j8770323219237_2_alg».proof.Proof.KbRun

noncomputable section

namespace Cert.Kernel.Fr

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no host operation writes and that is no output array of either pipeline ends as launched. For an
    input array of a pipeline the pipeline leaves it as entered. -/
theorem B5_of_arg (c : Dev nD) (r : Ref sig .tc) (h0 : r ∉ hostOps0_W) (h2 : r ∉ hostOps2_W)
    (hp0 : ∀ w, (cfg0.win w).isOut = true → Pipeline.arrRef spec0 w ≠ r) (hp1 : ∀ w, (cfg1.win w).isOut = true → Pipeline.arrRef spec1 w ≠ r) :
    B5 m ρ c (Proc.devRef .tc r) = m ((c : Thread nD τ).loc r) := by
  have e5 : B5 m ρ c (Proc.devRef .tc r) = B4 m ρ c (Proc.devRef .tc r) :=
    StableHlo.after_of_writes_sub hostOps2 _ hostOps2_writes h2
  have e4 : B4 m ρ c (Proc.devRef .tc r) = B2 m ρ c (Proc.devRef .tc r) := by
    by_cases hw : ∃ w, Pipeline.arrRef spec1 w = r
    · obtain ⟨w, rfl⟩ := hw
      have hin : (cfg1.win w).isOut = false := by
        cases hio : (cfg1.win w).isOut
        · rfl
        · exact absurd rfl (hp1 w hio)
      exact (B4_arr m ρ c w).trans (((dat1 (E2 m ρ) c).arrAt_in w hin _).trans (A_eq1 (E2 m ρ) c w))
    · exact B4_of_ne m ρ c r fun w e => hw ⟨w, e⟩
  have e2 : B2 m ρ c (Proc.devRef .tc r) = B1 m ρ c (Proc.devRef .tc r) := by
    by_cases hw : ∃ w, Pipeline.arrRef spec0 w = r
    · obtain ⟨w, rfl⟩ := hw
      have hin : (cfg0.win w).isOut = false := by
        cases hio : (cfg0.win w).isOut
        · rfl
        · exact absurd rfl (hp0 w hio)
      exact (B2_arr m ρ c w).trans (((dat0 (E1 m ρ) c).arrAt_in w hin _).trans (A_eq0 (E1 m ρ) c w))
    · exact B2_of_ne m ρ c r fun w e => hw ⟨w, e⟩
  have e1 : B1 m ρ c (Proc.devRef .tc r) = B0 m ρ c (Proc.devRef .tc r) :=
    StableHlo.after_of_writes_sub hostOps0 _ hostOps0_writes h0
  exact e5.trans (e4.trans (e2.trans (e1.trans rfl)))

/-- Each argument is such a buffer. -/
theorem B5_arg (c : Dev nD) (r : Ref sig .tc)
    (hr : r ∈ ([main_arg0, main_arg1, main_arg2, main_arg3, main_arg4, main_arg5, main_arg6, main_arg7] : List (Ref sig .tc))) :
    B5 m ρ c (Proc.devRef .tc r) = m ((c : Thread nD τ).loc r) := by
  have hall : ∀ r ∈ ([main_arg0, main_arg1, main_arg2, main_arg3, main_arg4, main_arg5, main_arg6, main_arg7] : List (Ref sig .tc)),
      r ∉ (hostOps0_W : List (Ref sig .tc)) ∧ r ∉ (hostOps2_W : List (Ref sig .tc))
        ∧ (∀ w, (cfg0.win w).isOut = true → Pipeline.arrRef spec0 w ≠ r) ∧ (∀ w, (cfg1.win w).isOut = true → Pipeline.arrRef spec1 w ≠ r) := by
    decide
  obtain ⟨h0, h2, hp0, hp1⟩ := hall r hr
  exact B5_of_arg m ρ c r h0 h2 hp0 hp1

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B5_arg m ρ c main_arg0 (by decide)),
     (h c _ (mem_uc main_arg1 (by decide))).trans (B5_arg m ρ c main_arg1 (by decide)),
     (h c _ (mem_uc main_arg2 (by decide))).trans (B5_arg m ρ c main_arg2 (by decide)),
     (h c _ (mem_uc main_arg3 (by decide))).trans (B5_arg m ρ c main_arg3 (by decide)),
     (h c _ (mem_uc main_arg4 (by decide))).trans (B5_arg m ρ c main_arg4 (by decide)),
     (h c _ (mem_uc main_arg5 (by decide))).trans (B5_arg m ρ c main_arg5 (by decide)),
     (h c _ (mem_uc main_arg6 (by decide))).trans (B5_arg m ρ c main_arg6 (by decide)),
     (h c _ (mem_uc main_arg7 (by decide))).trans (B5_arg m ρ c main_arg7 (by decide))⟩)
    (run_all m ρ)

end Cert.Kernel.Fr

end
-- ==== Proof.KiBody0.lean ====
/-
  The projection kernel's body, run once on symbolic staging buffers.

  The body loads its three input blocks whole (a block of 512 rows of x, the whole weight array, the whole bias
  row), and stores one whole block into each of its three outputs; each stored block is a pure function of the three
  loaded ones.  So after the body an output's staging buffer holds exactly that function of the input blocks,
  whatever it held before, and the inputs' buffers are as they were.
-/
import proofs.«109455_j8770323219237_2_alg».proof.Proof.Gen.KernelIdeal.Launch
import proofs.«109455_j8770323219237_2_alg».proof.Proof.Gen.KernelIdeal.Skeleton
import proofs.«109455_j8770323219237_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles the body loads and stores through. -/
abbrev rx : Rect S512x768 := Rect.unit (s := S512x768) ![0, 0] S512x768.size inb_S512x768_S512x768_0_0
abbrev rw_ : Rect S768x2304 := Rect.unit (s := S768x2304) ![0, 0] S768x2304.size inb_S768x2304_S768x2304_0_0
abbrev rb : Rect S2304 := Rect.unit (s := S2304) ![0] S2304.size inb_S2304_S2304_0
abbrev ro : Rect S1x12x512x64 := Rect.unit (s := S1x12x512x64) ![0, 0, 0, 0] S1x12x512x64.size inb_S1x12x512x64_S1x12x512x64_0_0_0_0

/-- What the body leaves in the query output's buffer: its one store, over the loaded blocks. -/
def outQ (x : Vec F S512x768 .f32) (w : Vec F S768x2304 .bf16) (b : Vec F S2304 .f32) : Vec F S1x12x512x64 .bf16 :=
  View.canon [⟨ro, k0_pay2 (View.ld x rx) (View.ld w rw_) (View.ld b rb)⟩]
/-- … in the key output's buffer … -/
def outK (x : Vec F S512x768 .f32) (w : Vec F S768x2304 .bf16) (b : Vec F S2304 .f32) : Vec F S1x12x512x64 .bf16 :=
  View.canon [⟨ro, k0_pay3 (View.ld x rx) (View.ld w rw_) (View.ld b rb)⟩]
/-- … and in the value output's buffer. -/
def outV (x : Vec F S512x768 .f32) (w : Vec F S768x2304 .bf16) (b : Vec F S2304 .f32) : Vec F S1x12x512x64 .bf16 :=
  View.canon [⟨ro, k0_pay4 (View.ld x rx) (View.ld w rw_) (View.ld b rb)⟩]

/-- A single whole-block store covers the block. -/
theorem cover_o (p : Vec F S1x12x512x64 .bf16) (y : S1x12x512x64.Idx) :
    ∃ pc ∈ ([⟨ro, p⟩] : List (View.Piece (Elt F) S1x12x512x64 .bf16)), y ∈ pc.1.set :=
  View.cover_of_tiled [⟨ro, p⟩] S1x12x512x64.size (by rfl) y

set_option maxHeartbeats 1000000 in
/-- The body on whole staging memrefs: the inputs' at read contents `x`, `w`, `b`, the outputs' at anything; it runs to
    the continuation holding the inputs as they were and each output at its function of the inputs. -/
theorem sound_kernel0 (c : Dev nD) (E : Set ℕ) (i : grid0.Coords)
    (a1 : Memref sig .tc .vmem S512x768 .f32) (h1 : a1.IsWhole) (a2 : Memref sig .tc .vmem S768x2304 .bf16) (h2 : a2.IsWhole)
    (a3 : Memref sig .tc .vmem S2304 .f32) (h3 : a3.IsWhole) (a4 : Memref sig .tc .vmem S1x12x512x64 .bf16) (h4 : a4.IsWhole)
    (a5 : Memref sig .tc .vmem S1x12x512x64 .bf16) (h5 : a5.IsWhole) (a6 : Memref sig .tc .vmem S1x12x512x64 .bf16) (h6 : a6.IsWhole)
    (x : Vec F S512x768 .f32) (w : Vec F S768x2304 .bf16) (b : Vec F S2304 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x ∗ owns (c : Thread nD τ) a2 fullShare w ∗ owns (c : Thread nD τ) a3 fullShare b
            ∗ owns (c : Thread nD τ) a4 fullShare (outQ x w b) ∗ owns (c : Thread nD τ) a5 fullShare (outK x w b)
            ∗ owns (c : Thread nD τ) a6 fullShare (outV x w b)) -∗ K ⟨⟩))
      ⊢ wp frame (wpE (defs₀ (F := F)) Variants.none c none) E (cc0__qkv_proj_kernel i a1 h1 a2 h2 a3 h3 a4 h4 a5 h5 a6 h6) K := by
  simp only [cc0__qkv_proj_kernel_eq_skeleton]; unfold cc0__qkv_proj_kernel_skel
  unfold owns
  iintro ⟨⟨%f1, %e1, H1⟩, ⟨%f2, %e2, H2⟩, ⟨%f3, %e3, H3⟩, ⟨%d4, %f4, -, H4⟩, ⟨%d5, %f5, -, H5⟩, ⟨%d6, %f6, -, H6⟩, Hk⟩
  subst e1; subst e2; subst e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover_o _)
  isplitl [H5]
  · iexists _; isplitr
    swap; · iexact H5
    ipureintro
    exact View.read_writes_eq_canon _ _ _ (cover_o _)
  iexists _; isplitr
  swap; · iexact H6
  ipureintro
  exact View.read_writes_eq_canon _ _ _ (cover_o _)

end Cert.KernelIdeal.Fr

end
-- ==== Proof.KiRegion0.lean ====
/-
  The projection pipeline's proof data and body obligation.

  Window 0 is the block of 512 rows of x, windows 1 and 2 the whole weight array and bias row (fetched once), windows
  3 to 5 the query, key and value outputs' blocks.  At every grid point each input's staging buffer holds that
  window's block of its array, and the body leaves in each output's buffer its function of the three input blocks.
-/
import proofs.«109455_j8770323219237_2_alg».proof.Proof.KiBody0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter here, fixed by the run
variable (V : (c : Dev nD) → (b : Ref sig .tc) → Buf (Elt F) ((c : Thread nD τ).loc b))

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or the
    block index did not move, for any proof data over these arrays whose body leaves the block in place. -/
theorem in0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's staging buffer holds its block at every point, whether the pipeline fetched it there or the
    block index did not move, for any proof data over these arrays whose body leaves the block in place. -/
theorem in0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's staging buffer holds its block at every point, whether the pipeline fetched it there or the
    block index did not move, for any proof data over these arrays whose body leaves the block in place. -/
theorem in0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The proof data of this pipeline on core `c`: the arrays as the region finds them; after the body at point `t` each
    input's buffer at its block and each output's at the body's function of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => outQ (blk0 V c 0 t) (blk0 V c 1 t) (blk0 V c 2 t)
    | ⟨4, _⟩ => outK (blk0 V c 0 t) (blk0 V c 1 t) (blk0 V c 2 t)
    | ⟨5, _⟩ => outV (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = outQ (blk0 V c 0 t) (blk0 V c 1 t) (blk0 V c 2 t) := by dsimp only [dat0]
theorem after0_4 (c : Dev nD) (t : Fin cfg0.N) : (dat0 V c).after 4 t = outK (blk0 V c 0 t) (blk0 V c 1 t) (blk0 V c 2 t) := by dsimp only [dat0]
theorem after0_5 (c : Dev nD) (t : Fin cfg0.N) : (dat0 V c).after 5 t = outV (blk0 V c 0 t) (blk0 V c 1 t) (blk0 V c 2 t) := by dsimp only [dat0]
theorem before0_0 (c : Dev nD) (t : Fin cfg0.N) (d) : (dat0 V c).before 0 t d = blk0 V c 0 t :=
  in0_0_of V (dat0 V c) (A_eq0 V c 0) (after0_0 V c) t d
theorem before0_1 (c : Dev nD) (t : Fin cfg0.N) (d) : (dat0 V c).before 1 t d = blk0 V c 1 t :=
  in0_1_of V (dat0 V c) (A_eq0 V c 1) (after0_1 V c) t d
theorem before0_2 (c : Dev nD) (t : Fin cfg0.N) (d) : (dat0 V c).before 2 t d = blk0 V c 2 t :=
  in0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiBody1.lean ====
/-
  The attention kernel's body, run once on symbolic staging buffers.

  The body loads its four input blocks whole (512 query rows, all 2048 key rows and value rows of one batch and head,
  a block of 512 mask rows), stores the block of attention weights whole and the block of output rows whole; both
  stored blocks are pure functions of the loaded ones.
-/
import proofs.«109455_j8770323219237_2_alg».proof.Proof.Gen.KernelIdeal.Launch
import proofs.«109455_j8770323219237_2_alg».proof.Proof.Gen.KernelIdeal.Skeleton
import proofs.«109455_j8770323219237_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-block rectangles the body loads and stores through. -/
abbrev rq : Rect S1x1x512x64 := Rect.unit (s := S1x1x512x64) ![0, 0, 0, 0] S1x1x512x64.size inb_S1x1x512x64_S1x1x512x64_0_0_0_0
abbrev rk : Rect S1x1x2048x64 := Rect.unit (s := S1x1x2048x64) ![0, 0, 0, 0] S1x1x2048x64.size inb_S1x1x2048x64_S1x1x2048x64_0_0_0_0
abbrev rm : Rect S1x1x512x2048 := Rect.unit (s := S1x1x512x2048) ![0, 0, 0, 0] S1x1x512x2048.size inb_S1x1x512x2048_S1x1x512x2048_0_0_0_0

/-- What the body leaves in the weights' buffer: its one store, over the loaded blocks. -/
def outA (q : Vec F S1x1x512x64 .bf16) (k : Vec F S1x1x2048x64 .bf16) (mk : Vec F S1x1x512x2048 .f32) : Vec F S1x1x512x2048 .f32 :=
  View.canon [⟨rm, k1_pay3 (View.ld q rq) (View.ld k rk) (View.ld mk rm)⟩]
/-- … and in the output rows' buffer. -/
def outH (q : Vec F S1x1x512x64 .bf16) (k v : Vec F S1x1x2048x64 .bf16) (mk : Vec F S1x1x512x2048 .f32) : Vec F S1x1x512x64 .f32 :=
  View.canon [⟨rq, k1_pay1 (k1_pay4 (View.ld q rq) (View.ld k rk) (View.ld v rk) (View.ld mk rm))⟩]

/-- A single whole-block store covers the block. -/
theorem cover_a (p : Vec F S1x1x512x2048 .f32) (y : S1x1x512x2048.Idx) :
    ∃ pc ∈ ([⟨rm, p⟩] : List (View.Piece (Elt F) S1x1x512x2048 .f32)), y ∈ pc.1.set :=
  View.cover_of_tiled [⟨rm, p⟩] S1x1x512x2048.size (by rfl) y
theorem cover_h (p : Vec F S1x1x512x64 .f32) (y : S1x1x512x64.Idx) :
    ∃ pc ∈ ([⟨rq, p⟩] : List (View.Piece (Elt F) S1x1x512x64 .f32)), y ∈ pc.1.set :=
  View.cover_of_tiled [⟨rq, p⟩] S1x1x512x64.size (by rfl) y

set_option maxHeartbeats 1000000 in
/-- The body on whole staging memrefs: the inputs' at read contents `q`, `k`, `v`, `mk`, the outputs' at anything; it
    runs to the continuation holding the inputs as they were and each output at its function of the inputs. -/
theorem sound_kernel1 (c : Dev nD) (E : Set ℕ) (i : grid1.Coords)
    (a3 : Memref sig .tc .vmem S1x1x512x64 .bf16) (h3 : a3.IsWhole) (a4 : Memref sig .tc .vmem S1x1x2048x64 .bf16) (h4 : a4.IsWhole)
    (a5 : Memref sig .tc .vmem S1x1x2048x64 .bf16) (h5 : a5.IsWhole) (a6 : Memref sig .tc .vmem S1x1x512x2048 .f32) (h6 : a6.IsWhole)
    (a7 : Memref sig .tc .vmem S1x1x512x2048 .f32) (h7 : a7.IsWhole) (a8 : Memref sig .tc .vmem S1x1x512x64 .f32) (h8 : a8.IsWhole)
    (q : Vec F S1x1x512x64 .bf16) (k v : Vec F S1x1x2048x64 .bf16) (mk : Vec F S1x1x512x2048 .f32) (K : PUnit → sProp 𝕄) :
    iprop(owns (c : Thread nD τ) a3 fullShare q ∗ owns (c : Thread nD τ) a4 fullShare k ∗ owns (c : Thread nD τ) a5 fullShare v
        ∗ owns (c : Thread nD τ) a6 fullShare mk
        ∗ (∃ d, owns (c : Thread nD τ) a7 fullShare d) ∗ (∃ d, owns (c : Thread nD τ) a8 fullShare d)
        ∗ (iprop(owns (c : Thread nD τ) a3 fullShare q ∗ owns (c : Thread nD τ) a4 fullShare k ∗ owns (c : Thread nD τ) a5 fullShare v
            ∗ owns (c : Thread nD τ) a6 fullShare mk
            ∗ owns (c : Thread nD τ) a7 fullShare (outA q k mk) ∗ owns (c : Thread nD τ) a8 fullShare (outH q k v mk)) -∗ K ⟨⟩))
      ⊢ wp frame (wpE (defs₀ (F := F)) Variants.none c none) E (cc1__attn_kernel i a3 h3 a4 h4 a5 h5 a6 h6 a7 h7 a8 h8) K := by
  simp only [cc1__attn_kernel_eq_skeleton]; unfold cc1__attn_kernel_skel
  simp only [k1_part1_eq_skeleton]; unfold k1_part1_skel
  unfold owns
  iintro ⟨⟨%f3, %e3, H3⟩, ⟨%f4, %e4, H4⟩, ⟨%f5, %e5, H5⟩, ⟨%f6, %e6, H6⟩, ⟨%d7, %f7, -, H7⟩, ⟨%d8, %f8, -, H8⟩, Hk⟩
  subst e3; subst e4; subst e5; subst e6
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_a _)
  iexists _; isplitr
  swap; · iexact H8
  ipureintro
  exact View.read_writes_eq_canon _ _ _ (cover_h _)

end Cert.KernelIdeal.Fr

end
-- ==== Proof.KiRegion1.lean ====
/-
  The attention pipeline's proof data and body obligation.

  Windows 0 to 2 are the query block (512 rows) and the whole key and value slabs of one batch and head, window 3 the
  block of 512 mask rows, windows 4 and 5 the blocks of attention weights and output rows.  At every grid point each
  input's staging buffer holds that window's block of its array, and the body leaves in each output's buffer its
  function of the input blocks.
-/
import proofs.«109455_j8770323219237_2_alg».proof.Proof.KiBody1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter here, fixed by the run
variable (V : (c : Dev nD) → (b : Ref sig .tc) → Buf (Elt F) ((c : Thread nD τ).loc b))

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or the
    block index did not move, for any proof data over these arrays whose body leaves the block in place. -/
theorem in1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's staging buffer holds its block at every point, whether the pipeline fetched it there or the
    block index did not move, for any proof data over these arrays whose body leaves the block in place. -/
theorem in1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's staging buffer holds its block at every point, whether the pipeline fetched it there or the
    block index did not move, for any proof data over these arrays whose body leaves the block in place. -/
theorem in1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's staging buffer holds its block at every point, whether the pipeline fetched it there or the
    block index did not move, for any proof data over these arrays whose body leaves the block in place. -/
theorem in1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The proof data of this pipeline on core `c`: the arrays as the region finds them; after the body at point `t` each
    input's buffer at its block and each output's at the body's function of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outA (blk1 V c 0 t) (blk1 V c 1 t) (blk1 V c 3 t)
    | ⟨5, _⟩ => outH (blk1 V c 0 t) (blk1 V c 1 t) (blk1 V c 2 t) (blk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = outA (blk1 V c 0 t) (blk1 V c 1 t) (blk1 V c 3 t) := by dsimp only [dat1]
theorem after1_5 (c : Dev nD) (t : Fin cfg1.N) : (dat1 V c).after 5 t = outH (blk1 V c 0 t) (blk1 V c 1 t) (blk1 V c 2 t) (blk1 V c 3 t) := by dsimp only [dat1]
theorem before1_0 (c : Dev nD) (t : Fin cfg1.N) (d) : (dat1 V c).before 0 t d = blk1 V c 0 t :=
  in1_0_of V (dat1 V c) (A_eq1 V c 0) (after1_0 V c) t d
theorem before1_1 (c : Dev nD) (t : Fin cfg1.N) (d) : (dat1 V c).before 1 t d = blk1 V c 1 t :=
  in1_1_of V (dat1 V c) (A_eq1 V c 1) (after1_1 V c) t d
theorem before1_2 (c : Dev nD) (t : Fin cfg1.N) (d) : (dat1 V c).before 2 t d = blk1 V c 2 t :=
  in1_2_of V (dat1 V c) (A_eq1 V c 2) (after1_2 V c) t d
theorem before1_3 (c : Dev nD) (t : Fin cfg1.N) (d) : (dat1 V c).before 3 t d = blk1 V c 3 t :=
  in1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KiRun.lean ====
/-
  The whole run of the program: host operations, the projection pipeline, the attention pipeline, one more host
  operation.

  The contents of the unscoped buffers are followed from the launch through the four stretches: a stretch of host
  operations applies them in order; a pipeline leaves in each of its arrays what its write-backs leave (the inputs as
  entered, each output the blocks the body stored, point after point) and every other buffer as entered.  Every
  weakly fair execution terminates, and the final memory holds every unscoped buffer at the last of these contents.
-/
import proofs.«109455_j8770323219237_2_alg».proof.Proof.KiRegion0
import proofs.«109455_j8770323219237_2_alg».proof.Proof.KiRegion1
import proofs.«109455_j8770323219237_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the first stretch of host operations (the projection region's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At the projection region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references: the attention region's entry (no host operation lies between). -/
abbrev E2 : (c : Dev nD) → (b : Ref sig .tc) → Buf (Elt F) ((c : Thread nD τ).loc b) := fun c b => B2 m ρ c b
theorem left0 (c : Dev nD) (w : Fin cfg0.W) : (dat0 (E1 m ρ) c).arrAt w cfg0.N = E2 m ρ c (Pipeline.arrRef spec0 w) :=
  (B2_arr m ρ c w).symm
theorem kept0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- At the attention region's exit. -/
def B4 (c : Dev nD) : Valuation τ sig (Elt F) :=
  Pipeline.withArrays spec1 c (B2 m ρ c) fun w => (dat1 (E2 m ρ) c).arrAt w cfg1.N
theorem B4_arr (c : Dev nD) (w : Fin cfg1.W) :
    B4 m ρ c (Proc.devRef .tc (Pipeline.arrRef spec1 w)) = (dat1 (E2 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B2 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem left1 (c : Dev nD) (w : Fin cfg1.W) : (dat1 (E2 m ρ) c).arrAt w cfg1.N = E4 m ρ c (Pipeline.arrRef spec1 w) :=
  (B4_arr m ρ c w).symm
theorem kept1 (c : Dev nD) : ∀ b, b ∉ Finset.univ.image (Pipeline.arrRef spec1) → E4 m ρ c b = E2 m ρ c b :=
  fun b hb => B4_of_ne m ρ c b fun w e => hb (Finset.mem_image.mpr ⟨w, Finset.mem_univ _, e⟩)
/-- After the last host operation: the contents the program ends with. -/
abbrev B5 : Dev nD → Valuation τ sig (Elt F) := fun c => StableHlo.after hostOps2 (B4 m ρ c)

/-! ## The proof data family and what rides beside the buffers -/

abbrev admK : (p : Fin 2) → (pcfgs (F := F) p).Adm := fun p => (cfgs p).toPCfg_adm
/-- Every pipeline's proof data, each at its region's entry contents. -/
def pdatsK : (p : Fin 2) → (c : Dev nD) → Dat τ (Elt F) Unit ℕ (UR sig nD τ) ℕ (Pipeline.pin (pcfgs (F := F)) admK p) c
  | ⟨0, _⟩ => fun c => dat0 (E1 m ρ) c
  | ⟨1, _⟩ => fun c => dat1 (E2 m ρ) c
abbrev Var0 : Variants := Variants.none
abbrev L0 : GSem nD τ sig → Finset Unit := fun _ => ∅
abbrev lv0 : GSem nD τ sig → Unit → ℕ := fun _ _ => 0
/-- Beside the buffers: the core's generator register at some state, and the core owing nothing. -/
abbrev Rest (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Var0 L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tend (c : Dev nD) : sProp 𝕄 := iprop(StableHlo.held (c : Thread nD τ) (Pipeline.ucRefs τ sig) (B5 m ρ c) ∗ ∃ r, prngReg c r)

/-! ## The regions as segments -/

-- the pipeline library's entailments are stated over a pinned configuration; unifying with it unfolds definitions in
-- a metavariable's type
set_option backward.isDefEq.respectTransparency.types false in
/-- The projection region as a segment of the run: entered with every unscoped buffer at `B1`, left with them at
    `B2`.  Its arrays are split out of the unscoped buffers on entry and put back at what the pipeline leaves on exit;
    the generator register goes into the pipeline's invariant and comes back; nothing is owed and the kernel has no
    semaphore of its own. -/
def region0 : Pipeline.RegionSeg (pcfgs (F := F)) admK (pdatsK m ρ) () defs₀ Var0 L0 lv0 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L0 lv0 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admK (pdatsK m ρ) launch0.win launch0.arr_whole c
      ((pdatsK m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsK m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdatsK m ρ) ((pdatsK m ρ 0 c).share_full fun _ => rfl)
      (E1 m ρ c) (E2 m ρ c) ((pdatsK m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pipeline library's entailments are stated over a pinned configuration; unifying with it unfolds definitions in
-- a metavariable's type
set_option backward.isDefEq.respectTransparency.types false in
/-- The attention region as a segment of the run: entered with every unscoped buffer at `B2`, left with them at
    `B4`.  Its arrays are split out of the unscoped buffers on entry and put back at what the pipeline leaves on exit;
    the generator register goes into the pipeline's invariant and comes back; nothing is owed and the kernel has no
    semaphore of its own. -/
def region1 : Pipeline.RegionSeg (pcfgs (F := F)) admK (pdatsK m ρ) () defs₀ Var0 L0 lv0 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L0 lv0 1 fun _ _ => rfl
  pre c := iprop(StableHlo.held (c : Thread nD τ) (Pipeline.ucRefs τ sig) (B2 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admK (pdatsK m ρ) launch1.win launch1.arr_whole c
      ((pdatsK m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsK m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsK m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdatsK m ρ) ((pdatsK m ρ 1 c).share_full fun _ => rfl)
      (E2 m ρ c) (E4 m ρ c) ((pdatsK m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's four segments in order. -/
abbrev segsK : List (Pipeline.Seg (pcfgs (F := F)) admK (pdatsK m ρ) () defs₀ Var0 L0 lv0) :=
  [ .host (hseg hostOps0 hostOps0_sub hostOps0_fresh (B0 m ρ)),
    .region (region0 m ρ),
    .region (region1 m ρ),
    .host (hseg hostOps2 hostOps2_sub hostOps2_fresh (B4 m ρ)) ]
theorem main_run (c : Dev nD) : main (F := F) c = Pipeline.Seg.run (segsK m ρ) := (main_chain c).trans (by chain_rfl)

set_option backward.isDefEq.respectTransparency.types false in
/-- Every weakly fair execution of the program from memory `m` with zero counters terminates, nothing faulting, and
    the final memory holds every unscoped buffer at `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) admK (pdatsK m ρ) () cellOf_inj emb₁ defs₀ Var0 L0 lv0 m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tend m ρ)
    (hch := ⟨fun _ => .rfl, fun _ => .rfl, fun _ => .rfl, fun _ => .rfl, fun c => by
      show iprop(StableHlo.held (c : Thread nD τ) (Pipeline.ucRefs τ sig) (B5 m ρ c) ∗ Rest c) ⊢ _
      iintro ⟨Hh, Hp, HO⟩
      isplitl [Hh Hp]
      · isplitl [Hh]; · iexact Hh
        iexact Hp
      iexact HO⟩)
    (hinit := by
      refine Pipeline.initEach L0 lv0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h => h)

end Cert.KernelIdeal.Fr

end
-- ==== Proof.KiFrame.lean ====
/-
  The frame of the program: it runs to the end, faults nowhere, and its eight argument arrays end as launched.

  No host operation writes an argument and no pipeline has one among its output arrays, so following an argument's
  buffer back through the four stretches of the run reaches the launch memory.
-/
import proofs.«109455_j8770323219237_2_alg».proof.Proof.KiRun

noncomputable section

namespace Cert.KernelIdeal.Fr

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no host operation writes and that is no output array of either pipeline ends as launched. For an
    input array of a pipeline the pipeline leaves it as entered. -/
theorem B5_of_arg (c : Dev nD) (r : Ref sig .tc) (h0 : r ∉ hostOps0_W) (h2 : r ∉ hostOps2_W)
    (hp0 : ∀ w, (cfg0.win w).isOut = true → Pipeline.arrRef spec0 w ≠ r) (hp1 : ∀ w, (cfg1.win w).isOut = true → Pipeline.arrRef spec1 w ≠ r) :
    B5 m ρ c (Proc.devRef .tc r) = m ((c : Thread nD τ).loc r) := by
  have e5 : B5 m ρ c (Proc.devRef .tc r) = B4 m ρ c (Proc.devRef .tc r) :=
    StableHlo.after_of_writes_sub hostOps2 _ hostOps2_writes h2
  have e4 : B4 m ρ c (Proc.devRef .tc r) = B2 m ρ c (Proc.devRef .tc r) := by
    by_cases hw : ∃ w, Pipeline.arrRef spec1 w = r
    · obtain ⟨w, rfl⟩ := hw
      have hin : (cfg1.win w).isOut = false := by
        cases hio : (cfg1.win w).isOut
        · rfl
        · exact absurd rfl (hp1 w hio)
      exact (B4_arr m ρ c w).trans (((dat1 (E2 m ρ) c).arrAt_in w hin _).trans (A_eq1 (E2 m ρ) c w))
    · exact B4_of_ne m ρ c r fun w e => hw ⟨w, e⟩
  have e2 : B2 m ρ c (Proc.devRef .tc r) = B1 m ρ c (Proc.devRef .tc r) := by
    by_cases hw : ∃ w, Pipeline.arrRef spec0 w = r
    · obtain ⟨w, rfl⟩ := hw
      have hin : (cfg0.win w).isOut = false := by
        cases hio : (cfg0.win w).isOut
        · rfl
        · exact absurd rfl (hp0 w hio)
      exact (B2_arr m ρ c w).trans (((dat0 (E1 m ρ) c).arrAt_in w hin _).trans (A_eq0 (E1 m ρ) c w))
    · exact B2_of_ne m ρ c r fun w e => hw ⟨w, e⟩
  have e1 : B1 m ρ c (Proc.devRef .tc r) = B0 m ρ c (Proc.devRef .tc r) :=
    StableHlo.after_of_writes_sub hostOps0 _ hostOps0_writes h0
  exact e5.trans (e4.trans (e2.trans (e1.trans rfl)))

/-- Each argument is such a buffer. -/
theorem B5_arg (c : Dev nD) (r : Ref sig .tc)
    (hr : r ∈ ([main_arg0, main_arg1, main_arg2, main_arg3, main_arg4, main_arg5, main_arg6, main_arg7] : List (Ref sig .tc))) :
    B5 m ρ c (Proc.devRef .tc r) = m ((c : Thread nD τ).loc r) := by
  have hall : ∀ r ∈ ([main_arg0, main_arg1, main_arg2, main_arg3, main_arg4, main_arg5, main_arg6, main_arg7] : List (Ref sig .tc)),
      r ∉ (hostOps0_W : List (Ref sig .tc)) ∧ r ∉ (hostOps2_W : List (Ref sig .tc))
        ∧ (∀ w, (cfg0.win w).isOut = true → Pipeline.arrRef spec0 w ≠ r) ∧ (∀ w, (cfg1.win w).isOut = true → Pipeline.arrRef spec1 w ≠ r) := by
    decide
  obtain ⟨h0, h2, hp0, hp1⟩ := hall r hr
  exact B5_of_arg m ρ c r h0 h2 hp0 hp1

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (B5_arg m ρ c main_arg0 (by decide)),
     (h c _ (mem_uc main_arg1 (by decide))).trans (B5_arg m ρ c main_arg1 (by decide)),
     (h c _ (mem_uc main_arg2 (by decide))).trans (B5_arg m ρ c main_arg2 (by decide)),
     (h c _ (mem_uc main_arg3 (by decide))).trans (B5_arg m ρ c main_arg3 (by decide)),
     (h c _ (mem_uc main_arg4 (by decide))).trans (B5_arg m ρ c main_arg4 (by decide)),
     (h c _ (mem_uc main_arg5 (by decide))).trans (B5_arg m ρ c main_arg5 (by decide)),
     (h c _ (mem_uc main_arg6 (by decide))).trans (B5_arg m ρ c main_arg6 (by decide)),
     (h c _ (mem_uc main_arg7 (by decide))).trans (B5_arg m ρ c main_arg7 (by decide))⟩)
    (run_all m ρ)

end Cert.KernelIdeal.Fr

end
-- ==== Proof.KiHost.lean ====
/-
  The host operations around the two pipelines, read at an index.

  Before the projection pipeline the program flattens x to [4096, 768] (row b·2048 + t is row (b, t)), lays the three
  transposed weight arrays side by side into [768, 2304] (column 768·p + e of piece p is row e of that weight), and lays
  the three bias rows end to end into [2304].  After the attention pipeline it swaps the head and row axes of the
  heads' outputs.  Each is a pure re-indexing; a change of float format is the identity on extended reals.
-/
import proofs.«109455_j8770323219237_2_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx

variable [Cert.KernelIdeal.Facts]

/-! ## What the first stretch of host operations writes, as terms of the buffers it starts from -/

section Terms
variable {F : FTy → Type} [FloatOps F] (W : Valuation τ sig (Elt F))

/-- The flattened x. -/
theorem flat_eq : StableHlo.after hostOps0 W (Proc.devRef .tc main_v6)
    = shapeCast S4096x768 (W (Proc.devRef .tc main_arg0)) shapeCasts_S2x2048x768_S4096x768 := by
  after_results; rfl

/-- The three transposed weights side by side, in the narrower format. -/
theorem wcat_eq : StableHlo.after hostOps0 W (Proc.devRef .tc main_v4)
    = truncf .bf16 (concatenate S768x2304 1
        [⟨S768x768, transpose S768x768 [1, 0] (W (Proc.devRef .tc main_arg1)) transposes_S768x768_S768x768_1_0⟩,
         ⟨S768x768, transpose S768x768 [1, 0] (W (Proc.devRef .tc main_arg3)) transposes_S768x768_S768x768_1_0⟩,
         ⟨S768x768, transpose S768x768 [1, 0] (W (Proc.devRef .tc main_arg5)) transposes_S768x768_S768x768_1_0⟩]
        concatenates_S768x768_S768x768_S768x768_S768x2304_d1) bitsLt_bf16_f32 := by
  after_results; rfl

/-- The three bias rows end to end. -/
theorem bcat_eq : StableHlo.after hostOps0 W (Proc.devRef .tc main_v5)
    = concatenate S2304 0 [⟨S768, W (Proc.devRef .tc main_arg2)⟩, ⟨S768, W (Proc.devRef .tc main_arg4)⟩,
        ⟨S768, W (Proc.devRef .tc main_arg6)⟩] concatenates_S768_S768_S768_S2304_d0 := by
  after_results; rfl

/-- The last host operation swaps the head and row axes of the heads' outputs … -/
theorem swapped_eq : StableHlo.after hostOps2 W (Proc.devRef .tc main_v9)
    = transpose S2x2048x12x64 [0, 2, 1, 3] (W (Proc.devRef .tc main_v8_1)) transposes_S2x12x2048x64_S2x2048x12x64_0_2_1_3 := by
  after_results

/-- … and leaves the attention weights alone. -/
theorem weights_kept : StableHlo.after hostOps2 W (Proc.devRef .tc main_v8_0) = W (Proc.devRef .tc main_v8_0) := by
  after_results

end Terms

/-! ## Those terms at an index -/

section AtIndex
variable {α : Type}

/-- Row `b·2048 + t` of the flattened array is row `(b, t)`. -/
theorem flat_at (X : S2x2048x768.Idx → α) (b : Fin 2) (t : Fin 2048) (k : Fin 768) (i : Fin 4096) (hi : i.val = b.val * 2048 + t.val) :
    shapeCast S4096x768 X shapeCasts_S2x2048x768_S4096x768 (ix2 i k) = X (ix3 b t k) := by
  refine shapeCast_apply X _ _ (ix3 b t k) ?_
  rw [Shape.rowMajor_val_three, Shape.rowMajor_val_two]
  show (b.val * 2048 + t.val) * 768 + k.val = i.val * 768 + k.val
  rw [hi]

/-- Swapping the two middle axes: entry `(b, t, h, d)` of the result is entry `(b, h, t, d)` of the operand. -/
theorem swapped_at (Y : S2x12x2048x64.Idx → α) (b : Fin 2) (t : Fin 2048) (h : Fin 12) (d : Fin 64) :
    transpose S2x2048x12x64 [0, 2, 1, 3] Y transposes_S2x12x2048x64_S2x2048x12x64_0_2_1_3 (ix4 b t h d) = Y (ix4 b h t d) :=
  transpose_apply [0, 2, 1, 3] Y _ (ix4 b t h d) (ix4 b h t d) (fun a => match a with
    | ⟨0, _⟩ => rfl
    | ⟨1, _⟩ => rfl
    | ⟨2, _⟩ => rfl
    | ⟨3, _⟩ => rfl)

/-- Column `768·p + e` of the side-by-side array is row `e` of piece `p`'s untransposed array. -/
theorem wcat_at (W0 W1 W2 : S768x768.Idx → α) (p : Fin 3) (k e : Fin 768) (j : Fin 2304) (hj : j.val = 768 * p.val + e.val) :
    concatenate S768x2304 1
        [⟨S768x768, transpose S768x768 [1, 0] W0 transposes_S768x768_S768x768_1_0⟩,
         ⟨S768x768, transpose S768x768 [1, 0] W1 transposes_S768x768_S768x768_1_0⟩,
         ⟨S768x768, transpose S768x768 [1, 0] W2 transposes_S768x768_S768x768_1_0⟩]
        concatenates_S768x768_S768x768_S768x768_S768x2304_d1 (ix2 k j)
      = (match p with | ⟨0, _⟩ => W0 | ⟨1, _⟩ => W1 | ⟨2, _⟩ => W2) (ix2 e k) := by
  have tr : ∀ Wp : S768x768.Idx → α, transpose S768x768 [1, 0] Wp transposes_S768x768_S768x768_1_0 (ix2 k e) = Wp (ix2 e k) :=
    fun Wp => transpose_apply [1, 0] Wp _ (ix2 k e) (ix2 e k) (fun a => match a with
      | ⟨0, _⟩ => rfl
      | ⟨1, _⟩ => rfl)
  have off : ∀ b : Fin S768x768.rank, b.cast (rfl : S768x768.rank = S768x2304.rank) ≠ (1 : Fin 2) → ((ix2 k e) b).val = ((ix2 k j) (b.cast rfl)).val :=
    fun b hb => match b, hb with
      | ⟨0, _⟩, _ => rfl
      | ⟨1, _⟩, hb => absurd rfl hb
  match p, hj with
  | ⟨0, _⟩, hj =>
    have hj' : j.val = 768 * 0 + e.val := hj
    exact (concatenate_apply_piece (1 : Fin 2) [⟨S768x768, transpose S768x768 [1, 0] W0 transposes_S768x768_S768x768_1_0⟩,
         ⟨S768x768, transpose S768x768 [1, 0] W1 transposes_S768x768_S768x768_1_0⟩,
         ⟨S768x768, transpose S768x768 [1, 0] W2 transposes_S768x768_S768x768_1_0⟩]
      _ (ix2 k j) 0 (by simp) S768x768 _ rfl rfl 0 rfl (ix2 k e) off
      (by show 0 + e.val = j.val; omega)).trans (tr W0)
  | ⟨1, _⟩, hj =>
    have hj' : j.val = 768 * 1 + e.val := hj
    exact (concatenate_apply_piece (1 : Fin 2) [⟨S768x768, transpose S768x768 [1, 0] W0 transposes_S768x768_S768x768_1_0⟩,
         ⟨S768x768, transpose S768x768 [1, 0] W1 transposes_S768x768_S768x768_1_0⟩,
         ⟨S768x768, transpose S768x768 [1, 0] W2 transposes_S768x768_S768x768_1_0⟩]
      _ (ix2 k j) 1 (by simp) S768x768 _ rfl rfl 768 rfl (ix2 k e) off
      (by show 768 + e.val = j.val; omega)).trans (tr W1)
  | ⟨2, _⟩, hj =>
    have hj' : j.val = 768 * 2 + e.val := hj
    exact (concatenate_apply_piece (1 : Fin 2) [⟨S768x768, transpose S768x768 [1, 0] W0 transposes_S768x768_S768x768_1_0⟩,
         ⟨S768x768, transpose S768x768 [1, 0] W1 transposes_S768x768_S768x768_1_0⟩,
         ⟨S768x768, transpose S768x768 [1, 0] W2 transposes_S768x768_S768x768_1_0⟩]
      _ (ix2 k j) 2 (by simp) S768x768 _ rfl rfl 1536 rfl (ix2 k e) off
      (by show 1536 + e.val = j.val; omega)).trans (tr W2)

/-- Entry `768·p + e` of the end-to-end row is entry `e` of piece `p`. -/
theorem bcat_at (b0 b1 b2 : S768.Idx → α) (p : Fin 3) (e : Fin 768) (j : Fin 2304) (hj : j.val = 768 * p.val + e.val) :
    concatenate S2304 0 [⟨S768, b0⟩, ⟨S768, b1⟩, ⟨S768, b2⟩] concatenates_S768_S768_S768_S2304_d0 (ix1 j)
      = (match p with | ⟨0, _⟩ => b0 | ⟨1, _⟩ => b1 | ⟨2, _⟩ => b2) (ix1 e) := by
  have off : ∀ b : Fin S768.rank, b.cast (rfl : S768.rank = S2304.rank) ≠ (0 : Fin 1) → ((ix1 e) b).val = ((ix1 j) (b.cast rfl)).val :=
    fun b hb => match b, hb with
      | ⟨0, _⟩, hb => absurd rfl hb
  match p, hj with
  | ⟨0, _⟩, hj =>
    have hj' : j.val = 768 * 0 + e.val := hj
    exact concatenate_apply_piece (0 : Fin 1) [⟨S768, b0⟩, ⟨S768, b1⟩, ⟨S768, b2⟩] _ (ix1 j) 0 (by simp) S768 _ rfl rfl 0 rfl (ix1 e) off
      (by show 0 + e.val = j.val; omega)
  | ⟨1, _⟩, hj =>
    have hj' : j.val = 768 * 1 + e.val := hj
    exact concatenate_apply_piece (0 : Fin 1) [⟨S768, b0⟩, ⟨S768, b1⟩, ⟨S768, b2⟩] _ (ix1 j) 1 (by simp) S768 _ rfl rfl 768 rfl (ix1 e) off
      (by show 768 + e.val = j.val; omega)
  | ⟨2, _⟩, hj =>
    have hj' : j.val = 768 * 2 + e.val := hj
    exact concatenate_apply_piece (0 : Fin 1) [⟨S768, b0⟩, ⟨S768, b1⟩, ⟨S768, b2⟩] _ (ix1 j) 2 (by simp) S768 _ rfl rfl 1536 rfl (ix1 e) off
      (by show 1536 + e.val = j.val; omega)

end AtIndex

end Cert.KernelIdeal.Host

end
-- ==== Proof.Spec.lean ====
/-
  The function both programs compute, stated once, index by index, over the extended reals.

  Multi-head self-attention on x : [2, 2048, 768] with 12 heads of width 64.  A linear projection sends row (b, t) of x
  to  y(b, t, e) = Σ_k x(b, t, k) · W(e, k) + bias(e);  feature e = 64·h + d is coordinate d of head h.  For batch b and
  head h the score of query row q against key row c is  (Σ_d Q(b,h,q,d) · K(b,h,c,d)) · (1/8) + mask(q, c);  the
  attention weights are the softmax of each score row, taken with the row's maximum subtracted before the
  exponential; a head's output row is the weights' combination of the value rows.
-/
import Idealize.ShloMosaic.PureOps.Ideal
import Idealize.ShloMosaic.Lib.ValueIdx

noncomputable section

open scoped BigOperators

namespace Cert.Spec

open Idealize.ShloMosaic Idealize.ShloMosaic.ValueIdx

/-- Feature `64·h + d`: coordinate `d` of head `h`. -/
def feat (h : Fin 12) (d : Fin 64) : Fin 768 := ⟨h.val * 64 + d.val, by omega⟩

/-- A linear projection at (b, t, e): the row of `x` against row `e` of the weight, plus the bias. -/
def proj (x : (⟨3, ![2, 2048, 768]⟩ : Shape).Idx → EReal) (W : (⟨2, ![768, 768]⟩ : Shape).Idx → EReal)
    (bias : (⟨1, ![768]⟩ : Shape).Idx → EReal) (b : Fin 2) (t : Fin 2048) (e : Fin 768) : EReal :=
  (∑ k : Fin 768, x (ix3 b t k) * W (ix2 e k)) + bias (ix1 e)

/-- One row of scores: the query row against every key row, scaled by the word of 1/8, plus the mask row. -/
def score (q : Fin 64 → EReal) (k : Fin 2048 → Fin 64 → EReal) (mk : Fin 2048 → EReal) (c : Fin 2048) : EReal :=
  (∑ d : Fin 64, q d * k c d) * Ideal.ofBits .f32 0x3E000000#32 + mk c

/-- A row's maximum, folded from the word of −∞. -/
def rowMax (s : Fin 2048 → EReal) : EReal :=
  (Finset.univ : Finset (Fin 2048)).fold max (Ideal.ofBits .f32 0xFF800000#32) s

/-- The softmax of a row, the maximum subtracted first. -/
def softmax (s : Fin 2048 → EReal) (c : Fin 2048) : EReal :=
  Ideal.div (Ideal.exp (s c - rowMax s)) (∑ c' : Fin 2048, Ideal.exp (s c' - rowMax s))

section
variable (x : (⟨3, ![2, 2048, 768]⟩ : Shape).Idx → EReal)
  (Wq : (⟨2, ![768, 768]⟩ : Shape).Idx → EReal) (bq : (⟨1, ![768]⟩ : Shape).Idx → EReal)
  (Wk : (⟨2, ![768, 768]⟩ : Shape).Idx → EReal) (bk : (⟨1, ![768]⟩ : Shape).Idx → EReal)
  (Wv : (⟨2, ![768, 768]⟩ : Shape).Idx → EReal) (bv : (⟨1, ![768]⟩ : Shape).Idx → EReal)
  (mask : (⟨4, ![1, 1, 2048, 2048]⟩ : Shape).Idx → EReal)

/-- The attention weight of query row `q` on key row `c`, batch `b`, head `h`. -/
def attnAt (b : Fin 2) (h : Fin 12) (q c : Fin 2048) : EReal :=
  softmax (score (fun d => proj x Wq bq b q (feat h d)) (fun c' d => proj x Wk bk b c' (feat h d))
    (fun c' => mask (ix4 0 0 q c'))) c

/-- A head's output at (b, h, q, d): the weights' combination of the value rows. -/
def headAt (b : Fin 2) (h : Fin 12) (q : Fin 2048) (d : Fin 64) : EReal :=
  ∑ c : Fin 2048, attnAt x Wq bq Wk bk mask b h q c * proj x Wv bv b c (feat h d)

/-- The attention weights as an array [2, 12, 2048, 2048]. -/
def attnArr : (⟨4, ![2, 12, 2048, 2048]⟩ : Shape).Idx → EReal :=
  fun j => attnAt x Wq bq Wk bk mask (j 0) (j 1) (j 2) (j 3)

/-- The heads' outputs as an array [2, 2048, 12, 64] (row, then head). -/
def headsArr : (⟨4, ![2, 2048, 12, 64]⟩ : Shape).Idx → EReal :=
  fun j => headAt x Wq bq Wk bk Wv bv mask (j 0) (j 2) (j 1) (j 3)

end

end Cert.Spec

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibDotStd.lean ====
/-
  The index maps of a plain matrix product's dimension numbers.

  For dimension numbers with no batch axes, one free axis on each side and one contracted axis on each side — the shape
  of every row-times-column product — the left operand's free coordinate is the result's first coordinate and the
  right operand's free coordinate is the result's second, whatever the contraction position is. Together with the
  library's facts for the contracted coordinate these are the four index facts a sum-of-products reading needs.
-/
import Idealize.ShloMosaic.PureOps.Dims

namespace Cert.Lib.DotStd

open Idealize.ShloMosaic

variable {sl sr so : Shape} (d : DotDims sl sr so)

/-- With no batch axis and `a` the one free axis of the left operand, the left index on `a` is the result's first
    coordinate. -/
theorem lhsIdx_free (a : Fin sl.rank) (hb : d.lhsBatch = []) (hn : d.lhsNonContracting = [a]) (h0 : 0 < so.rank)
    (j : so.Idx) (c : d.contr.Idx) : (d.lhsIdx j c a).val = (j ⟨0, h0⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and `a` the one free axis of the right operand, the right index on
    `a` is the result's second coordinate. -/
theorem rhsIdx_free (a : Fin sr.rank) (hb : d.rhsBatch = []) (hlb : d.lhsBatch = []) (al : Fin sl.rank)
    (hln : d.lhsNonContracting = [al]) (hn : d.rhsNonContracting = [a]) (h1 : 1 < so.rank)
    (j : so.Idx) (c : d.contr.Idx) : (d.rhsIdx j c a).val = (j ⟨1, h1⟩).val := by
  unfold DotDims.rhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Cert.Lib.DotStd
-- ==== Proof.LibStdMatmul.lean ====
/-
  A matrix product into a zero accumulator whose dimension numbers are the standard ones — no batch axis, the left
  operand's columns contracted against the right operand's rows, the left operand's rows and the right operand's
  columns free — read at an index.

  For an n-by-K array times a K-by-M array with those dimension numbers, the entry at (p, q) of the product added to
  a zero array is the sum over k of left(p, k) · right(k, q). The record's six lists are taken as hypotheses; a printed
  record proves each by unfolding.
-/
import proofs.«109455_j8770323219237_2_alg».proof.Proof.LibMatmul
import proofs.«109455_j8770323219237_2_alg».proof.Proof.LibDotStd

noncomputable section

open scoped BigOperators

namespace Cert.Lib.StdMatmul

open Idealize.ShloMosaic Idealize.ShloMosaic.ValueIdx

/-- The kernel's matrix product into the zero splat, standard dimension numbers, at the ideal values, read at (p, q). -/
theorem matmul_std_ix2 {n K M : ℕ} {φ₁ φ₂ : FTy}
    (d : DotDims (⟨2, ![n, K]⟩ : Shape) (⟨2, ![K, M]⟩ : Shape) (⟨2, ![n, M]⟩ : Shape)) (prec : Option ContractPrecision)
    (hlc : d.lhsContracting = [1]) (hrc : d.rhsContracting = [0]) (hln : d.lhsNonContracting = [0]) (hrn : d.rhsNonContracting = [1])
    (hlb : d.lhsBatch = []) (hrb : d.rhsBatch = [])
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  have hr : d.contr.rank = 1 := by rw [d.rank_contr, hlc]; rfl
  have hs : d.contr.size ⟨0, by omega⟩ = K := by
    unfold DotDims.contr
    simp [hlc, Shape.ofList]
  refine Cert.Lib.Matmul.matmul_zero_ix2 d prec hr hs ?_ ?_ ?_ ?_ lhs rhs p q
  · intro j c; exact Cert.Lib.DotStd.lhsIdx_free d 0 hlb hln Nat.zero_lt_two j c
  · intro j c; exact d.lhsIdx_val_of_single hlc j c
  · intro j c; exact d.rhsIdx_val_of_single hrc j c
  · intro j c; exact Cert.Lib.DotStd.rhsIdx_free d 1 hrb hlb 0 hln hrn Nat.one_lt_two j c

end Cert.Lib.StdMatmul

end
-- ==== Proof.PayK0.lean ====
/-
  The projection kernel's arithmetic read at an index.

  The kernel multiplies a block of 512 rows of x (768 features) by the weight [768, 2304], adds the bias row, and cuts
  the 2304 columns into three runs of 768; each run is viewed [512, 12, 64], its first two axes swapped, and stored as
  [1, 12, 512, 64]. Read at (0, h, r, d), a run that starts at column `off` is therefore the product at row r and
  column off + 64·h + d:  Σ_k x(r, k) · w(k, off + 64·h + d) + bias(off + 64·h + d).
-/
import proofs.«109455_j8770323219237_2_alg».proof.Proof.Gen.KernelIdeal.Skeleton
import proofs.«109455_j8770323219237_2_alg».proof.Proof.Spec
import proofs.«109455_j8770323219237_2_alg».proof.Proof.LibStdMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

variable [Cert.KernelIdeal.Facts]

/-- Column `off + 64·h + d` of the 2304: coordinate d of head h in the run that starts at `off`. -/
def col (off : ℕ) (h : Fin 12) (d : Fin 64) (hoff : off + 768 ≤ 2304) : Fin 2304 := ⟨off + (h.val * 64 + d.val), by omega⟩

/-- The product plus the bias row, at (r, c). -/
theorem pay1_at (x : Vec Ideal S512x768 .f32) (w : Vec Ideal S768x2304 .bf16) (bi : Vec Ideal S2304 .f32) (r : Fin 512) (c : Fin 2304) :
    k0_pay1 (F := Ideal) x w bi (ix2 r c) = (∑ k : Fin 768, x (ix2 r k) * w (ix2 k c)) + bi (ix1 c) := by
  unfold k0_pay1
  refine congrArg₂ (fun a b : EReal => a + b) ?_ ?_
  · refine (Cert.Lib.StdMatmul.matmul_std_ix2 dot_S512x768_S768x2304_S512x2304_1_0_0_1_n_n none rfl rfl rfl rfl rfl rfl _ _ r c).trans ?_
    refine Finset.sum_congr rfl fun k _ => ?_
    refine congrArg₂ (fun a b : EReal => a * b) ?_ ?_
    · exact congrFun (shapeCast_self x _) (ix2 r k)
    · exact congrFun (shapeCast_self w _) (ix2 k c)
  · refine (broadcastTo_1b_ab_apply _ _ r c).trans ?_
    refine (shapeCast_a_1a_apply _ _ (0 : Fin 1) c).trans ?_
    exact congrFun (shapeCast_self bi _) (ix1 c)

/-- A run of 768 columns from `off`, viewed [512, 12, 64], its first two axes swapped, stored [1, 12, 512, 64]:
    at (0, h, r, d) it is the array at (r, off + 64·h + d). -/
theorem run_at (off : ℕ) (hoff : off + 768 ≤ 2304) (X : FVec Ideal S512x2304 .bf16)
    (hs : S512x2304.Slices ![0, off] S512x768) (h : Fin 12) (r : Fin 512) (d : Fin 64) :
    shapeCast S1x12x512x64
        (transpose S12x512x64 [1, 0, 2]
          (shapeCast S512x12x64 (extractStridedSlice S512x768 ![0, off] X hs) shapeCasts_S512x768_S512x12x64)
          transposes_S512x12x64_p1_0_2_S12x512x64)
        shapeCasts_S12x512x64_S1x12x512x64 (ix4 (0 : Fin 1) h r d)
      = X (ix2 r (col off h d hoff)) := by
  refine (shapeCast_abc_1abc_apply _ _ (0 : Fin 1) h r d).trans ?_
  refine (transpose_apply [1, 0, 2] _ _ (ix3 h r d) (ix3 r h d)
    (fun b => match b with | ⟨0, _⟩ => rfl | ⟨1, _⟩ => rfl | ⟨2, _⟩ => rfl)).trans ?_
  refine (shapeCast_apply _ _ (ix3 r h d) (ix2 r (⟨h.val * 64 + d.val, by omega⟩ : Fin 768)) ?_).trans ?_
  · rw [Shape.rowMajor_val_two, Shape.rowMajor_val_three]
    show r.val * 768 + (h.val * 64 + d.val) = (r.val * 12 + h.val) * 64 + d.val
    omega
  · exact slice2_axis1_apply off X hs r _ (col off h d hoff) rfl

theorem pay2_at (x : Vec Ideal S512x768 .f32) (w : Vec Ideal S768x2304 .bf16) (bi : Vec Ideal S2304 .f32) (h : Fin 12) (r : Fin 512) (d : Fin 64) :
    k0_pay2 (F := Ideal) x w bi (ix4 (0 : Fin 1) h r d)
      = (∑ k : Fin 768, x (ix2 r k) * w (ix2 k (col 0 h d (by omega)))) + bi (ix1 (col 0 h d (by omega))) := by
  unfold k0_pay2
  exact (run_at 0 (by omega) _ _ h r d).trans (pay1_at x w bi r _)

theorem pay3_at (x : Vec Ideal S512x768 .f32) (w : Vec Ideal S768x2304 .bf16) (bi : Vec Ideal S2304 .f32) (h : Fin 12) (r : Fin 512) (d : Fin 64) :
    k0_pay3 (F := Ideal) x w bi (ix4 (0 : Fin 1) h r d)
      = (∑ k : Fin 768, x (ix2 r k) * w (ix2 k (col 768 h d (by omega)))) + bi (ix1 (col 768 h d (by omega))) := by
  unfold k0_pay3
  exact (run_at 768 (by omega) _ _ h r d).trans (pay1_at x w bi r _)

theorem pay4_at (x : Vec Ideal S512x768 .f32) (w : Vec Ideal S768x2304 .bf16) (bi : Vec Ideal S2304 .f32) (h : Fin 12) (r : Fin 512) (d : Fin 64) :
    k0_pay4 (F := Ideal) x w bi (ix4 (0 : Fin 1) h r d)
      = (∑ k : Fin 768, x (ix2 r k) * w (ix2 k (col 1536 h d (by omega)))) + bi (ix1 (col 1536 h d (by omega))) := by
  unfold k0_pay4
  exact (run_at 1536 (by omega) _ _ h r d).trans (pay1_at x w bi r _)

end Cert.KernelIdeal.Pay

end
-- ==== Proof.KiArr0.lean ====
/-
  The projection pipeline's output arrays after its eight grid points.

  Point t holds rows 512·t … 512·t + 511 of the flattened x, the whole weight array and the whole bias row; it writes
  block (t / 4, 0, t % 4, 0) of each output [2, 12, 2048, 64], that is batch t / 4 and rows (t % 4)·512 … of it. What it
  writes at (0, h, r, d) of the block is row 512·t + r of x against column off + 64·h + d of the weights, plus the
  bias there; and 512·t + r = (t / 4)·2048 + ((t % 4)·512 + r). The eight blocks tile the array, so each output ends as
  one function of the three input arrays.
-/
import proofs.«109455_j8770323219237_2_alg».proof.Proof.KiRegion0
import proofs.«109455_j8770323219237_2_alg».proof.Proof.PayK0
import Idealize.ShloMosaic.Lib.Pipeline.Value
import Idealize.ShloMosaic.Lib.ValueLayout
import Idealize.ShloMosaic.Lib.ValueIdx

noncomputable section

open scoped BigOperators

namespace Cert.KernelIdeal.Val

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

/-- Row `b·2048 + t` of the flattened x. -/
def row (b : Fin 2) (t : Fin 2048) : Fin 4096 := ⟨b.val * 2048 + t.val, by omega⟩

/-- A projection array [2,12,2048,64] from the flattened x [4096,768], the concatenated weights [768,2304] and biases
    [2304], reading the columns from `off` on: at (b, h, t, d) the row b·2048 + t of x against column off + 64·h + d of
    the weights, plus that column's bias. -/
def projArr (off : ℕ) (hoff : off + 768 ≤ 2304) (X : S4096x768.Idx → EReal) (Wc : S768x2304.Idx → EReal) (bc : S2304.Idx → EReal) : S2x12x2048x64.Idx → EReal :=
  fun j => (∑ k : Fin 768, X (ix2 (row (j 0) (j 2)) k) * Wc (ix2 k (Cert.KernelIdeal.Pay.col off (j 1) (j 3) hoff))) + bc (ix1 (Cert.KernelIdeal.Pay.col off (j 1) (j 3) hoff))

theorem hz1 : (![0] : Fin 1 → Nat) = fun _ => 0 := funext fun a => by fin_cases a <;> rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- The index maps, decided over the eight points: the x block moves with the point, the weights and the bias stay,
    and each output's block is batch t / 4, run t % 4 of 512 rows. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 4) = t.val / 4 ∧ win0_3.index t (1 : Fin 4) = 0 ∧ win0_3.index t (2 : Fin 4) = t.val % 4 ∧ win0_3.index t (3 : Fin 4) = 0
    ∧ win0_4.index t (0 : Fin 4) = t.val / 4 ∧ win0_4.index t (1 : Fin 4) = 0 ∧ win0_4.index t (2 : Fin 4) = t.val % 4 ∧ win0_4.index t (3 : Fin 4) = 0
    ∧ win0_5.index t (0 : Fin 4) = t.val / 4 ∧ win0_5.index t (1 : Fin 4) = 0 ∧ win0_5.index t (2 : Fin 4) = t.val % 4 ∧ win0_5.index t (3 : Fin 4) = 0 :=
  (by decide +kernel : ∀ t : Fin grid0.N, _)

-- the buffers' contents when the region is entered
variable (V : (c : Dev nD) → (b : Ref sig .tc) → Buf (Elt Ideal) ((c : Thread nD τ).loc b))

/-- At point `t` the three input blocks, read where their rectangles lie in their arrays, give the projection array at
    any index `e` of batch t / 4, head h, row (t % 4)·512 + r, coordinate d. -/
theorem point_at (off : ℕ) (hoff : off + 768 ≤ 2304) (c : Dev nD) (t : Fin cfg0.N) (h : Fin 12) (r : Fin 512) (d : Fin 64)
    (e : S2x12x2048x64.Idx) (e0 : (e 0).val = t.val / 4) (e1 : (e 1).val = h.val)
    (e2 : (e 2).val = t.val % 4 * 512 + r.val) (e3 : (e 3).val = d.val)
    (x : Vec Ideal S512x768 .f32) (w : Vec Ideal S768x2304 .bf16) (bi : Vec Ideal S2304 .f32)
    (hx : x = blk0 V c 0 t) (hw : w = blk0 V c 1 t) (hb : bi = blk0 V c 2 t) :
    (∑ k : Fin 768, x (ix2 r k) * w (ix2 k (Cert.KernelIdeal.Pay.col off h d hoff)))
        + bi (ix1 (Cert.KernelIdeal.Pay.col off h d hoff))
      = projArr off hoff (V c main_v6) (V c main_v4) (V c main_v5) e := by
  subst hx hw hb
  obtain ⟨f00, f01, f10, f11, f20, -⟩ := idx_facts t
  have ht : t.val < 8 := lt_of_lt_of_eq t.isLt N_0
  have hc : Cert.KernelIdeal.Pay.col off (e 1) (e 3) hoff = Cert.KernelIdeal.Pay.col off h d hoff :=
    Fin.ext (by show off + ((e 1).val * 64 + (e 3).val) = off + (h.val * 64 + d.val); rw [e1, e3])
  unfold projArr
  rw [hc]
  refine congrArg₂ (fun a b : EReal => a + b)
    (Finset.sum_congr rfl fun k _ => congrArg₂ (fun a b : EReal => a * b) ?_ ?_) ?_
  · show V c main_v6 (((cfg0.win 0).blk t).view.emb (ix2 r k)) = V c main_v6 (ix2 (row (e 0) (e 2)) k)
    refine congrArg (V c main_v6) (funext fun a => Fin.ext ?_)
    match a with
    | ⟨0, _⟩ => show win0_0.index t (0 : Fin 2) * 512 + 1 * r.val = (e 0).val * 2048 + (e 2).val; omega
    | ⟨1, _⟩ => show win0_0.index t (1 : Fin 2) * 768 + 1 * k.val = k.val; omega
  · show V c main_v4 (((cfg0.win 1).blk t).view.emb (ix2 k (Cert.KernelIdeal.Pay.col off h d hoff)))
      = V c main_v4 (ix2 k (Cert.KernelIdeal.Pay.col off h d hoff))
    refine congrArg (V c main_v4) (funext fun a => Fin.ext ?_)
    match a with
    | ⟨0, _⟩ => show win0_1.index t (0 : Fin 2) * 768 + 1 * k.val = k.val; omega
    | ⟨1, _⟩ => show win0_1.index t (1 : Fin 2) * 2304 + 1 * (Cert.KernelIdeal.Pay.col off h d hoff).val = (Cert.KernelIdeal.Pay.col off h d hoff).val; omega
  · show V c main_v5 (((cfg0.win 2).blk t).view.emb (ix1 (Cert.KernelIdeal.Pay.col off h d hoff)))
      = V c main_v5 (ix1 (Cert.KernelIdeal.Pay.col off h d hoff))
    refine congrArg (V c main_v5) (funext fun a => Fin.ext ?_)
    match a with
    | ⟨0, _⟩ => show win0_2.index t (0 : Fin 1) * 2304 + 1 * (Cert.KernelIdeal.Pay.col off h d hoff).val = (Cert.KernelIdeal.Pay.col off h d hoff).val; omega

/-! ## The query output (window 3) -/

/-- What point `t` writes back is block `t` of the projection array. -/
theorem flushedQ_eq (c : Dev nD) (t : Fin cfg0.N) :
    (dat0 V c).flushed 3 t = ((cfg0.win 3).blk t).view.read (Elt Ideal) (projArr 0 (by omega) (V c main_v6) (V c main_v4) (V c main_v5)) := by
  show (cfg0.win 3).cut (grid0.coords t) ((dat0 V c).after 3 t) = _
  rw [after0_3]
  unfold outQ
  rw [View.canon_unit_zero hz4]
  simp only [View.ld_unit_zero (S := S512x768) hz2, View.ld_unit_zero (S := S768x2304) hz2, View.ld_unit_zero (S := S2304) hz1]
  refine funext fun (y : S1x12x512x64.Idx) => ?_
  obtain ⟨a, h, r, d, rfl⟩ : ∃ (a : Fin 1) (h : Fin 12) (r : Fin 512) (d : Fin 64), y = ix4 a h r d := ⟨y 0, y 1, y 2, y 3, eq_ix4 y⟩
  obtain rfl : a = 0 := Subsingleton.elim _ _
  show k0_pay2 (blk0 V c 0 t) (blk0 V c 1 t) (blk0 V c 2 t) (ix4 (0 : Fin 1) h r d)
    = projArr 0 _ (V c main_v6) (V c main_v4) (V c main_v5) (((cfg0.win 3).blk t).view.emb (ix4 (0 : Fin 1) h r d))
  obtain ⟨-, -, -, -, -, g0, g1, g2, g3, -, -, -, -, -, -, -, -⟩ := idx_facts t
  refine (Cert.KernelIdeal.Pay.pay2_at (blk0 V c 0 t) (blk0 V c 1 t) (blk0 V c 2 t) h r d).trans
    (point_at V 0 _ c t h r d _ ?_ ?_ ?_ ?_ _ _ _ rfl rfl rfl)
  · show win0_3.index t (0 : Fin 4) * 1 + 1 * (0 : ℕ) = t.val / 4; omega
  · show win0_3.index t (1 : Fin 4) * 12 + 1 * h.val = h.val; omega
  · show win0_3.index t (2 : Fin 4) * 512 + 1 * r.val = t.val % 4 * 512 + r.val; omega
  · show win0_3.index t (3 : Fin 4) * 64 + 1 * d.val = d.val; omega

/-- An index of the array is in point `t`'s block iff each coordinate is in the block's range on its axis. -/
theorem mem_blkQ (t : Fin cfg0.N) (i : S2x12x2048x64.Idx) :
    i ∈ ((cfg0.win 3).blk t).view.set ↔ ∀ a : Fin 4, win0_3.index t a * S1x12x512x64.size a ≤ (i a).val ∧ (i a).val < win0_3.index t a * S1x12x512x64.size a + S1x12x512x64.size a := by
  show i ∈ ((View.whole main_v7_0).slice (win0_3.rect t)).set ↔ _
  rw [View.set_slice_whole, Rect.mem_set_unit]
  exact Iff.rfl

/-- Every index of the array is in the block of the point that holds its batch and its run of 512 rows. -/
theorem coverQ (i : S2x12x2048x64.Idx) :
    ∃ t : Fin cfg0.N, (cfg0.win 3).flush t = true ∧ i ∈ ((cfg0.win 3).blk t).view.set := by
  have hi0 : (i 0).val < 2 := (i 0).isLt
  have hi1 : (i 1).val < 12 := (i 1).isLt
  have hi2 : (i 2).val < 2048 := (i 2).isLt
  have hi3 : (i 3).val < 64 := (i 3).isLt
  obtain ⟨t, ht⟩ : ∃ t : Fin cfg0.N, t.val = (i 0).val * 4 + (i 2).val / 512 :=
    ⟨⟨(i 0).val * 4 + (i 2).val / 512, by rw [show cfg0.N = 8 from N_0]; omega⟩, rfl⟩
  obtain ⟨-, -, -, -, -, g0, g1, g2, g3, -, -, -, -, -, -, -, -⟩ := idx_facts t
  refine ⟨t, flush0_3 t, ?_⟩
  rw [mem_blkQ]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 12 ≤ (i 1).val ∧ (i 1).val < win0_3.index t (1 : Fin 4) * 12 + 12; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The query array after the pipeline's eight points: the projection of the flattened x by the columns from 0 on. -/
theorem arrQ (c : Dev nD) : (dat0 V c).arrAt 3 cfg0.N = projArr 0 (by omega) (V c main_v6) (V c main_v4) (V c main_v5) :=
  (dat0 V c).arrAt_eq_of_cover 3 _ (fun t _ => flushedQ_eq V c t) coverQ

/-! ## The key output (window 4) -/

/-- What point `t` writes back is block `t` of the projection array. -/
theorem flushedK_eq (c : Dev nD) (t : Fin cfg0.N) :
    (dat0 V c).flushed 4 t = ((cfg0.win 4).blk t).view.read (Elt Ideal) (projArr 768 (by omega) (V c main_v6) (V c main_v4) (V c main_v5)) := by
  show (cfg0.win 4).cut (grid0.coords t) ((dat0 V c).after 4 t) = _
  rw [after0_4]
  unfold outK
  rw [View.canon_unit_zero hz4]
  simp only [View.ld_unit_zero (S := S512x768) hz2, View.ld_unit_zero (S := S768x2304) hz2, View.ld_unit_zero (S := S2304) hz1]
  refine funext fun (y : S1x12x512x64.Idx) => ?_
  obtain ⟨a, h, r, d, rfl⟩ : ∃ (a : Fin 1) (h : Fin 12) (r : Fin 512) (d : Fin 64), y = ix4 a h r d := ⟨y 0, y 1, y 2, y 3, eq_ix4 y⟩
  obtain rfl : a = 0 := Subsingleton.elim _ _
  show k0_pay3 (blk0 V c 0 t) (blk0 V c 1 t) (blk0 V c 2 t) (ix4 (0 : Fin 1) h r d)
    = projArr 768 _ (V c main_v6) (V c main_v4) (V c main_v5) (((cfg0.win 4).blk t).view.emb (ix4 (0 : Fin 1) h r d))
  obtain ⟨-, -, -, -, -, -, -, -, -, g0, g1, g2, g3, -, -, -, -⟩ := idx_facts t
  refine (Cert.KernelIdeal.Pay.pay3_at (blk0 V c 0 t) (blk0 V c 1 t) (blk0 V c 2 t) h r d).trans
    (point_at V 768 _ c t h r d _ ?_ ?_ ?_ ?_ _ _ _ rfl rfl rfl)
  · show win0_4.index t (0 : Fin 4) * 1 + 1 * (0 : ℕ) = t.val / 4; omega
  · show win0_4.index t (1 : Fin 4) * 12 + 1 * h.val = h.val; omega
  · show win0_4.index t (2 : Fin 4) * 512 + 1 * r.val = t.val % 4 * 512 + r.val; omega
  · show win0_4.index t (3 : Fin 4) * 64 + 1 * d.val = d.val; omega

/-- An index of the array is in point `t`'s block iff each coordinate is in the block's range on its axis. -/
theorem mem_blkK (t : Fin cfg0.N) (i : S2x12x2048x64.Idx) :
    i ∈ ((cfg0.win 4).blk t).view.set ↔ ∀ a : Fin 4, win0_4.index t a * S1x12x512x64.size a ≤ (i a).val ∧ (i a).val < win0_4.index t a * S1x12x512x64.size a + S1x12x512x64.size a := by
  show i ∈ ((View.whole main_v7_1).slice (win0_4.rect t)).set ↔ _
  rw [View.set_slice_whole, Rect.mem_set_unit]
  exact Iff.rfl

/-- Every index of the array is in the block of the point that holds its batch and its run of 512 rows. -/
theorem coverK (i : S2x12x2048x64.Idx) :
    ∃ t : Fin cfg0.N, (cfg0.win 4).flush t = true ∧ i ∈ ((cfg0.win 4).blk t).view.set := by
  have hi0 : (i 0).val < 2 := (i 0).isLt
  have hi1 : (i 1).val < 12 := (i 1).isLt
  have hi2 : (i 2).val < 2048 := (i 2).isLt
  have hi3 : (i 3).val < 64 := (i 3).isLt
  obtain ⟨t, ht⟩ : ∃ t : Fin cfg0.N, t.val = (i 0).val * 4 + (i 2).val / 512 :=
    ⟨⟨(i 0).val * 4 + (i 2).val / 512, by rw [show cfg0.N = 8 from N_0]; omega⟩, rfl⟩
  obtain ⟨-, -, -, -, -, -, -, -, -, g0, g1, g2, g3, -, -, -, -⟩ := idx_facts t
  refine ⟨t, flush0_4 t, ?_⟩
  rw [mem_blkK]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 12 ≤ (i 1).val ∧ (i 1).val < win0_4.index t (1 : Fin 4) * 12 + 12; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The key array after the pipeline's eight points: the projection of the flattened x by the columns from 768 on. -/
theorem arrK (c : Dev nD) : (dat0 V c).arrAt 4 cfg0.N = projArr 768 (by omega) (V c main_v6) (V c main_v4) (V c main_v5) :=
  (dat0 V c).arrAt_eq_of_cover 4 _ (fun t _ => flushedK_eq V c t) coverK

/-! ## The value output (window 5) -/

/-- What point `t` writes back is block `t` of the projection array. -/
theorem flushedV_eq (c : Dev nD) (t : Fin cfg0.N) :
    (dat0 V c).flushed 5 t = ((cfg0.win 5).blk t).view.read (Elt Ideal) (projArr 1536 (by omega) (V c main_v6) (V c main_v4) (V c main_v5)) := by
  show (cfg0.win 5).cut (grid0.coords t) ((dat0 V c).after 5 t) = _
  rw [after0_5]
  unfold outV
  rw [View.canon_unit_zero hz4]
  simp only [View.ld_unit_zero (S := S512x768) hz2, View.ld_unit_zero (S := S768x2304) hz2, View.ld_unit_zero (S := S2304) hz1]
  refine funext fun (y : S1x12x512x64.Idx) => ?_
  obtain ⟨a, h, r, d, rfl⟩ : ∃ (a : Fin 1) (h : Fin 12) (r : Fin 512) (d : Fin 64), y = ix4 a h r d := ⟨y 0, y 1, y 2, y 3, eq_ix4 y⟩
  obtain rfl : a = 0 := Subsingleton.elim _ _
  show k0_pay4 (blk0 V c 0 t) (blk0 V c 1 t) (blk0 V c 2 t) (ix4 (0 : Fin 1) h r d)
    = projArr 1536 _ (V c main_v6) (V c main_v4) (V c main_v5) (((cfg0.win 5).blk t).view.emb (ix4 (0 : Fin 1) h r d))
  obtain ⟨-, -, -, -, -, -, -, -, -, -, -, -, -, g0, g1, g2, g3⟩ := idx_facts t
  refine (Cert.KernelIdeal.Pay.pay4_at (blk0 V c 0 t) (blk0 V c 1 t) (blk0 V c 2 t) h r d).trans
    (point_at V 1536 _ c t h r d _ ?_ ?_ ?_ ?_ _ _ _ rfl rfl rfl)
  · show win0_5.index t (0 : Fin 4) * 1 + 1 * (0 : ℕ) = t.val / 4; omega
  · show win0_5.index t (1 : Fin 4) * 12 + 1 * h.val = h.val; omega
  · show win0_5.index t (2 : Fin 4) * 512 + 1 * r.val = t.val % 4 * 512 + r.val; omega
  · show win0_5.index t (3 : Fin 4) * 64 + 1 * d.val = d.val; omega

/-- An index of the array is in point `t`'s block iff each coordinate is in the block's range on its axis. -/
theorem mem_blkV (t : Fin cfg0.N) (i : S2x12x2048x64.Idx) :
    i ∈ ((cfg0.win 5).blk t).view.set ↔ ∀ a : Fin 4, win0_5.index t a * S1x12x512x64.size a ≤ (i a).val ∧ (i a).val < win0_5.index t a * S1x12x512x64.size a + S1x12x512x64.size a := by
  show i ∈ ((View.whole main_v7_2).slice (win0_5.rect t)).set ↔ _
  rw [View.set_slice_whole, Rect.mem_set_unit]
  exact Iff.rfl

/-- Every index of the array is in the block of the point that holds its batch and its run of 512 rows. -/
theorem coverV (i : S2x12x2048x64.Idx) :
    ∃ t : Fin cfg0.N, (cfg0.win 5).flush t = true ∧ i ∈ ((cfg0.win 5).blk t).view.set := by
  have hi0 : (i 0).val < 2 := (i 0).isLt
  have hi1 : (i 1).val < 12 := (i 1).isLt
  have hi2 : (i 2).val < 2048 := (i 2).isLt
  have hi3 : (i 3).val < 64 := (i 3).isLt
  obtain ⟨t, ht⟩ : ∃ t : Fin cfg0.N, t.val = (i 0).val * 4 + (i 2).val / 512 :=
    ⟨⟨(i 0).val * 4 + (i 2).val / 512, by rw [show cfg0.N = 8 from N_0]; omega⟩, rfl⟩
  obtain ⟨-, -, -, -, -, -, -, -, -, -, -, -, -, g0, g1, g2, g3⟩ := idx_facts t
  refine ⟨t, flush0_5 t, ?_⟩
  rw [mem_blkV]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 12 ≤ (i 1).val ∧ (i 1).val < win0_5.index t (1 : Fin 4) * 12 + 12; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- The value array after the pipeline's eight points: the projection of the flattened x by the columns from 1536 on. -/
theorem arrV (c : Dev nD) : (dat0 V c).arrAt 5 cfg0.N = projArr 1536 (by omega) (V c main_v6) (V c main_v4) (V c main_v5) :=
  (dat0 V c).arrAt_eq_of_cover 5 _ (fun t _ => flushedV_eq V c t) coverV

end Cert.KernelIdeal.Val

end
-- ==== Proof.PayK1.lean ====
/-
  The attention kernel's arithmetic read at an index.

  For one batch, one head and a block of 512 query rows the kernel forms the scores  q · kᵀ · (1/8) + mask  as a
  [512, 2048] array, takes each row's maximum, subtracts it, exponentiates, divides by the row's sum, stores the
  weights, and multiplies them by the value rows. Read at a row r these are the softmax of the row's scores, and the
  weights' combination of the value rows.
-/
import proofs.«109455_j8770323219237_2_alg».proof.Proof.Gen.KernelIdeal.Skeleton
import proofs.«109455_j8770323219237_2_alg».proof.Proof.Spec
import proofs.«109455_j8770323219237_2_alg».proof.Proof.LibStdMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Pay1

open Cert.KernelIdeal Cert.KernelIdeal.Gen Idealize.ShloMosaic Idealize.ShloMosaic.ValueIdx

variable [Cert.KernelIdeal.Facts]

/-! ## A row statistic kept as a column and spread over the row -/

/-- A vector of 512 row statistics viewed [512, 1] and spread over the 2048 columns. -/
def keep (v : FVec Ideal S512 .f32) : FVec Ideal S512x2048 .f32 :=
  broadcastTo S512x2048 (shapeCast S512x1 v shapeCasts_S512_S512x1) broadcasts_S512x1_S512x2048

/-- Spread over the row, the statistic of row r is read at every column of row r. -/
theorem keep_at (v : FVec Ideal S512 .f32) (r : Fin 512) (c : Fin 2048) : keep v (ix2 r c) = v (ix1 r) := by
  unfold keep
  refine (broadcastTo_apply _ _ (ix2 r c) (ix2 r (0 : Fin 1)) (fun a => ?_)).trans ?_
  · match a with
    | ⟨0, _⟩ => rfl
    | ⟨1, _⟩ => rfl
  · refine shapeCast_apply _ _ (ix2 r (0 : Fin 1)) (ix1 r) ?_
    rw [Shape.rowMajor_val_one, Shape.rowMajor_val_two]
    show r.val = r.val * 1 + 0
    omega

/-- The index of row r with column k put back. -/
theorem lift_row (r : Fin 512) (k : Fin 2048) : reduces_S512x2048_S512.lift (ix1 r) k = ix2 r k := by
  funext a
  match a with
  | ⟨0, _⟩ => exact Fin.ext rfl
  | ⟨1, _⟩ => exact Fin.ext rfl

/-- The rows' maxima, from the word of −∞. -/
def rmax (s : FVec Ideal S512x2048 .f32) : FVec Ideal S512 .f32 :=
  multiReduction .maximumf [1] S512 s 0xFF800000#32 reduces_S512x2048_S512 (.inl rfl) rfl

theorem rmax_at (s : FVec Ideal S512x2048 .f32) (r : Fin 512) :
    rmax s (ix1 r) = Cert.Spec.rowMax (fun c => s (ix2 r c)) := by
  unfold rmax Cert.Spec.rowMax
  refine (Ideal.multiReduction_maximumf_single s _ reduces_S512x2048_S512 (.inl rfl) rfl (ix1 r)).trans ?_
  exact Finset.fold_congr (fun k _ => congrArg s (lift_row r k))

/-- The rows' sums. -/
def rsum (s : FVec Ideal S512x2048 .f32) : FVec Ideal S512 .f32 :=
  multiReduction .add [1] S512 s 0x00000000#32 reduces_S512x2048_S512 (.inl rfl) rfl

theorem rsum_at (s : FVec Ideal S512x2048 .f32) (r : Fin 512) :
    rsum s (ix1 r) = ∑ c : Fin 2048, s (ix2 r c) := by
  unfold rsum
  refine (Ideal.multiReduction_add_single s _ reduces_S512x2048_S512 (.inl rfl) rfl (ix1 r)).trans ?_
  exact Finset.sum_congr rfl (fun k _ => congrArg s (lift_row r k))

/-! ## The softmax of every row -/

/-- Each row's maximum subtracted, the exponential taken. -/
def expd (s : FVec Ideal S512x2048 .f32) : FVec Ideal S512x2048 .f32 := exp (subf s (keep (rmax s)))

/-- The exponentials divided by their row's sum. -/
def smax (s : FVec Ideal S512x2048 .f32) : FVec Ideal S512x2048 .f32 := divf (expd s) (keep (rsum (expd s)))

theorem expd_at (s : FVec Ideal S512x2048 .f32) (r : Fin 512) (c : Fin 2048) :
    expd s (ix2 r c) = Ideal.exp (s (ix2 r c) - Cert.Spec.rowMax (fun c' => s (ix2 r c'))) := by
  show Ideal.exp (s (ix2 r c) - keep (rmax s) (ix2 r c)) = _
  rw [keep_at, rmax_at]

theorem smax_at (s : FVec Ideal S512x2048 .f32) (r : Fin 512) (c : Fin 2048) :
    smax s (ix2 r c) = Cert.Spec.softmax (fun c' => s (ix2 r c')) c := by
  show Ideal.div (expd s (ix2 r c)) (keep (rsum (expd s)) (ix2 r c)) = _
  rw [keep_at, rsum_at, expd_at]
  unfold Cert.Spec.softmax
  exact congrArg (Ideal.div _) (Finset.sum_congr rfl fun c' _ => expd_at s r c')

/-! ## The scores -/

/-- The scores array: the query rows against the key rows, scaled by the word of 1/8, plus the mask block. -/
def scores (q : Vec Ideal S1x1x512x64 .bf16) (k : Vec Ideal S1x1x2048x64 .bf16) (mk : Vec Ideal S1x1x512x2048 .f32) :
    FVec Ideal S512x2048 .f32 :=
  addf
    (mulf
      (matmul dot_S512x64_S64x2048_S512x2048_1_0_0_1_n_n none
        (shapeCast S512x64 q shapeCasts_S1x1x512x64_S512x64 : FVec Ideal S512x64 .bf16)
        (transpose S64x2048 [1, 0] (shapeCast S2048x64 k shapeCasts_S1x1x2048x64_S2048x64 : FVec Ideal S2048x64 .bf16)
          transposes_S2048x64_p1_0_S64x2048 : FVec Ideal S64x2048 .bf16)
        (constant S512x2048 .f32 0x00000000#32))
      (broadcast S512x2048 (Scalar.ofBits .f32 0x3E000000#32)))
    (shapeCast S512x2048 mk shapeCasts_S1x1x512x2048_S512x2048 : FVec Ideal S512x2048 .f32)

/-- A [1, 1, a, b] block viewed [a, b] reads (i, j) at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array viewed [1, 1, a, b] reads (0, 0, i, j) at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp only [Nat.zero_mul, Nat.zero_add])

theorem scores_at (q : Vec Ideal S1x1x512x64 .bf16) (k : Vec Ideal S1x1x2048x64 .bf16) (mk : Vec Ideal S1x1x512x2048 .f32)
    (r : Fin 512) (c : Fin 2048) :
    scores q k mk (ix2 r c)
      = Cert.Spec.score (fun d => q (ix4 0 0 r d)) (fun c' d => k (ix4 0 0 c' d)) (fun c' => mk (ix4 0 0 r c')) c := by
  unfold scores Cert.Spec.score
  refine congrArg₂ (fun a b : EReal => a + b) (congrArg (fun a : EReal => a * Ideal.ofBits .f32 0x3E000000#32) ?_) ?_
  · refine (Cert.Lib.StdMatmul.matmul_std_ix2 dot_S512x64_S64x2048_S512x2048_1_0_0_1_n_n none rfl rfl rfl rfl rfl rfl _ _ r c).trans ?_
    refine Finset.sum_congr rfl fun d _ => ?_
    refine congrArg₂ (fun a b : EReal => a * b) ?_ ?_
    · exact shapeCast_11ab_ab_apply q _ r d
    · exact (transpose_ix2_apply _ _ d c).trans (shapeCast_11ab_ab_apply k _ c d)
  · exact shapeCast_11ab_ab_apply mk _ r c

/-! ## The payloads -/

theorem pay2_eq (q : Vec Ideal S1x1x512x64 .bf16) (k : Vec Ideal S1x1x2048x64 .bf16) (mk : Vec Ideal S1x1x512x2048 .f32) :
    k1_pay2 (F := Ideal) q k mk = smax (scores q k mk) := rfl

theorem pay2_at (q : Vec Ideal S1x1x512x64 .bf16) (k : Vec Ideal S1x1x2048x64 .bf16) (mk : Vec Ideal S1x1x512x2048 .f32)
    (r : Fin 512) (c : Fin 2048) :
    k1_pay2 (F := Ideal) q k mk (ix2 r c)
      = Cert.Spec.softmax (Cert.Spec.score (fun d => q (ix4 0 0 r d)) (fun c' d => k (ix4 0 0 c' d)) (fun c' => mk (ix4 0 0 r c'))) c := by
  rw [pay2_eq, smax_at]
  exact congrArg (fun s => Cert.Spec.softmax s c) (funext fun c' => scores_at q k mk r c')

theorem pay3_at (q : Vec Ideal S1x1x512x64 .bf16) (k : Vec Ideal S1x1x2048x64 .bf16) (mk : Vec Ideal S1x1x512x2048 .f32) (r : Fin 512) (c : Fin 2048) :
    k1_pay3 (F := Ideal) q k mk (ix4 (0 : Fin 1) (0 : Fin 1) r c)
      = Cert.Spec.softmax (Cert.Spec.score (fun d => q (ix4 0 0 r d)) (fun c' d => k (ix4 0 0 c' d)) (fun c' => mk (ix4 0 0 r c'))) c := by
  unfold k1_pay3
  exact (shapeCast_ab_11ab_apply _ _ r c).trans (pay2_at q k mk r c)

theorem pay4_at (q : Vec Ideal S1x1x512x64 .bf16) (k v : Vec Ideal S1x1x2048x64 .bf16) (mk : Vec Ideal S1x1x512x2048 .f32) (r : Fin 512) (d : Fin 64) :
    k1_pay4 (F := Ideal) q k v mk (ix2 r d)
      = ∑ c : Fin 2048, Cert.Spec.softmax (Cert.Spec.score (fun d' => q (ix4 0 0 r d')) (fun c' d' => k (ix4 0 0 c' d')) (fun c' => mk (ix4 0 0 r c'))) c * v (ix4 0 0 c d) := by
  unfold k1_pay4
  refine (Cert.Lib.StdMatmul.matmul_std_ix2 dot_S512x2048_S2048x64_S512x64_1_0_0_1_n_n none rfl rfl rfl rfl rfl rfl _ _ r d).trans ?_
  refine Finset.sum_congr rfl fun c _ => ?_
  refine congrArg₂ (fun a b : EReal => a * b) ?_ ?_
  · exact pay2_at q k mk r c
  · exact shapeCast_11ab_ab_apply v _ c d

theorem pay1_at (q : Vec Ideal S1x1x512x64 .bf16) (k v : Vec Ideal S1x1x2048x64 .bf16) (mk : Vec Ideal S1x1x512x2048 .f32) (r : Fin 512) (d : Fin 64) :
    k1_pay1 (F := Ideal) (k1_pay4 (F := Ideal) q k v mk) (ix4 (0 : Fin 1) (0 : Fin 1) r d)
      = ∑ c : Fin 2048, Cert.Spec.softmax (Cert.Spec.score (fun d' => q (ix4 0 0 r d')) (fun c' d' => k (ix4 0 0 c' d')) (fun c' => mk (ix4 0 0 r c'))) c * v (ix4 0 0 c d) := by
  unfold k1_pay1
  exact (shapeCast_ab_11ab_apply _ _ r d).trans (pay4_at q k v mk r d)

end Cert.KernelIdeal.Pay1

end
-- ==== Proof.KiArr1Idx.lean ====
/-
  The attention pipeline's index maps over its grid [4, 2, 12], decided once over the 96 points: point (qi, b, h) has the
  query block, the weights' block and the output rows' block at (b, h, qi, 0), the key and value slabs at (b, h, 0, 0)
  and the mask block at (0, 0, qi, 0); every (b, h, qi) is some point's.
-/
import proofs.«109455_j8770323219237_2_alg».proof.Proof.KiRegion1
import Idealize.ShloMosaic.Lib.ValueIdx

set_option maxRecDepth 16384

noncomputable section

open scoped BigOperators

namespace Cert.KernelIdeal.Val

open Cert.KernelIdeal Cert.KernelIdeal.Gen Cert.KernelIdeal.Fr Idealize.ShloMosaic Idealize.ShloMosaic.TcCoe Idealize.SL.Sem Idealize.ShloMosaic.ValueIdx
open Idealize.ShloMosaic.Pipeline (Dat)

/-- The zero offsets of a whole-block rectangle, as a constant function. -/
theorem zeros4 : (![0, 0, 0, 0] : Fin 4 → Nat) = fun _ => 0 := funext fun a => by fin_cases a <;> rfl

/-- The printed index maps, decided over the 96 points: the query block, the weights' block and the output rows' block
    sit at (b, h, qi, 0); the key and value slabs at (b, h, 0, 0); the mask block at (0, 0, qi, 0); with b < 2, h < 12,
    qi < 4. -/
theorem index_facts : ∀ t : Fin cfg1.N,
    win1_0.index t (0 : Fin 4) = win1_4.index t (0 : Fin 4) ∧ win1_0.index t (1 : Fin 4) = win1_4.index t (1 : Fin 4)
    ∧ win1_0.index t (2 : Fin 4) = win1_4.index t (2 : Fin 4) ∧ win1_0.index t (3 : Fin 4) = 0
    ∧ win1_1.index t (0 : Fin 4) = win1_4.index t (0 : Fin 4) ∧ win1_1.index t (1 : Fin 4) = win1_4.index t (1 : Fin 4)
    ∧ win1_1.index t (2 : Fin 4) = 0 ∧ win1_1.index t (3 : Fin 4) = 0
    ∧ win1_2.index t (0 : Fin 4) = win1_4.index t (0 : Fin 4) ∧ win1_2.index t (1 : Fin 4) = win1_4.index t (1 : Fin 4)
    ∧ win1_2.index t (2 : Fin 4) = 0 ∧ win1_2.index t (3 : Fin 4) = 0
    ∧ win1_3.index t (0 : Fin 4) = 0 ∧ win1_3.index t (1 : Fin 4) = 0
    ∧ win1_3.index t (2 : Fin 4) = win1_4.index t (2 : Fin 4) ∧ win1_3.index t (3 : Fin 4) = 0
    ∧ win1_5.index t (0 : Fin 4) = win1_4.index t (0 : Fin 4) ∧ win1_5.index t (1 : Fin 4) = win1_4.index t (1 : Fin 4)
    ∧ win1_5.index t (2 : Fin 4) = win1_4.index t (2 : Fin 4) ∧ win1_5.index t (3 : Fin 4) = 0
    ∧ win1_4.index t (0 : Fin 4) < 2 ∧ win1_4.index t (1 : Fin 4) < 12
    ∧ win1_4.index t (2 : Fin 4) < 4 ∧ win1_4.index t (3 : Fin 4) = 0 :=
  (by decide +kernel : ∀ t : Fin grid1.N, _)

/-- Every (batch, head, block of query rows) is some point's. -/
theorem index_onto : ∀ (b : Fin 2) (h : Fin 12) (qi : Fin 4), ∃ t : Fin cfg1.N, win1_4.index t = ![b.val, h.val, qi.val, 0] :=
  (by decide +kernel : ∀ (b : Fin 2) (h : Fin 12) (qi : Fin 4), ∃ t : Fin grid1.N, win1_4.index t = ![b.val, h.val, qi.val, 0])

end Cert.KernelIdeal.Val

end
-- ==== Proof.KiArr1.lean ====
/-
  The attention pipeline's output arrays after its 96 points, each as one function of the arrays it reads.

  Point (qi, b, h) of the grid [4, 2, 12] reads query rows 512·qi … 512·qi + 511 of batch b and head h, all the key and
  value rows of (b, h), mask rows 512·qi … 512·qi + 511, and writes those rows of the weights and of the output rows for
  (b, h).  The blocks written tile both output arrays, so each ends holding the per-row function everywhere.
-/
import proofs.«109455_j8770323219237_2_alg».proof.Proof.KiRegion1
import proofs.«109455_j8770323219237_2_alg».proof.Proof.PayK1
import proofs.«109455_j8770323219237_2_alg».proof.Proof.KiArr1Idx
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Idealize.ShloMosaic Idealize.ShloMosaic.TcCoe Idealize.SL.Sem Idealize.ShloMosaic.ValueIdx
open Idealize.ShloMosaic.Pipeline (Dat)

/-- The attention weights of query row (b, h, q) from the projected arrays and the mask. -/
def attnOf (Q K : S2x12x2048x64.Idx → EReal) (M : S1x1x2048x2048.Idx → EReal) (b : Fin 2) (h : Fin 12) (q : Fin 2048) : Fin 2048 → EReal :=
  Cert.Spec.softmax (Cert.Spec.score (fun d => Q (ix4 b h q d)) (fun c' d => K (ix4 b h c' d)) (fun c' => M (ix4 0 0 q c')))

/-! ## One point's blocks -/

/-- Row `r` of the block of query rows `qi`, as a row of the array. -/
abbrev rowOf (qi : Fin 4) (r : Fin 512) : Fin 2048 := ⟨qi.val * 512 + r.val, by have := qi.isLt; have := r.isLt; omega⟩

/-- The weights the body stores for batch `b`, head `h` and the block `qi` of query rows, when its loaded blocks are
    those rows of the arrays: row `r`, column `cc` is the attention weight of array row 512·qi + r on key row `cc`. -/
theorem weights_block (Q K : S2x12x2048x64.Idx → EReal) (M : S1x1x2048x2048.Idx → EReal)
    (q : Vec Ideal S1x1x512x64 .bf16) (k : Vec Ideal S1x1x2048x64 .bf16) (mk : Vec Ideal S1x1x512x2048 .f32)
    (b : Fin 2) (h : Fin 12) (qi : Fin 4)
    (hq : ∀ (r : Fin 512) (d : Fin 64), q (ix4 0 0 r d) = Q (ix4 b h (rowOf qi r) d))
    (hk : ∀ (c' : Fin 2048) (d : Fin 64), k (ix4 0 0 c' d) = K (ix4 b h c' d))
    (hm : ∀ (r : Fin 512) (c' : Fin 2048), mk (ix4 0 0 r c') = M (ix4 0 0 (rowOf qi r) c'))
    (r : Fin 512) (cc : Fin 2048) :
    k1_pay3 (F := Ideal) q k mk (ix4 (0 : Fin 1) (0 : Fin 1) r cc) = attnOf Q K M b h (rowOf qi r) cc := by
  rw [Cert.KernelIdeal.Pay1.pay3_at]
  unfold attnOf
  refine congrArg (fun s => Cert.Spec.softmax s cc) ?_
  refine congrArg₂ (fun (f : Fin 64 → EReal) (g : Fin 2048 → EReal) => Cert.Spec.score f (fun c' d => k (ix4 0 0 c' d)) g) (funext fun d => hq r d) (funext fun c' => hm r c') |>.trans ?_
  exact congrArg (fun kk : Fin 2048 → Fin 64 → EReal => Cert.Spec.score (fun d => Q (ix4 b h (rowOf qi r) d)) kk (fun c' => M (ix4 0 0 (rowOf qi r) c'))) (funext fun c' => funext fun d => hk c' d)

/-- The output rows the body stores, likewise: row `r`, coordinate `d` is the weights' combination of the value rows. -/
theorem heads_block (Q K Vv : S2x12x2048x64.Idx → EReal) (M : S1x1x2048x2048.Idx → EReal)
    (q : Vec Ideal S1x1x512x64 .bf16) (k v : Vec Ideal S1x1x2048x64 .bf16) (mk : Vec Ideal S1x1x512x2048 .f32)
    (b : Fin 2) (h : Fin 12) (qi : Fin 4)
    (hq : ∀ (r : Fin 512) (d : Fin 64), q (ix4 0 0 r d) = Q (ix4 b h (rowOf qi r) d))
    (hk : ∀ (c' : Fin 2048) (d : Fin 64), k (ix4 0 0 c' d) = K (ix4 b h c' d))
    (hv : ∀ (c' : Fin 2048) (d : Fin 64), v (ix4 0 0 c' d) = Vv (ix4 b h c' d))
    (hm : ∀ (r : Fin 512) (c' : Fin 2048), mk (ix4 0 0 r c') = M (ix4 0 0 (rowOf qi r) c'))
    (r : Fin 512) (d : Fin 64) :
    k1_pay1 (F := Ideal) (k1_pay4 (F := Ideal) q k v mk) (ix4 (0 : Fin 1) (0 : Fin 1) r d)
      = ∑ c' : Fin 2048, attnOf Q K M b h (rowOf qi r) c' * Vv (ix4 b h c' d) := by
  rw [Cert.KernelIdeal.Pay1.pay1_at]
  refine Finset.sum_congr rfl fun c' _ => ?_
  rw [hv c' d, ← Cert.KernelIdeal.Pay1.pay3_at q k mk r c', weights_block Q K M q k mk b h qi hq hk hm r c']

/-! ## The weights' array -/

variable (V : (c : Dev nD) → (b : Ref sig .tc) → Buf (Elt Ideal) ((c : Thread nD τ).loc b))

/-- What point `t` writes back to the weights' array is its block of the attention weights of the arrays read. -/
theorem flushedA (c : Dev nD) (t : Fin cfg1.N) :
    (dat1 V c).flushed 4 t = ((cfg1.win 4).blk t).view.read (Elt Ideal)
      (fun j : S2x12x2048x2048.Idx => attnOf (V c main_v7_0) (V c main_v7_1) (V c main_arg7) (j 0) (j 1) (j 2) (j 3)) := by
  show (cfg1.win 4).cut (grid1.coords t) ((dat1 V c).after 4 t) = _
  rw [after1_4]
  unfold outA
  rw [View.canon_unit_zero zeros4]
  simp only [View.ld_unit_zero (S := S1x1x512x64) zeros4, View.ld_unit_zero (S := S1x1x2048x64) zeros4, View.ld_unit_zero (S := S1x1x512x2048) zeros4]
  obtain ⟨f00, f01, f02, f03, f10, f11, f12, f13, f20, f21, f22, f23, f30, f31, f32, f33, f50, f51, f52, f53, l0, l1, l2, z3⟩ := index_facts t
  refine funext fun (y : S1x1x512x2048.Idx) => ?_
  obtain ⟨a0, a1, r, cc, rfl⟩ : ∃ (a0 : Fin 1) (a1 : Fin 1) (r : Fin 512) (cc : Fin 2048), y = ix4 a0 a1 r cc := ⟨y 0, y 1, y 2, y 3, eq_ix4 y⟩
  obtain rfl : a0 = 0 := Fin.fin_one_eq_zero a0
  obtain rfl : a1 = 0 := Fin.fin_one_eq_zero a1
  have hq : ∀ (r : Fin 512) (d : Fin 64), blk1 V c 0 t (ix4 (0 : Fin 1) (0 : Fin 1) r d) = V c main_v7_0 (ix4 (⟨win1_4.index t (0 : Fin 4), l0⟩ : Fin 2) (⟨win1_4.index t (1 : Fin 4), l1⟩ : Fin 12) (rowOf (⟨win1_4.index t (2 : Fin 4), l2⟩ : Fin 4) r) d) := fun r d => by
    show V c main_v7_0 (((cfg1.win 0).blk t).view.emb (ix4 (0 : Fin 1) (0 : Fin 1) r d)) = _
    refine congrArg (V c main_v7_0) (funext fun a => Fin.ext ?_)
    match a with
    | ⟨0, _⟩ => show win1_0.index t (0 : Fin 4) * 1 + 1 * (0 : Nat) = win1_4.index t (0 : Fin 4); omega
    | ⟨1, _⟩ => show win1_0.index t (1 : Fin 4) * 1 + 1 * (0 : Nat) = win1_4.index t (1 : Fin 4); omega
    | ⟨2, _⟩ => show win1_0.index t (2 : Fin 4) * 512 + 1 * r.val = win1_4.index t (2 : Fin 4) * 512 + r.val; omega
    | ⟨3, _⟩ => show win1_0.index t (3 : Fin 4) * 64 + 1 * d.val = d.val; omega
  have hk : ∀ (c' : Fin 2048) (d : Fin 64), blk1 V c 1 t (ix4 (0 : Fin 1) (0 : Fin 1) c' d) = V c main_v7_1 (ix4 (⟨win1_4.index t (0 : Fin 4), l0⟩ : Fin 2) (⟨win1_4.index t (1 : Fin 4), l1⟩ : Fin 12) c' d) := fun c' d => by
    show V c main_v7_1 (((cfg1.win 1).blk t).view.emb (ix4 (0 : Fin 1) (0 : Fin 1) c' d)) = _
    refine congrArg (V c main_v7_1) (funext fun a => Fin.ext ?_)
    match a with
    | ⟨0, _⟩ => show win1_1.index t (0 : Fin 4) * 1 + 1 * (0 : Nat) = win1_4.index t (0 : Fin 4); omega
    | ⟨1, _⟩ => show win1_1.index t (1 : Fin 4) * 1 + 1 * (0 : Nat) = win1_4.index t (1 : Fin 4); omega
    | ⟨2, _⟩ => show win1_1.index t (2 : Fin 4) * 2048 + 1 * c'.val = c'.val; omega
    | ⟨3, _⟩ => show win1_1.index t (3 : Fin 4) * 64 + 1 * d.val = d.val; omega
  have hm : ∀ (r : Fin 512) (c' : Fin 2048), blk1 V c 3 t (ix4 (0 : Fin 1) (0 : Fin 1) r c') = V c main_arg7 (ix4 (0 : Fin 1) (0 : Fin 1) (rowOf (⟨win1_4.index t (2 : Fin 4), l2⟩ : Fin 4) r) c') := fun r c' => by
    show V c main_arg7 (((cfg1.win 3).blk t).view.emb (ix4 (0 : Fin 1) (0 : Fin 1) r c')) = _
    refine congrArg (V c main_arg7) (funext fun a => Fin.ext ?_)
    match a with
    | ⟨0, _⟩ => show win1_3.index t (0 : Fin 4) * 1 + 1 * (0 : Nat) = 0; omega
    | ⟨1, _⟩ => show win1_3.index t (1 : Fin 4) * 1 + 1 * (0 : Nat) = 0; omega
    | ⟨2, _⟩ => show win1_3.index t (2 : Fin 4) * 512 + 1 * r.val = win1_4.index t (2 : Fin 4) * 512 + r.val; omega
    | ⟨3, _⟩ => show win1_3.index t (3 : Fin 4) * 2048 + 1 * c'.val = c'.val; omega
  have e4 : ((cfg1.win 4).blk t).view.emb (ix4 (0 : Fin 1) (0 : Fin 1) r cc) = ix4 (⟨win1_4.index t (0 : Fin 4), l0⟩ : Fin 2) (⟨win1_4.index t (1 : Fin 4), l1⟩ : Fin 12) (rowOf (⟨win1_4.index t (2 : Fin 4), l2⟩ : Fin 4) r) cc := by
    funext a; apply Fin.ext
    match a with
    | ⟨0, _⟩ => show win1_4.index t (0 : Fin 4) * 1 + 1 * (0 : Nat) = win1_4.index t (0 : Fin 4); omega
    | ⟨1, _⟩ => show win1_4.index t (1 : Fin 4) * 1 + 1 * (0 : Nat) = win1_4.index t (1 : Fin 4); omega
    | ⟨2, _⟩ => show win1_4.index t (2 : Fin 4) * 512 + 1 * r.val = win1_4.index t (2 : Fin 4) * 512 + r.val; omega
    | ⟨3, _⟩ => show win1_4.index t (3 : Fin 4) * 2048 + 1 * cc.val = cc.val; omega
  show k1_pay3 (F := Ideal) (blk1 V c 0 t) (blk1 V c 1 t) (blk1 V c 3 t) (ix4 (0 : Fin 1) (0 : Fin 1) r cc)
    = (fun j : S2x12x2048x2048.Idx => attnOf (V c main_v7_0) (V c main_v7_1) (V c main_arg7) (j 0) (j 1) (j 2) (j 3)) (((cfg1.win 4).blk t).view.emb (ix4 (0 : Fin 1) (0 : Fin 1) r cc))
  rw [e4]
  exact weights_block (V c main_v7_0) (V c main_v7_1) (V c main_arg7) (blk1 V c 0 t) (blk1 V c 1 t) (blk1 V c 3 t) _ _ (⟨win1_4.index t (2 : Fin 4), l2⟩ : Fin 4) hq hk hm r cc

/-- An index of the array is in point `t`'s block iff each coordinate is in the block's range on its axis. -/
theorem mem_blockA (t : Fin cfg1.N) (i : S2x12x2048x2048.Idx) :
    i ∈ ((cfg1.win 4).blk t).view.set ↔ ∀ a : Fin 4, win1_4.index t a * S1x1x512x2048.size a ≤ (i a).val ∧ (i a).val < win1_4.index t a * S1x1x512x2048.size a + S1x1x512x2048.size a := by
  show i ∈ ((View.whole main_v8_0).slice (win1_4.rect t)).set ↔ _
  rw [View.set_slice_whole, Rect.mem_set_unit]
  exact Iff.rfl

/-- Every index of the array is in the block of the point for its batch, head and block of rows. -/
theorem coverA (i : S2x12x2048x2048.Idx) : ∃ t : Fin cfg1.N, (cfg1.win 4).flush t = true ∧ i ∈ ((cfg1.win 4).blk t).view.set := by
  have hi0 : (i 0).val < 2 := (i 0).isLt
  have hi1 : (i 1).val < 12 := (i 1).isLt
  have hi2 : (i 2).val < 2048 := (i 2).isLt
  have hi3 : (i 3).val < 2048 := (i 3).isLt
  obtain ⟨t, ht⟩ := index_onto ⟨(i 0).val, hi0⟩ ⟨(i 1).val, hi1⟩ ⟨(i 2).val / 512, by omega⟩
  have q0 : win1_4.index t (0 : Fin 4) = (i 0).val := congrFun ht 0
  have q1 : win1_4.index t (1 : Fin 4) = (i 1).val := congrFun ht 1
  have q2 : win1_4.index t (2 : Fin 4) = (i 2).val / 512 := congrFun ht 2
  obtain ⟨f00, f01, f02, f03, f10, f11, f12, f13, f20, f21, f22, f23, f30, f31, f32, f33, f50, f51, f52, f53, l0, l1, l2, z3⟩ := index_facts t
  refine ⟨t, flush1_4 t, ?_⟩
  rw [mem_blockA]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 1 ≤ (i 1).val ∧ (i 1).val < win1_4.index t (1 : Fin 4) * 1 + 1; omega
  | ⟨2, _⟩ => show win1_4.index t (2 : Fin 4) * 512 ≤ (i 2).val ∧ (i 2).val < win1_4.index t (2 : Fin 4) * 512 + 512; omega
  | ⟨3, _⟩ => show win1_4.index t (3 : Fin 4) * 2048 ≤ (i 3).val ∧ (i 3).val < win1_4.index t (3 : Fin 4) * 2048 + 2048; omega

/-- The weights' array after the pipeline's 96 points. -/
theorem arrA (c : Dev nD) : (dat1 V c).arrAt 4 cfg1.N
    = fun j : S2x12x2048x2048.Idx => attnOf (V c main_v7_0) (V c main_v7_1) (V c main_arg7) (j 0) (j 1) (j 2) (j 3) :=
  (dat1 V c).arrAt_eq_of_cover 4 _ (fun t _ => flushedA V c t) coverA

/-! ## The output rows' array -/

/-- What point `t` writes back to the output rows' array is its block of the weights' combinations of the value rows. -/
theorem flushedH (c : Dev nD) (t : Fin cfg1.N) :
    (dat1 V c).flushed 5 t = ((cfg1.win 5).blk t).view.read (Elt Ideal)
      (fun j => ∑ c' : Fin 2048, attnOf (V c main_v7_0) (V c main_v7_1) (V c main_arg7) (j 0) (j 1) (j 2) c' * (V c main_v7_2 : S2x12x2048x64.Idx → EReal) (ix4 (j 0) (j 1) c' (j 3)) : S2x12x2048x64.Idx → EReal) := by
  show (cfg1.win 5).cut (grid1.coords t) ((dat1 V c).after 5 t) = _
  rw [after1_5]
  unfold outH
  rw [View.canon_unit_zero zeros4]
  simp only [View.ld_unit_zero (S := S1x1x512x64) zeros4, View.ld_unit_zero (S := S1x1x2048x64) zeros4, View.ld_unit_zero (S := S1x1x512x2048) zeros4]
  obtain ⟨f00, f01, f02, f03, f10, f11, f12, f13, f20, f21, f22, f23, f30, f31, f32, f33, f50, f51, f52, f53, l0, l1, l2, z3⟩ := index_facts t
  refine funext fun (y : S1x1x512x64.Idx) => ?_
  obtain ⟨a0, a1, r, dd, rfl⟩ : ∃ (a0 : Fin 1) (a1 : Fin 1) (r : Fin 512) (dd : Fin 64), y = ix4 a0 a1 r dd := ⟨y 0, y 1, y 2, y 3, eq_ix4 y⟩
  obtain rfl : a0 = 0 := Fin.fin_one_eq_zero a0
  obtain rfl : a1 = 0 := Fin.fin_one_eq_zero a1
  have hq : ∀ (r : Fin 512) (d : Fin 64), blk1 V c 0 t (ix4 (0 : Fin 1) (0 : Fin 1) r d) = V c main_v7_0 (ix4 (⟨win1_4.index t (0 : Fin 4), l0⟩ : Fin 2) (⟨win1_4.index t (1 : Fin 4), l1⟩ : Fin 12) (rowOf (⟨win1_4.index t (2 : Fin 4), l2⟩ : Fin 4) r) d) := fun r d => by
    show V c main_v7_0 (((cfg1.win 0).blk t).view.emb (ix4 (0 : Fin 1) (0 : Fin 1) r d)) = _
    refine congrArg (V c main_v7_0) (funext fun a => Fin.ext ?_)
    match a with
    | ⟨0, _⟩ => show win1_0.index t (0 : Fin 4) * 1 + 1 * (0 : Nat) = win1_4.index t (0 : Fin 4); omega
    | ⟨1, _⟩ => show win1_0.index t (1 : Fin 4) * 1 + 1 * (0 : Nat) = win1_4.index t (1 : Fin 4); omega
    | ⟨2, _⟩ => show win1_0.index t (2 : Fin 4) * 512 + 1 * r.val = win1_4.index t (2 : Fin 4) * 512 + r.val; omega
    | ⟨3, _⟩ => show win1_0.index t (3 : Fin 4) * 64 + 1 * d.val = d.val; omega
  have hk : ∀ (c' : Fin 2048) (d : Fin 64), blk1 V c 1 t (ix4 (0 : Fin 1) (0 : Fin 1) c' d) = V c main_v7_1 (ix4 (⟨win1_4.index t (0 : Fin 4), l0⟩ : Fin 2) (⟨win1_4.index t (1 : Fin 4), l1⟩ : Fin 12) c' d) := fun c' d => by
    show V c main_v7_1 (((cfg1.win 1).blk t).view.emb (ix4 (0 : Fin 1) (0 : Fin 1) c' d)) = _
    refine congrArg (V c main_v7_1) (funext fun a => Fin.ext ?_)
    match a with
    | ⟨0, _⟩ => show win1_1.index t (0 : Fin 4) * 1 + 1 * (0 : Nat) = win1_4.index t (0 : Fin 4); omega
    | ⟨1, _⟩ => show win1_1.index t (1 : Fin 4) * 1 + 1 * (0 : Nat) = win1_4.index t (1 : Fin 4); omega
    | ⟨2, _⟩ => show win1_1.index t (2 : Fin 4) * 2048 + 1 * c'.val = c'.val; omega
    | ⟨3, _⟩ => show win1_1.index t (3 : Fin 4) * 64 + 1 * d.val = d.val; omega
  have hv : ∀ (c' : Fin 2048) (d : Fin 64), blk1 V c 2 t (ix4 (0 : Fin 1) (0 : Fin 1) c' d) = V c main_v7_2 (ix4 (⟨win1_4.index t (0 : Fin 4), l0⟩ : Fin 2) (⟨win1_4.index t (1 : Fin 4), l1⟩ : Fin 12) c' d) := fun c' d => by
    show V c main_v7_2 (((cfg1.win 2).blk t).view.emb (ix4 (0 : Fin 1) (0 : Fin 1) c' d)) = _
    refine congrArg (V c main_v7_2) (funext fun a => Fin.ext ?_)
    match a with
    | ⟨0, _⟩ => show win1_2.index t (0 : Fin 4) * 1 + 1 * (0 : Nat) = win1_4.index t (0 : Fin 4); omega
    | ⟨1, _⟩ => show win1_2.index t (1 : Fin 4) * 1 + 1 * (0 : Nat) = win1_4.index t (1 : Fin 4); omega
    | ⟨2, _⟩ => show win1_2.index t (2 : Fin 4) * 2048 + 1 * c'.val = c'.val; omega
    | ⟨3, _⟩ => show win1_2.index t (3 : Fin 4) * 64 + 1 * d.val = d.val; omega
  have hm : ∀ (r : Fin 512) (c' : Fin 2048), blk1 V c 3 t (ix4 (0 : Fin 1) (0 : Fin 1) r c') = V c main_arg7 (ix4 (0 : Fin 1) (0 : Fin 1) (rowOf (⟨win1_4.index t (2 : Fin 4), l2⟩ : Fin 4) r) c') := fun r c' => by
    show V c main_arg7 (((cfg1.win 3).blk t).view.emb (ix4 (0 : Fin 1) (0 : Fin 1) r c')) = _
    refine congrArg (V c main_arg7) (funext fun a => Fin.ext ?_)
    match a with
    | ⟨0, _⟩ => show win1_3.index t (0 : Fin 4) * 1 + 1 * (0 : Nat) = 0; omega
    | ⟨1, _⟩ => show win1_3.index t (1 : Fin 4) * 1 + 1 * (0 : Nat) = 0; omega
    | ⟨2, _⟩ => show win1_3.index t (2 : Fin 4) * 512 + 1 * r.val = win1_4.index t (2 : Fin 4) * 512 + r.val; omega
    | ⟨3, _⟩ => show win1_3.index t (3 : Fin 4) * 2048 + 1 * c'.val = c'.val; omega
  have e5 : ((cfg1.win 5).blk t).view.emb (ix4 (0 : Fin 1) (0 : Fin 1) r dd) = ix4 (⟨win1_4.index t (0 : Fin 4), l0⟩ : Fin 2) (⟨win1_4.index t (1 : Fin 4), l1⟩ : Fin 12) (rowOf (⟨win1_4.index t (2 : Fin 4), l2⟩ : Fin 4) r) dd := by
    funext a; apply Fin.ext
    match a with
    | ⟨0, _⟩ => show win1_5.index t (0 : Fin 4) * 1 + 1 * (0 : Nat) = win1_4.index t (0 : Fin 4); omega
    | ⟨1, _⟩ => show win1_5.index t (1 : Fin 4) * 1 + 1 * (0 : Nat) = win1_4.index t (1 : Fin 4); omega
    | ⟨2, _⟩ => show win1_5.index t (2 : Fin 4) * 512 + 1 * r.val = win1_4.index t (2 : Fin 4) * 512 + r.val; omega
    | ⟨3, _⟩ => show win1_5.index t (3 : Fin 4) * 64 + 1 * dd.val = dd.val; omega
  show k1_pay1 (F := Ideal) (k1_pay4 (F := Ideal) (blk1 V c 0 t) (blk1 V c 1 t) (blk1 V c 2 t) (blk1 V c 3 t)) (ix4 (0 : Fin 1) (0 : Fin 1) r dd)
    = (fun j => ∑ c' : Fin 2048, attnOf (V c main_v7_0) (V c main_v7_1) (V c main_arg7) (j 0) (j 1) (j 2) c' * (V c main_v7_2 : S2x12x2048x64.Idx → EReal) (ix4 (j 0) (j 1) c' (j 3)) : S2x12x2048x64.Idx → EReal) (((cfg1.win 5).blk t).view.emb (ix4 (0 : Fin 1) (0 : Fin 1) r dd))
  rw [e5]
  exact heads_block (V c main_v7_0) (V c main_v7_1) (V c main_v7_2) (V c main_arg7) (blk1 V c 0 t) (blk1 V c 1 t) (blk1 V c 2 t) (blk1 V c 3 t) _ _ (⟨win1_4.index t (2 : Fin 4), l2⟩ : Fin 4) hq hk hv hm r dd

/-- An index of the array is in point `t`'s block iff each coordinate is in the block's range on its axis. -/
theorem mem_blockH (t : Fin cfg1.N) (i : S2x12x2048x64.Idx) :
    i ∈ ((cfg1.win 5).blk t).view.set ↔ ∀ a : Fin 4, win1_5.index t a * S1x1x512x64.size a ≤ (i a).val ∧ (i a).val < win1_5.index t a * S1x1x512x64.size a + S1x1x512x64.size a := by
  show i ∈ ((View.whole main_v8_1).slice (win1_5.rect t)).set ↔ _
  rw [View.set_slice_whole, Rect.mem_set_unit]
  exact Iff.rfl

/-- Every index of the array is in the block of the point for its batch, head and block of rows. -/
theorem coverH (i : S2x12x2048x64.Idx) : ∃ t : Fin cfg1.N, (cfg1.win 5).flush t = true ∧ i ∈ ((cfg1.win 5).blk t).view.set := by
  have hi0 : (i 0).val < 2 := (i 0).isLt
  have hi1 : (i 1).val < 12 := (i 1).isLt
  have hi2 : (i 2).val < 2048 := (i 2).isLt
  have hi3 : (i 3).val < 64 := (i 3).isLt
  obtain ⟨t, ht⟩ := index_onto ⟨(i 0).val, hi0⟩ ⟨(i 1).val, hi1⟩ ⟨(i 2).val / 512, by omega⟩
  have q0 : win1_4.index t (0 : Fin 4) = (i 0).val := congrFun ht 0
  have q1 : win1_4.index t (1 : Fin 4) = (i 1).val := congrFun ht 1
  have q2 : win1_4.index t (2 : Fin 4) = (i 2).val / 512 := congrFun ht 2
  obtain ⟨f00, f01, f02, f03, f10, f11, f12, f13, f20, f21, f22, f23, f30, f31, f32, f33, f50, f51, f52, f53, l0, l1, l2, z3⟩ := index_facts t
  refine ⟨t, flush1_5 t, ?_⟩
  rw [mem_blockH]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 1 ≤ (i 1).val ∧ (i 1).val < win1_5.index t (1 : Fin 4) * 1 + 1; omega
  | ⟨2, _⟩ => show win1_5.index t (2 : Fin 4) * 512 ≤ (i 2).val ∧ (i 2).val < win1_5.index t (2 : Fin 4) * 512 + 512; omega
  | ⟨3, _⟩ => show win1_5.index t (3 : Fin 4) * 64 ≤ (i 3).val ∧ (i 3).val < win1_5.index t (3 : Fin 4) * 64 + 64; omega

/-- The output rows' array after the pipeline's 96 points. -/
theorem arrH (c : Dev nD) : (dat1 V c).arrAt 5 cfg1.N
    = (fun j => ∑ c' : Fin 2048, attnOf (V c main_v7_0) (V c main_v7_1) (V c main_arg7) (j 0) (j 1) (j 2) c' * (V c main_v7_2 : S2x12x2048x64.Idx → EReal) (ix4 (j 0) (j 1) c' (j 3)) : S2x12x2048x64.Idx → EReal) :=
  (dat1 V c).arrAt_eq_of_cover 5 _ (fun t _ => flushedH V c t) coverH

end Cert.KernelIdeal.Val

end
-- ==== Proof.KiFinal.lean ====
/-
  The kernel program's two results as functions of its arguments.

  Following the buffers through the run: the first stretch of host operations flattens x and concatenates the
  weights and biases; the projection pipeline leaves the query, key and value arrays, each entry a projection of a row
  of x onto a feature; the attention pipeline leaves, for every batch, head and query row, the softmax weights of the
  scores against every key row and the weights' combination of the value rows; the last host operation swaps the head
  and row axes of the latter.  So the program ends with the specification's two arrays of its arguments.
-/
import proofs.«109455_j8770323219237_2_alg».proof.Proof.KiFrame
import proofs.«109455_j8770323219237_2_alg».proof.Proof.KiHost
import proofs.«109455_j8770323219237_2_alg».proof.Proof.KiArr0
import proofs.«109455_j8770323219237_2_alg».proof.Proof.KiArr1
import proofs.«109455_j8770323219237_2_alg».proof.Proof.Spec

noncomputable section

namespace Cert.KernelIdeal.Val

open Cert.KernelIdeal Cert.KernelIdeal.Gen Cert.KernelIdeal.Fr Cert.KernelIdeal.Host
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The projection pipeline's inputs -/

/-- The side-by-side weights and end-to-end biases as terms of the arguments. -/
abbrev wcatTerm (c : Dev nD) : S768x2304.Idx → EReal :=
  (truncf (F := Ideal) .bf16 (concatenate S768x2304 1
    [⟨S768x768, transpose S768x768 [1, 0] (m ((c : Thread nD τ).loc main_arg1) : FVec Ideal S768x768 .f32) transposes_S768x768_S768x768_1_0⟩,
     ⟨S768x768, transpose S768x768 [1, 0] (m ((c : Thread nD τ).loc main_arg3) : FVec Ideal S768x768 .f32) transposes_S768x768_S768x768_1_0⟩,
     ⟨S768x768, transpose S768x768 [1, 0] (m ((c : Thread nD τ).loc main_arg5) : FVec Ideal S768x768 .f32) transposes_S768x768_S768x768_1_0⟩]
    concatenates_S768x768_S768x768_S768x768_S768x2304_d1) bitsLt_bf16_f32 : FVec Ideal S768x2304 .bf16)
abbrev bcatTerm (c : Dev nD) : S2304.Idx → EReal :=
  (concatenate S2304 0 [⟨S768, (m ((c : Thread nD τ).loc main_arg2) : FVec Ideal S768 .f32)⟩, ⟨S768, (m ((c : Thread nD τ).loc main_arg4) : FVec Ideal S768 .f32)⟩, ⟨S768, (m ((c : Thread nD τ).loc main_arg6) : FVec Ideal S768 .f32)⟩]
    concatenates_S768_S768_S768_S2304_d0 : FVec Ideal S2304 .f32)

/-- The flattened x as a term of the argument. -/
abbrev flatTerm (c : Dev nD) : S4096x768.Idx → EReal :=
  shapeCast S4096x768 (m ((c : Thread nD τ).loc main_arg0) : S2x2048x768.Idx → EReal) shapeCasts_S2x2048x768_S4096x768
theorem entry_flat (c : Dev nD) : E1 m ρ c main_v6 = flatTerm m c := flat_eq (B0 m ρ c)
theorem entry_wcat (c : Dev nD) : E1 m ρ c main_v4 = wcatTerm m c := wcat_eq (B0 m ρ c)
theorem entry_bcat (c : Dev nD) : E1 m ρ c main_v5 = bcatTerm m c := bcat_eq (B0 m ρ c)

/-! ## What the projection pipeline leaves -/

/-- The Q array the projection pipeline leaves, at `(b, h, t, d)`: the projection of row `(b, t)` onto feature `64·h + d`. -/
theorem Q_at (c : Dev nD) (b : Fin 2) (h : Fin 12) (t : Fin 2048) (d : Fin 64) :
    E2 m ρ c main_v7_0 (ix4 b h t d) = Cert.Spec.proj (m ((c : Thread nD τ).loc main_arg0)) (m ((c : Thread nD τ).loc main_arg1)) (m ((c : Thread nD τ).loc main_arg2)) b t (Cert.Spec.feat h d) := by
  have hA : E2 m ρ c main_v7_0 = projArr 0 (by omega) (E1 m ρ c main_v6) (E1 m ρ c main_v4) (E1 m ρ c main_v5) :=
    (B2_arr m ρ c 3).trans (arrQ (E1 m ρ) c)
  rw [hA, entry_flat, entry_wcat, entry_bcat]
  show (∑ k : Fin 768, flatTerm m c (ix2 (row b t) k)
        * wcatTerm m c (ix2 k (Cert.KernelIdeal.Pay.col 0 h d (by omega))))
      + bcatTerm m c (ix1 (Cert.KernelIdeal.Pay.col 0 h d (by omega))) = _
  unfold Cert.Spec.proj
  refine congr (congrArg HAdd.hAdd (Finset.sum_congr rfl fun k _ => ?_)) ?_
  · rw [show flatTerm m c (ix2 (row b t) k) = (m ((c : Thread nD τ).loc main_arg0) : S2x2048x768.Idx → EReal) (ix3 b t k) from
      flat_at _ b t k (row b t) rfl]
    rw [show wcatTerm m c (ix2 k (Cert.KernelIdeal.Pay.col 0 h d (by omega)))
        = (m ((c : Thread nD τ).loc main_arg1) : S768x768.Idx → EReal) (ix2 (Cert.Spec.feat h d) k) from
      wcat_at _ _ _ (⟨0, by decide⟩ : Fin 3) k (Cert.Spec.feat h d) _ (by
        show 0 + (h.val * 64 + d.val) = 768 * 0 + (h.val * 64 + d.val); omega)]
  · exact (show bcatTerm m c (ix1 (Cert.KernelIdeal.Pay.col 0 h d (by omega)))
        = (m ((c : Thread nD τ).loc main_arg2) : S768.Idx → EReal) (ix1 (Cert.Spec.feat h d)) from
      bcat_at _ _ _ (⟨0, by decide⟩ : Fin 3) (Cert.Spec.feat h d) _ (by
        show 0 + (h.val * 64 + d.val) = 768 * 0 + (h.val * 64 + d.val); omega))

/-- The K array the projection pipeline leaves, at `(b, h, t, d)`: the projection of row `(b, t)` onto feature `64·h + d`. -/
theorem K_at (c : Dev nD) (b : Fin 2) (h : Fin 12) (t : Fin 2048) (d : Fin 64) :
    E2 m ρ c main_v7_1 (ix4 b h t d) = Cert.Spec.proj (m ((c : Thread nD τ).loc main_arg0)) (m ((c : Thread nD τ).loc main_arg3)) (m ((c : Thread nD τ).loc main_arg4)) b t (Cert.Spec.feat h d) := by
  have hA : E2 m ρ c main_v7_1 = projArr 768 (by omega) (E1 m ρ c main_v6) (E1 m ρ c main_v4) (E1 m ρ c main_v5) :=
    (B2_arr m ρ c 4).trans (arrK (E1 m ρ) c)
  rw [hA, entry_flat, entry_wcat, entry_bcat]
  show (∑ k : Fin 768, flatTerm m c (ix2 (row b t) k)
        * wcatTerm m c (ix2 k (Cert.KernelIdeal.Pay.col 768 h d (by omega))))
      + bcatTerm m c (ix1 (Cert.KernelIdeal.Pay.col 768 h d (by omega))) = _
  unfold Cert.Spec.proj
  refine congr (congrArg HAdd.hAdd (Finset.sum_congr rfl fun k _ => ?_)) ?_
  · rw [show flatTerm m c (ix2 (row b t) k) = (m ((c : Thread nD τ).loc main_arg0) : S2x2048x768.Idx → EReal) (ix3 b t k) from
      flat_at _ b t k (row b t) rfl]
    rw [show wcatTerm m c (ix2 k (Cert.KernelIdeal.Pay.col 768 h d (by omega)))
        = (m ((c : Thread nD τ).loc main_arg3) : S768x768.Idx → EReal) (ix2 (Cert.Spec.feat h d) k) from
      wcat_at _ _ _ (⟨1, by decide⟩ : Fin 3) k (Cert.Spec.feat h d) _ (by
        show 768 + (h.val * 64 + d.val) = 768 * 1 + (h.val * 64 + d.val); omega)]
  · exact (show bcatTerm m c (ix1 (Cert.KernelIdeal.Pay.col 768 h d (by omega)))
        = (m ((c : Thread nD τ).loc main_arg4) : S768.Idx → EReal) (ix1 (Cert.Spec.feat h d)) from
      bcat_at _ _ _ (⟨1, by decide⟩ : Fin 3) (Cert.Spec.feat h d) _ (by
        show 768 + (h.val * 64 + d.val) = 768 * 1 + (h.val * 64 + d.val); omega))

/-- The V array the projection pipeline leaves, at `(b, h, t, d)`: the projection of row `(b, t)` onto feature `64·h + d`. -/
theorem V_at (c : Dev nD) (b : Fin 2) (h : Fin 12) (t : Fin 2048) (d : Fin 64) :
    E2 m ρ c main_v7_2 (ix4 b h t d) = Cert.Spec.proj (m ((c : Thread nD τ).loc main_arg0)) (m ((c : Thread nD τ).loc main_arg5)) (m ((c : Thread nD τ).loc main_arg6)) b t (Cert.Spec.feat h d) := by
  have hA : E2 m ρ c main_v7_2 = projArr 1536 (by omega) (E1 m ρ c main_v6) (E1 m ρ c main_v4) (E1 m ρ c main_v5) :=
    (B2_arr m ρ c 5).trans (arrV (E1 m ρ) c)
  rw [hA, entry_flat, entry_wcat, entry_bcat]
  show (∑ k : Fin 768, flatTerm m c (ix2 (row b t) k)
        * wcatTerm m c (ix2 k (Cert.KernelIdeal.Pay.col 1536 h d (by omega))))
      + bcatTerm m c (ix1 (Cert.KernelIdeal.Pay.col 1536 h d (by omega))) = _
  unfold Cert.Spec.proj
  refine congr (congrArg HAdd.hAdd (Finset.sum_congr rfl fun k _ => ?_)) ?_
  · rw [show flatTerm m c (ix2 (row b t) k) = (m ((c : Thread nD τ).loc main_arg0) : S2x2048x768.Idx → EReal) (ix3 b t k) from
      flat_at _ b t k (row b t) rfl]
    rw [show wcatTerm m c (ix2 k (Cert.KernelIdeal.Pay.col 1536 h d (by omega)))
        = (m ((c : Thread nD τ).loc main_arg5) : S768x768.Idx → EReal) (ix2 (Cert.Spec.feat h d) k) from
      wcat_at _ _ _ (⟨2, by decide⟩ : Fin 3) k (Cert.Spec.feat h d) _ (by
        show 1536 + (h.val * 64 + d.val) = 768 * 2 + (h.val * 64 + d.val); omega)]
  · exact (show bcatTerm m c (ix1 (Cert.KernelIdeal.Pay.col 1536 h d (by omega)))
        = (m ((c : Thread nD τ).loc main_arg6) : S768.Idx → EReal) (ix1 (Cert.Spec.feat h d)) from
      bcat_at _ _ _ (⟨2, by decide⟩ : Fin 3) (Cert.Spec.feat h d) _ (by
        show 1536 + (h.val * 64 + d.val) = 768 * 2 + (h.val * 64 + d.val); omega))

/-- The mask reaches the attention pipeline as launched. -/
theorem mask_entry (c : Dev nD) : E2 m ρ c main_arg7 = m ((c : Thread nD τ).loc main_arg7) :=
  (B2_of_ne m ρ c main_arg7 (by decide)).trans
    ((StableHlo.after_of_writes_sub hostOps0 _ hostOps0_writes (by decide)).trans rfl)

/-! ## What the attention pipeline leaves, and the program's results -/

/-- The weights of query row `(b, h, q)` computed from the projected arrays are the specification's. -/
theorem weights_at (c : Dev nD) (b : Fin 2) (h : Fin 12) (q c' : Fin 2048) :
    attnOf (E2 m ρ c main_v7_0) (E2 m ρ c main_v7_1) (E2 m ρ c main_arg7) b h q c'
      = Cert.Spec.attnAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) b h q c' := by
  unfold attnOf Cert.Spec.attnAt
  rw [mask_entry]
  refine congrFun (congrArg Cert.Spec.softmax (congr (congr (congrArg Cert.Spec.score ?_) ?_) rfl)) c'
  · exact funext fun d => Q_at m ρ c b h q d
  · exact funext fun c'' => funext fun d => K_at m ρ c b h c'' d

/-- The attention weights' array at the end of the run. -/
theorem final_weights (c : Dev nD) :
    B5 m ρ c (Proc.devRef .tc main_v8_0)
      = Cert.Spec.attnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (weights_kept (B4 m ρ c)).trans (((B4_arr m ρ c 4).trans (arrA (E2 m ρ) c)).trans (funext fun j => ?_))
  exact weights_at m ρ c (j 0) (j 1) (j 2) (j 3)

/-- The heads' outputs' array at the end of the run. -/
theorem final_heads (c : Dev nD) :
    B5 m ρ c (Proc.devRef .tc main_v9)
      = Cert.Spec.headsArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (swapped_eq (B4 m ρ c)).trans (funext fun j => ?_)
  obtain ⟨b, t, h, d, rfl⟩ : ∃ (b : Fin 2) (t : Fin 2048) (h : Fin 12) (d : Fin 64), j = ix4 b t h d := ⟨j 0, j 1, j 2, j 3, eq_ix4 j⟩
  rw [swapped_at]
  have hH : B4 m ρ c (Proc.devRef .tc main_v8_1) = _ := (B4_arr m ρ c 5).trans (arrH (E2 m ρ) c)
  rw [hH]
  show (∑ c' : Fin 2048, attnOf (E2 m ρ c main_v7_0) (E2 m ρ c main_v7_1) (E2 m ρ c main_arg7) b h t c' * E2 m ρ c main_v7_2 (ix4 b h c' d)) = _
  unfold Cert.Spec.headsArr Cert.Spec.headAt
  exact Finset.sum_congr rfl fun c' _ => by rw [weights_at, V_at]

/-- THE RUN, READ: every weakly fair execution of the program terminates, nothing faulting, with the two results at the
    specification's arrays of the arguments and the arguments as launched. -/
theorem kernel_run : θ_run defs (onTc (τ := τ) (main (F := Ideal))) ⟨m, fun _ => 0, ρ⟩ (fun r => ∀ c : Dev nD,
      r.2.mem ((c.tc : Thread nD τ).loc main_v9)
        = Cert.Spec.headsArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v8_0)
        = Cert.Spec.attnArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v9 (by decide))).trans (final_heads m ρ c),
     (h c _ (mem_uc main_v8_0 (by decide))).trans (final_weights m ρ c),
     (h c _ (mem_uc main_arg0 (by decide))).trans (B5_arg m ρ c main_arg0 (by decide)),
     (h c _ (mem_uc main_arg1 (by decide))).trans (B5_arg m ρ c main_arg1 (by decide)),
     (h c _ (mem_uc main_arg2 (by decide))).trans (B5_arg m ρ c main_arg2 (by decide)),
     (h c _ (mem_uc main_arg3 (by decide))).trans (B5_arg m ρ c main_arg3 (by decide)),
     (h c _ (mem_uc main_arg4 (by decide))).trans (B5_arg m ρ c main_arg4 (by decide)),
     (h c _ (mem_uc main_arg5 (by decide))).trans (B5_arg m ρ c main_arg5 (by decide)),
     (h c _ (mem_uc main_arg6 (by decide))).trans (B5_arg m ρ c main_arg6 (by decide)),
     (h c _ (mem_uc main_arg7 (by decide))).trans (B5_arg m ρ c main_arg7 (by decide))⟩)
    (run_all m ρ)

end Cert.KernelIdeal.Val

end
-- ==== Proof.RefConsts.lean ====
/-
  The float words the reference spells, as the extended reals they denote, and the three small laws that carry the
  reference's spelling of a scaled score, a row maximum and a sum of exponentials to the specification's.
-/
import Idealize.ShloMosaic.PureOps.Ideal
import Idealize.ShloMosaic.PureOps.Ideal.Laws
import Mathlib.Data.Finset.Fold

noncomputable section

namespace Cert.RefConsts

open Idealize.ShloMosaic

/-- The word of 8.0 denotes the real 8. -/
theorem ofBits_eight : Ideal.ofBits .f32 0x41000000#32 = ((8 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- Dividing by the word of 8.0 is multiplying by the word of 1/8. -/
theorem div_eight (s : EReal) :
    Ideal.div s (Ideal.ofBits .f32 0x41000000#32) = s * Ideal.ofBits .f32 0x3E000000#32 := by
  rw [ofBits_eight, ofBits_eighth]
  exact Ideal.div_coe (by norm_num : (8 : ℝ) ≠ 0) s

/-- A fold of maxima is at least its start value, so taking the maximum with the start value again changes nothing. -/
theorem max_fold_max {n : Nat} (w : EReal) (s : Fin n → EReal) :
    max w ((Finset.univ : Finset (Fin n)).fold max w s) = (Finset.univ : Finset (Fin n)).fold max w s :=
  max_eq_right ((Finset.le_fold_max w).2 (Or.inl le_rfl))

/-- A sum started from the word of +0.0 is the sum. -/
theorem zero_word_add (y : EReal) : Ideal.ofBits .f32 0x00000000#32 + y = y := by
  rw [Ideal.ofBits_zero_f32, zero_add]

end Cert.RefConsts

end
-- ==== Proof.RefProj.lean ====
/-
  The three projections of the reference, read at a head's coordinates: the reshape of the feature axis into
  (head, coordinate) reads feature 64·h + d, row-major.
-/
import proofs.«109455_j8770323219237_2_alg».proof.Proof.Gen.ReferenceIdeal.Read
import proofs.«109455_j8770323219237_2_alg».proof.Proof.Spec

noncomputable section

open scoped BigOperators

namespace Cert.RefSpec

open Cert.ReferenceIdeal Cert.ReferenceIdeal.Gen Cert.ReferenceIdeal.Read Idealize.ShloMosaic Idealize.ShloMosaic.ValueIdx

/-- Head `h`, row `t`, coordinate `d` of the projected array is the projection at feature `64·h + d`. -/
theorem q_eq (x0 : (⟨S2x2048x768, .f32⟩ : BufTy).Contents (Elt Ideal)) (x1 : (⟨S768x768, .f32⟩ : BufTy).Contents (Elt Ideal)) (x2 : (⟨S768, .f32⟩ : BufTy).Contents (Elt Ideal)) (b : Fin 2) (h : Fin 12) (t : Fin 2048) (d : Fin 64) :
    val_main_v5 (F := Ideal) x0 x1 x2 (ix4 b h t d) = Cert.Spec.proj x0 x1 x2 b t (Cert.Spec.feat h d) := by
  rw [val_main_v5_apply, val_main_v4_apply, val_main_v3_apply, val_main_v0_apply, val_main_v2_apply, val_main_v1_apply]
  unfold Cert.Spec.proj
  simp only [Ideal.addf_def]
  have eb : idx_main_v1 (idx_main_v2 (idx_main_v4 (idx_main_v5 (ix4 b h t d)))) = ix1 (Cert.Spec.feat h d) :=
    funext fun a => Fin.ext (by
      match a with
      | ⟨0, _⟩ =>
        show (((b.val * 2048 + t.val) * 12 + h.val) * 64 + d.val) % 768 = h.val * 64 + d.val
        have := b.isLt; have := t.isLt; have := h.isLt; have := d.isLt; omega)
  have el : ∀ k : Fin 768, lidx_main_v0 (idx_main_v4 (idx_main_v5 (ix4 b h t d))) k = ix3 b t k := fun k =>
    funext fun a => Fin.ext (by
      match a with
      | ⟨0, _⟩ =>
        show (((b.val * 2048 + t.val) * 12 + h.val) * 64 + d.val) / 1572864 = b.val
        have := b.isLt; have := t.isLt; have := h.isLt; have := d.isLt; omega
      | ⟨1, _⟩ =>
        show (((b.val * 2048 + t.val) * 12 + h.val) * 64 + d.val) / 768 % 2048 = t.val
        have := b.isLt; have := t.isLt; have := h.isLt; have := d.isLt; omega
      | ⟨2, _⟩ => rfl)
  have er : ∀ k : Fin 768, ridx_main_v0 (idx_main_v4 (idx_main_v5 (ix4 b h t d))) k = ix2 (Cert.Spec.feat h d) k := fun k =>
    funext fun a => Fin.ext (by
      match a with
      | ⟨0, _⟩ =>
        show (((b.val * 2048 + t.val) * 12 + h.val) * 64 + d.val) % 768 = h.val * 64 + d.val
        have := b.isLt; have := t.isLt; have := h.isLt; have := d.isLt; omega
      | ⟨1, _⟩ => rfl)
  rw [eb]
  exact congrArg (· + x2 (ix1 (Cert.Spec.feat h d))) (Finset.sum_congr rfl fun k _ => by rw [el k, er k])

/-- Head `h`, row `t`, coordinate `d` of the projected array is the projection at feature `64·h + d`. -/
theorem k_eq (x0 : (⟨S2x2048x768, .f32⟩ : BufTy).Contents (Elt Ideal)) (x3 : (⟨S768x768, .f32⟩ : BufTy).Contents (Elt Ideal)) (x4 : (⟨S768, .f32⟩ : BufTy).Contents (Elt Ideal)) (b : Fin 2) (h : Fin 12) (t : Fin 2048) (d : Fin 64) :
    val_main_v11 (F := Ideal) x0 x3 x4 (ix4 b h t d) = Cert.Spec.proj x0 x3 x4 b t (Cert.Spec.feat h d) := by
  rw [val_main_v11_apply, val_main_v10_apply, val_main_v9_apply, val_main_v6_apply, val_main_v8_apply, val_main_v7_apply]
  unfold Cert.Spec.proj
  simp only [Ideal.addf_def]
  have eb : idx_main_v7 (idx_main_v8 (idx_main_v10 (idx_main_v11 (ix4 b h t d)))) = ix1 (Cert.Spec.feat h d) :=
    funext fun a => Fin.ext (by
      match a with
      | ⟨0, _⟩ =>
        show (((b.val * 2048 + t.val) * 12 + h.val) * 64 + d.val) % 768 = h.val * 64 + d.val
        have := b.isLt; have := t.isLt; have := h.isLt; have := d.isLt; omega)
  have el : ∀ k : Fin 768, lidx_main_v6 (idx_main_v10 (idx_main_v11 (ix4 b h t d))) k = ix3 b t k := fun k =>
    funext fun a => Fin.ext (by
      match a with
      | ⟨0, _⟩ =>
        show (((b.val * 2048 + t.val) * 12 + h.val) * 64 + d.val) / 1572864 = b.val
        have := b.isLt; have := t.isLt; have := h.isLt; have := d.isLt; omega
      | ⟨1, _⟩ =>
        show (((b.val * 2048 + t.val) * 12 + h.val) * 64 + d.val) / 768 % 2048 = t.val
        have := b.isLt; have := t.isLt; have := h.isLt; have := d.isLt; omega
      | ⟨2, _⟩ => rfl)
  have er : ∀ k : Fin 768, ridx_main_v6 (idx_main_v10 (idx_main_v11 (ix4 b h t d))) k = ix2 (Cert.Spec.feat h d) k := fun k =>
    funext fun a => Fin.ext (by
      match a with
      | ⟨0, _⟩ =>
        show (((b.val * 2048 + t.val) * 12 + h.val) * 64 + d.val) % 768 = h.val * 64 + d.val
        have := b.isLt; have := t.isLt; have := h.isLt; have := d.isLt; omega
      | ⟨1, _⟩ => rfl)
  rw [eb]
  exact congrArg (· + x4 (ix1 (Cert.Spec.feat h d))) (Finset.sum_congr rfl fun k _ => by rw [el k, er k])

/-- Head `h`, row `t`, coordinate `d` of the projected array is the projection at feature `64·h + d`. -/
theorem v_eq (x0 : (⟨S2x2048x768, .f32⟩ : BufTy).Contents (Elt Ideal)) (x5 : (⟨S768x768, .f32⟩ : BufTy).Contents (Elt Ideal)) (x6 : (⟨S768, .f32⟩ : BufTy).Contents (Elt Ideal)) (b : Fin 2) (h : Fin 12) (t : Fin 2048) (d : Fin 64) :
    val_main_v17 (F := Ideal) x0 x5 x6 (ix4 b h t d) = Cert.Spec.proj x0 x5 x6 b t (Cert.Spec.feat h d) := by
  rw [val_main_v17_apply, val_main_v16_apply, val_main_v15_apply, val_main_v12_apply, val_main_v14_apply, val_main_v13_apply]
  unfold Cert.Spec.proj
  simp only [Ideal.addf_def]
  have eb : idx_main_v13 (idx_main_v14 (idx_main_v16 (idx_main_v17 (ix4 b h t d)))) = ix1 (Cert.Spec.feat h d) :=
    funext fun a => Fin.ext (by
      match a with
      | ⟨0, _⟩ =>
        show (((b.val * 2048 + t.val) * 12 + h.val) * 64 + d.val) % 768 = h.val * 64 + d.val
        have := b.isLt; have := t.isLt; have := h.isLt; have := d.isLt; omega)
  have el : ∀ k : Fin 768, lidx_main_v12 (idx_main_v16 (idx_main_v17 (ix4 b h t d))) k = ix3 b t k := fun k =>
    funext fun a => Fin.ext (by
      match a with
      | ⟨0, _⟩ =>
        show (((b.val * 2048 + t.val) * 12 + h.val) * 64 + d.val) / 1572864 = b.val
        have := b.isLt; have := t.isLt; have := h.isLt; have := d.isLt; omega
      | ⟨1, _⟩ =>
        show (((b.val * 2048 + t.val) * 12 + h.val) * 64 + d.val) / 768 % 2048 = t.val
        have := b.isLt; have := t.isLt; have := h.isLt; have := d.isLt; omega
      | ⟨2, _⟩ => rfl)
  have er : ∀ k : Fin 768, ridx_main_v12 (idx_main_v16 (idx_main_v17 (ix4 b h t d))) k = ix2 (Cert.Spec.feat h d) k := fun k =>
    funext fun a => Fin.ext (by
      match a with
      | ⟨0, _⟩ =>
        show (((b.val * 2048 + t.val) * 12 + h.val) * 64 + d.val) % 768 = h.val * 64 + d.val
        have := b.isLt; have := t.isLt; have := h.isLt; have := d.isLt; omega
      | ⟨1, _⟩ => rfl)
  rw [eb]
  exact congrArg (· + x6 (ix1 (Cert.Spec.feat h d))) (Finset.sum_congr rfl fun k _ => by rw [el k, er k])

end Cert.RefSpec

end
-- ==== Proof.RefIsSpec.lean ====
/-
  The reference program computes the specification's attention weights and heads' outputs: each stage of the
  reference read at an index, the reshape's row-major arithmetic, and the three small laws on the reference's spelling
  (a division by the word of 8.0, a maximum taken once more with −∞, a sum started from +0.0).
-/
import proofs.«109455_j8770323219237_2_alg».proof.Proof.Gen.ReferenceIdeal.Read
import proofs.«109455_j8770323219237_2_alg».proof.Proof.Spec
import proofs.«109455_j8770323219237_2_alg».proof.Proof.RefConsts
import proofs.«109455_j8770323219237_2_alg».proof.Proof.RefProj

noncomputable section

open scoped BigOperators

namespace Cert.RefSpec

open Cert.ReferenceIdeal Cert.ReferenceIdeal.Gen Cert.ReferenceIdeal.Read Idealize.ShloMosaic Idealize.ShloMosaic.ValueIdx

/-- The score of query row `q` against key row `c` is the specification's score of the projected rows. -/
theorem score_eq (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S1x1x2048x2048, .f32⟩ : BufTy).Contents (Elt Ideal)) (b : Fin 2) (h : Fin 12) (q c : Fin 2048) :
    val_main_v22 (F := Ideal) x0 x1 x2 x3 x4 x7 (ix4 b h q c)
      = Cert.Spec.score (fun d => Cert.Spec.proj x0 x1 x2 b q (Cert.Spec.feat h d))
          (fun c' d => Cert.Spec.proj x0 x3 x4 b c' (Cert.Spec.feat h d)) (fun c' => x7 (ix4 0 0 q c')) c := by
  rw [val_main_v22_apply, val_main_v20_apply, val_main_v18_apply, val_main_v19_apply, val_main_cst_apply, val_main_v21_apply]
  unfold Cert.Spec.score
  simp only [Ideal.addf_def, Ideal.hostDivf_def, Ideal.ofBits_def]
  rw [Cert.RefConsts.div_eight]
  have em : idx_main_v21 (ix4 b h q c) = ix4 0 0 q c := funext fun a => Fin.ext (by match a with | ⟨0, _⟩ => rfl | ⟨1, _⟩ => rfl | ⟨2, _⟩ => rfl | ⟨3, _⟩ => rfl)
  have el : ∀ k : Fin 64, lidx_main_v18 (ix4 b h q c) k = ix4 b h q k := fun k => funext fun a => Fin.ext (by match a with | ⟨0, _⟩ => rfl | ⟨1, _⟩ => rfl | ⟨2, _⟩ => rfl | ⟨3, _⟩ => rfl)
  have er : ∀ k : Fin 64, ridx_main_v18 (ix4 b h q c) k = ix4 b h c k := fun k => funext fun a => Fin.ext (by match a with | ⟨0, _⟩ => rfl | ⟨1, _⟩ => rfl | ⟨2, _⟩ => rfl | ⟨3, _⟩ => rfl)
  rw [em]
  exact congrArg (fun s => s * Ideal.ofBits .f32 0x3E000000#32 + x7 (ix4 0 0 q c))
    (Finset.sum_congr rfl fun k _ => by rw [el k, er k, q_eq, k_eq])

/-- The row maximum the reference takes (a fold from −∞ over the key axis, then once more against −∞) is the
    specification's row maximum of the score row. -/
theorem rowmax_eq (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S1x1x2048x2048, .f32⟩ : BufTy).Contents (Elt Ideal)) (b : Fin 2) (h : Fin 12) (q : Fin 2048) :
    val_main_v25 (F := Ideal) x0 x1 x2 x3 x4 x7 (ix3 b h q)
      = Cert.Spec.rowMax (fun c => val_main_v22 (F := Ideal) x0 x1 x2 x3 x4 x7 (ix4 b h q c)) := by
  rw [val_main_v25_apply, val_main_v24_apply, val_main_cst_1_apply]
  unfold val_main_v23 Cert.Spec.rowMax
  generalize val_main_v22 (F := Ideal) x0 x1 x2 x3 x4 x7 = y
  have hR : S2x12x2048x2048.Reduces [3] S2x12x2048 := by decide
  have e := Host.reduce_eq_fold_single (FloatOps.maximumf : Ideal .f32 → Ideal .f32 → Ideal .f32) y (val_main_cst_0 (F := Ideal))
    reducesTo_S2x12x2048x2048_S2x12x2048_d3 hR h_S_ (ix3 b h q)
  have hf : (y ∘ hR.lift (ix3 b h q)) = fun c : Fin 2048 => y (ix4 b h q c) :=
    funext fun k => congrArg y (funext fun a => Fin.ext (by match a with | ⟨0, _⟩ => rfl | ⟨1, _⟩ => rfl | ⟨2, _⟩ => rfl | ⟨3, _⟩ => rfl))
  have e2 := e.trans (congrArg (fun f => Finset.fold max (Ideal.ofBits .f32 0xFF800000#32) f (Finset.univ : Finset (Fin 2048))) hf)
  exact (congrArg (max (Ideal.ofBits .f32 0xFF800000#32)) e2).trans (Cert.RefConsts.max_fold_max _ _)

/-- The exponential of a score less its row's maximum. -/
theorem exp_eq (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S1x1x2048x2048, .f32⟩ : BufTy).Contents (Elt Ideal)) (b : Fin 2) (h : Fin 12) (q c : Fin 2048) :
    val_main_v29 (F := Ideal) x0 x1 x2 x3 x4 x7 (ix4 b h q c)
      = Ideal.exp (val_main_v22 (F := Ideal) x0 x1 x2 x3 x4 x7 (ix4 b h q c)
          - Cert.Spec.rowMax (fun c' => val_main_v22 (F := Ideal) x0 x1 x2 x3 x4 x7 (ix4 b h q c'))) := by
  rw [val_main_v29_apply, val_main_v28_apply, val_main_v27_apply, val_main_v26_apply]
  have ei : idx_main_v26 (idx_main_v27 (ix4 b h q c)) = ix3 b h q := funext fun a => Fin.ext (by match a with | ⟨0, _⟩ => rfl | ⟨1, _⟩ => rfl | ⟨2, _⟩ => rfl)
  rw [ei, rowmax_eq]
  simp only [Ideal.hostUnary_exp_def, Ideal.subf_def]

/-- The reference's weight is the softmax of its score row. -/
theorem softmax_eq (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S1x1x2048x2048, .f32⟩ : BufTy).Contents (Elt Ideal)) (b : Fin 2) (h : Fin 12) (q c : Fin 2048) :
    val_main_v33 (F := Ideal) x0 x1 x2 x3 x4 x7 (ix4 b h q c)
      = Cert.Spec.softmax (fun c' => val_main_v22 (F := Ideal) x0 x1 x2 x3 x4 x7 (ix4 b h q c')) c := by
  rw [val_main_v33_apply, val_main_v32_apply, val_main_v31_apply]
  have ei : idx_main_v31 (idx_main_v32 (ix4 b h q c)) = ix3 b h q := funext fun a => Fin.ext (by match a with | ⟨0, _⟩ => rfl | ⟨1, _⟩ => rfl | ⟨2, _⟩ => rfl)
  rw [ei, val_main_v30_apply, val_main_cst_2_apply]
  simp only [Ideal.hostDivf_def, Ideal.ofBits_def]
  rw [Cert.RefConsts.zero_word_add, exp_eq]
  unfold Cert.Spec.softmax
  refine congrArg (Ideal.div _) (Finset.sum_congr rfl fun k _ => ?_)
  have ek : idx_main_v30 (ix3 b h q) k = ix4 b h q k := funext fun a => Fin.ext (by match a with | ⟨0, _⟩ => rfl | ⟨1, _⟩ => rfl | ⟨2, _⟩ => rfl | ⟨3, _⟩ => rfl)
  rw [ek, exp_eq]

/-- The reference's weight at (b, h, q, c) is the specification's. -/
theorem attn_at (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S1x1x2048x2048, .f32⟩ : BufTy).Contents (Elt Ideal)) (b : Fin 2) (h : Fin 12) (q c : Fin 2048) :
    val_main_v33 (F := Ideal) x0 x1 x2 x3 x4 x7 (ix4 b h q c) = Cert.Spec.attnAt x0 x1 x2 x3 x4 x7 b h q c := by
  rw [softmax_eq]
  unfold Cert.Spec.attnAt
  exact congrArg (fun s => Cert.Spec.softmax s c) (funext fun c' => score_eq x0 x1 x2 x3 x4 x7 b h q c')

/-- The reference's attention weights are the specification's. -/
theorem attn_eq (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S1x1x2048x2048, .f32⟩ : BufTy).Contents (Elt Ideal)) :
    Cert.ReferenceIdeal.Read.val_main_v33 (F := Ideal) x0 x1 x2 x3 x4 x7 = Cert.Spec.attnArr x0 x1 x2 x3 x4 x7 := by
  funext j
  obtain ⟨b, h, q, c, rfl⟩ : ∃ b h q c, j = ix4 b h q c := ⟨j 0, j 1, j 2, j 3, eq_ix4 j⟩
  exact attn_at x0 x1 x2 x3 x4 x7 b h q c

/-- The reference's heads' outputs, laid out (row, head), are the specification's. -/
theorem heads_eq (x0 : (⟨S2x2048x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S1x1x2048x2048, .f32⟩ : BufTy).Contents (Elt Ideal)) :
    Cert.ReferenceIdeal.Read.val_main_v35 (F := Ideal) x0 x1 x2 x3 x4 x5 x6 x7 = Cert.Spec.headsArr x0 x1 x2 x3 x4 x5 x6 x7 := by
  funext j
  obtain ⟨b, t, h, d, rfl⟩ : ∃ b t h d, j = ix4 b t h d := ⟨j 0, j 1, j 2, j 3, eq_ix4 j⟩
  rw [val_main_v35_apply]
  have ei : idx_main_v35 (ix4 b t h d) = ix4 b h t d := funext fun a => Fin.ext (by match a with | ⟨0, _⟩ => rfl | ⟨1, _⟩ => rfl | ⟨2, _⟩ => rfl | ⟨3, _⟩ => rfl)
  rw [ei, val_main_v34_apply]
  show _ = Cert.Spec.headAt x0 x1 x2 x3 x4 x5 x6 x7 b h t d
  unfold Cert.Spec.headAt
  refine Finset.sum_congr rfl fun k _ => ?_
  have el : lidx_main_v34 (ix4 b h t d) k = ix4 b h t k := funext fun a => Fin.ext (by match a with | ⟨0, _⟩ => rfl | ⟨1, _⟩ => rfl | ⟨2, _⟩ => rfl | ⟨3, _⟩ => rfl)
  have er : ridx_main_v34 (ix4 b h t d) k = ix4 b h k d := funext fun a => Fin.ext (by match a with | ⟨0, _⟩ => rfl | ⟨1, _⟩ => rfl | ⟨2, _⟩ => rfl | ⟨3, _⟩ => rfl)
  rw [el, er, attn_at, v_eq]

end Cert.RefSpec

end
-- ==== Proof.lean ====
/-
  Multi-head self-attention as two Pallas pipelines against its jnp reference, equal over the extended reals.

  The kernel program flattens x, concatenates the three weight arrays (transposed) and bias rows, and runs a
  projection pipeline that leaves the query, key and value arrays already split into 12 heads of width 64; an attention
  pipeline then computes, for each batch, head and block of 512 query rows, the scores against all 2048 key rows (scaled
  by 1/8, the mask added), their softmax (the row maximum subtracted first), and the weights' combination of the value
  rows; a final host operation swaps the head and row axes.  The reference computes the same three projections by
  einsum, the scores divided by 8, the same softmax and the same combination.  At the ideal instance a change of float
  format is the identity, a matrix product is a plain sum of products, and dividing by 8 is multiplying by 1/8 on
  every extended real, so both programs end with one and the same pair of arrays of their arguments (Proof/Spec.lean):
  the kernel's side is read off its run (Proof/KiFinal.lean), the reference's off its generated run
  (Proof/RefIsSpec.lean).  The three frames: each kernel program's run leaves every argument as launched
  (Proof/KbFrame.lean at the word-level instance, Proof/KiFrame.lean at the ideal one); the reference's is its generated
  run with the results dropped.  The idealization rewrote no operation, so what it preserves is trivial.
-/
import proofs.«109455_j8770323219237_2_alg».proof.Defs
import proofs.«109455_j8770323219237_2_alg».proof.Proof.Gen.Kernel
import proofs.«109455_j8770323219237_2_alg».proof.Proof.Gen.KernelIdeal
import proofs.«109455_j8770323219237_2_alg».proof.Proof.Gen.ReferenceIdeal
import proofs.«109455_j8770323219237_2_alg».proof.Proof.Gen.Pre_finite_inputs
import proofs.«109455_j8770323219237_2_alg».proof.Proof.Gen.ReferenceIdeal.Run
import proofs.«109455_j8770323219237_2_alg».proof.Proof.Gen.ReferenceIdeal.Read
import proofs.«109455_j8770323219237_2_alg».proof.Proof.KbFrame
import proofs.«109455_j8770323219237_2_alg».proof.Proof.KiFrame
import proofs.«109455_j8770323219237_2_alg».proof.Proof.KiFinal
import proofs.«109455_j8770323219237_2_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs, run from memories agreeing on the arguments, end with the specification's two arrays of those
    arguments. -/
theorem algebraic : Cert.algebraic_KernelIdeal_ReferenceIdeal := by
  intro m ρ m' ρ' _ hagree
  refine ⟨_, _, Cert.KernelIdeal.Val.kernel_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v35_eq, Cert.RefSpec.heads_eq, (hagree c).1, (hagree c).2.1, (hagree c).2.2.1,
      (hagree c).2.2.2.1, (hagree c).2.2.2.2.1, (hagree c).2.2.2.2.2.1, (hagree c).2.2.2.2.2.2.1, (hagree c).2.2.2.2.2.2.2]
  · rw [(h c).2.1, Cert.ReferenceIdeal.Read.val_main_v33_eq, Cert.RefSpec.attn_eq, (hagree c).1, (hagree c).2.1, (hagree c).2.2.1,
      (hagree c).2.2.2.1, (hagree c).2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
